-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S2x128x128 : Shape := ⟨3, ![2, 128, 128]⟩
abbrev S2x128 : Shape := ⟨2, ![2, 128]⟩
abbrev S128x32 : Shape := ⟨2, ![128, 32]⟩
abbrev S32 : Shape := ⟨1, ![32]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S32 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg5 : FVec F S2x128x128 .f32) (main_arg6 : FVec F S2x128 .f32) (main_arg7 : FVec F S128x32 .f32) (main_arg8 : FVec F S32 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S2x128x128 .f32 := Host.absf main_arg5
  let main_cst_6 : FVec F S_ .f32 := constant S_ .f32 0x7F800000#32
  let main_v20 : FVec F S2x128x128 .f32 := broadcastInDim S2x128x128 ![] bcast_S_S2x128x128 main_cst_6
  let main_v21 : IVec S2x128x128 1 := cmpf .olt main_v19 main_v20
  let main_c_7 : IVec S_ 1 := constantI S_ 1 1#1
  let main_v22 : IVec S_ 1 := (fun x v => Host.reduce IntOp.andi x v reducesTo_S2x128x128_S_d0_1_2 h_S_) main_v21 main_c_7
  let main_v23 : IVec S_ 1 := andi main_v18 main_v22
  let main_v24 : FVec F S2x128 .f32 := Host.absf main_arg6
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S128x32 .f32 := Host.absf main_arg7
  let main_cst_10 : FVec F S_ .f32 := constant S_ .f32 0x7F800000#32
  let main_v30 : FVec F S128x32 .f32 := broadcastInDim S128x32 ![] bcast_S_S128x32 main_cst_10
  let main_v31 : IVec S128x32 1 := cmpf .olt main_v29 main_v30
  let main_c_11 : IVec S_ 1 := constantI S_ 1 1#1
  let main_v32 : IVec S_ 1 := (fun x v => Host.reduce IntOp.andi x v reducesTo_S128x32_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x800000 32) (main_arg2 : FVec F S3x128x128 .f32) (main_arg3 : FVec F S3x128 .f32) (main_arg4 : FVec F S3x128x128 .f32) (main_arg5 : FVec F S2x128x128 .f32) (main_arg6 : FVec F S2x128 .f32) (main_arg7 : FVec F S128x32 .f32) (main_arg8 : FVec F S32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_arg8 main_v13 main_v16
-- ==== Kernel.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S2x128x128 : Shape := ⟨3, ![2, 128, 128]⟩
abbrev S2x128 : Shape := ⟨2, ![2, 128]⟩
abbrev S128x32 : Shape := ⟨2, ![128, 32]⟩
abbrev S32 : Shape := ⟨1, ![32]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S50000x32 : Shape := ⟨2, ![50000, 32]⟩

abbrev nBuf : Space → Nat
  | .hbm => 116
  | .vmem => 45
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S3x128x128, .f32⟩
  | .hbm, ⟨3, _⟩ => ⟨S3x128, .f32⟩
  | .hbm, ⟨4, _⟩ => ⟨S3x128x128, .f32⟩
  | .hbm, ⟨5, _⟩ => ⟨S2x128x128, .f32⟩
  | .hbm, ⟨6, _⟩ => ⟨S2x128, .f32⟩
  | .hbm, ⟨7, _⟩ => ⟨S128x32, .f32⟩
  | .hbm, ⟨8, _⟩ => ⟨S32, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S_, .f32⟩
  | .hbm, ⟨36, _⟩ => ⟨S50000x128, .f32⟩
  | .hbm, ⟨37, _⟩ => ⟨S800000x1, .i32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S1x128x128, .f32⟩
  | .hbm, ⟨42, _⟩ => ⟨S128x128, .f32⟩
  | .hbm, ⟨43, _⟩ => ⟨S1x128, .f32⟩
  | .hbm, ⟨44, _⟩ => ⟨S128, .f32⟩
  | .hbm, ⟨45, _⟩ => ⟨S1x128x128, .f32⟩
  | .hbm, ⟨46, _⟩ => ⟨S128x128, .f32⟩
  | .hbm, ⟨47, _⟩ => ⟨S1x128, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S1x128x128, .f32⟩
  | .hbm, ⟨65, _⟩ => ⟨S128x128, .f32⟩
  | .hbm, ⟨66, _⟩ => ⟨S1x128, .f32⟩
  | .hbm, ⟨67, _⟩ => ⟨S128, .f32⟩
  | .hbm, ⟨68, _⟩ => ⟨S1x128x128, .f32⟩
  | .hbm, ⟨69, _⟩ => ⟨S128x128, .f32⟩
  | .hbm, ⟨70, _⟩ => ⟨S1x128, .f32⟩
  | .hbm, ⟨71, _⟩ => ⟨S50000x128, .f32⟩
  | .hbm, ⟨72, _⟩ => ⟨S_, .i32⟩
  | .hbm, ⟨73, _⟩ => ⟨S800000, .i32⟩
  | .hbm, ⟨74, _⟩ => ⟨S800000, .i1⟩
  | .hbm, ⟨75, _⟩ => ⟨S_, .i32⟩
  | .hbm, ⟨76, _⟩ => ⟨S800000, .i32⟩
  | .hbm, ⟨77, _⟩ => ⟨S800000, .i32⟩
  | .hbm, ⟨78, _⟩ => ⟨S800000, .i32⟩
  | .hbm, ⟨79, _⟩ => ⟨S800000x1, .i32⟩
  | .hbm, ⟨80, _⟩ => ⟨S800000x128, .f32⟩
  | .hbm, ⟨81, _⟩ => ⟨S_, .f32⟩
  | .hbm, ⟨82, _⟩ => ⟨S50000x128, .f32⟩
  | .hbm, ⟨83, _⟩ => ⟨S800000x1, .i32⟩
  | .hbm, ⟨84, _⟩ => ⟨S50000x128, .f32⟩
  | .hbm, ⟨85, _⟩ => ⟨S50000x128, .f32⟩
  | .hbm, ⟨86, _⟩ => ⟨S50000x128, .f32⟩
  | .hbm, ⟨87, _⟩ => ⟨S1x128x128, .f32⟩
  | .hbm, ⟨88, _⟩ => ⟨S128x128, .f32⟩
  | .hbm, ⟨89, _⟩ => ⟨S1x128, .f32⟩
  | .hbm, ⟨90, _⟩ => ⟨S128, .f32⟩
  | .hbm, ⟨91, _⟩ => ⟨S1x128x128, .f32⟩
  | .hbm, ⟨92, _⟩ => ⟨S128x128, .f32⟩
  | .hbm, ⟨93, _⟩ => ⟨S1x128, .f32⟩
  | .hbm, ⟨94, _⟩ => ⟨S50000x128, .f32⟩
  | .hbm, ⟨95, _⟩ => ⟨S1x128x128, .f32⟩
  | .hbm, ⟨96, _⟩ => ⟨S128x128, .f32⟩
  | .hbm, ⟨97, _⟩ => ⟨S1x128, .f32⟩
  | .hbm, ⟨98, _⟩ => ⟨S128, .f32⟩
  | .hbm, ⟨99, _⟩ => ⟨S1x128, .f32⟩
  | .hbm, ⟨100, _⟩ => ⟨S50000x128, .f32⟩
  | .hbm, ⟨101, _⟩ => ⟨S1x128x128, .f32⟩
  | .hbm, ⟨102, _⟩ => ⟨S128x128, .f32⟩
  | .hbm, ⟨103, _⟩ => ⟨S1x128, .f32⟩
  | .hbm, ⟨104, _⟩ => ⟨S128, .f32⟩
  | .hbm, ⟨105, _⟩ => ⟨S1x128, .f32⟩
  | .hbm, ⟨106, _⟩ => ⟨S50000x128, .f32⟩
  | .hbm, ⟨107, _⟩ => ⟨S_, .i32⟩
  | .hbm, ⟨108, _⟩ => ⟨S_, .f32⟩
  | .hbm, ⟨109, _⟩ => ⟨S128x128, .f32⟩
  | .hbm, ⟨110, _⟩ => ⟨S_, .i32⟩
  | .hbm, ⟨111, _⟩ => ⟨S_, .f32⟩
  | .hbm, ⟨112, _⟩ => ⟨S128, .f32⟩
  | .hbm, ⟨113, _⟩ => ⟨S1x128, .f32⟩
  | .hbm, ⟨114, _⟩ => ⟨S50000x128, .f32⟩
  | .hbm, ⟨115, _⟩ => ⟨S50000x32, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S128x128, .f32⟩
  | .local _ .vmem, ⟨30, _⟩ => ⟨S1x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S128x128, .f32⟩
  | .local _ .vmem, ⟨36, _⟩ => ⟨S1x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S128x128, .f32⟩
  | .local _ .vmem, ⟨42, _⟩ => ⟨S1x128, .f32⟩
  | .local _ .vmem, ⟨43, _⟩ => ⟨S5000x128, .f32⟩
  | .local _ .vmem, ⟨44, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_5 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_8 : Ref sig .tc := ⟨.hbm, 72, rfl⟩
abbrev main_v53 : Ref sig .tc := ⟨.hbm, 73, rfl⟩
abbrev main_v54 : Ref sig .tc := ⟨.hbm, 74, rfl⟩
abbrev main_c_9 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_10 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_c_11 : Ref sig .tc := ⟨.hbm, 107, rfl⟩
abbrev main_call0_v0 : Ref sig .tc := ⟨.hbm, 108, rfl⟩
abbrev main_v85 : Ref sig .tc := ⟨.hbm, 109, rfl⟩
abbrev main_c_12 : Ref sig .tc := ⟨.hbm, 110, rfl⟩
abbrev main_call1_v0 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg3_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg3_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem3_1 : DmaSem sig := 32
abbrev cc4_sem0_0 : DmaSem sig := 33
abbrev cc4_sem0_1 : DmaSem sig := 34
abbrev cc4_sem1_0 : DmaSem sig := 35
abbrev cc4_sem2_0 : DmaSem sig := 36
abbrev cc4_sem3_0 : DmaSem sig := 37
abbrev cc4_sem3_1 : DmaSem sig := 38
abbrev cc5_sem0_0 : DmaSem sig := 39
abbrev cc5_sem0_1 : DmaSem sig := 40
abbrev cc5_sem1_0 : DmaSem sig := 41
abbrev cc5_sem2_0 : DmaSem sig := 42
abbrev cc5_sem3_0 : DmaSem sig := 43
abbrev cc5_sem3_1 : DmaSem sig := 44

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  slices_S2x128x128_S1x128x128_0_0_0 : S2x128x128.Slices ![0, 0, 0] S1x128x128
  slices_S2x128_S1x128_0_0 : S2x128.Slices ![0, 0] S1x128
  slices_S2x128x128_S1x128x128_1_0_0 : S2x128x128.Slices ![1, 0, 0] S1x128x128
  slices_S2x128_S1x128_1_0 : S2x128.Slices ![1, 0] S1x128
  pads_S128x32_S128x128_000_0960 : S128x32.Pads (![0, 0] : Fin 2 → Nat) ![0, 96] ![0, 0] S128x128
  h_S_ : 0 < S_.numel
  pads_S32_S128_0960 : S32.Pads (![0] : Fin 1 → Nat) ![96] ![0] S128
  slices_S50000x128_S50000x32_0_0 : S50000x128.Slices ![0, 0] S50000x32
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v64) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v66) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v71) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v70) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v72) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v72) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v77) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v78) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v78) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v80) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v83) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v84) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v84) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v85) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v87) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v88) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S2x128x128 : Shape := ⟨3, ![2, 128, 128]⟩
abbrev S2x128 : Shape := ⟨2, ![2, 128]⟩
abbrev S128x32 : Shape := ⟨2, ![128, 32]⟩
abbrev S32 : Shape := ⟨1, ![32]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S50000x32 : Shape := ⟨2, ![50000, 32]⟩
abbrev S1x32 : Shape := ⟨2, ![1, 32]⟩

abbrev nBuf : Space → Nat
  | .hbm => 204
  | .vmem => 0
  | .smem => 0
  | _ => 0

abbrev hbmTy0_0 (i : Nat) : BufTy := match i % 128 with
  | 0 => ⟨S50000x128, .f32⟩
  | 1 => ⟨S2x800000, .i32⟩
  | 2 => ⟨S3x128x128, .f32⟩
  | 3 => ⟨S3x128, .f32⟩
  | 4 => ⟨S3x128x128, .f32⟩
  | 5 => ⟨S2x128x128, .f32⟩
  | 6 => ⟨S2x128, .f32⟩
  | 7 => ⟨S128x32, .f32⟩
  | 8 => ⟨S32, .f32⟩
  | 9 => ⟨S1x800000, .i32⟩
  | 10 => ⟨S800000, .i32⟩
  | 11 => ⟨S1x800000, .i32⟩
  | 12 => ⟨S800000, .i32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S_, .f32⟩
  | 23 => ⟨S50000, .f32⟩
  | 24 => ⟨S50000, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x128, .f32⟩
  | 34 => ⟨S_, .f32⟩
  | 35 => ⟨S50000x128, .f32⟩
  | 36 => ⟨S800000x1, .i32⟩
  | 37 => ⟨S50000x128, .f32⟩
  | 38 => ⟨S50000x1, .f32⟩
  | 39 => ⟨S50000x128, .f32⟩
  | 40 => ⟨S50000x128, .f32⟩
  | 41 => ⟨S1x128x128, .f32⟩
  | 42 => ⟨S128x128, .f32⟩
  | 43 => ⟨S50000x128, .f32⟩
  | 44 => ⟨S1x128, .f32⟩
  | 45 => ⟨S128, .f32⟩
  | 46 => ⟨S1x128, .f32⟩
  | 47 => ⟨S50000x128, .f32⟩
  | 48 => ⟨S50000x128, .f32⟩
  | 49 => ⟨S1x128x128, .f32⟩
  | 50 => ⟨S128x128, .f32⟩
  | 51 => ⟨S50000x128, .f32⟩
  | 52 => ⟨S50000x128, .f32⟩
  | 53 => ⟨S_, .f32⟩
  | 54 => ⟨S50000x128, .f32⟩
  | 55 => ⟨S50000x128, .i1⟩
  | 56 => ⟨S_, .f32⟩
  | 57 => ⟨S50000x128, .f32⟩
  | 58 => ⟨S50000x128, .i1⟩
  | 59 => ⟨S_, .f32⟩
  | 60 => ⟨S_, .f32⟩
  | 61 => ⟨S50000x128, .f32⟩
  | 62 => ⟨S50000x128, .f32⟩
  | 63 => ⟨S50000x128, .f32⟩
  | 64 => ⟨S_, .f32⟩
  | 65 => ⟨S50000x128, .f32⟩
  | 66 => ⟨S50000x128, .f32⟩
  | 67 => ⟨S50000x128, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000x128, .f32⟩
  | 77 => ⟨S_, .f32⟩
  | 78 => ⟨S50000x128, .f32⟩
  | 79 => ⟨S800000x1, .i32⟩
  | 80 => ⟨S50000x128, .f32⟩
  | 81 => ⟨S50000x1, .f32⟩
  | 82 => ⟨S50000x128, .f32⟩
  | 83 => ⟨S50000x128, .f32⟩
  | 84 => ⟨S1x128x128, .f32⟩
  | 85 => ⟨S128x128, .f32⟩
  | 86 => ⟨S50000x128, .f32⟩
  | 87 => ⟨S1x128, .f32⟩
  | 88 => ⟨S128, .f32⟩
  | 89 => ⟨S1x128, .f32⟩
  | 90 => ⟨S50000x128, .f32⟩
  | 91 => ⟨S50000x128, .f32⟩
  | 92 => ⟨S1x128x128, .f32⟩
  | 93 => ⟨S128x128, .f32⟩
  | 94 => ⟨S50000x128, .f32⟩
  | 95 => ⟨S50000x128, .f32⟩
  | 96 => ⟨S_, .f32⟩
  | 97 => ⟨S50000x128, .f32⟩
  | 98 => ⟨S50000x128, .i1⟩
  | 99 => ⟨S_, .f32⟩
  | 100 => ⟨S50000x128, .f32⟩
  | 101 => ⟨S50000x128, .i1⟩
  | 102 => ⟨S_, .f32⟩
  | 103 => ⟨S_, .f32⟩
  | 104 => ⟨S50000x128, .f32⟩
  | 105 => ⟨S50000x128, .f32⟩
  | 106 => ⟨S50000x128, .f32⟩
  | 107 => ⟨S_, .f32⟩
  | 108 => ⟨S50000x128, .f32⟩
  | 109 => ⟨S50000x128, .f32⟩
  | 110 => ⟨S50000x128, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x128, .f32⟩
  | 120 => ⟨S_, .f32⟩
  | 121 => ⟨S50000x128, .f32⟩
  | 122 => ⟨S800000x1, .i32⟩
  | 123 => ⟨S50000x128, .f32⟩
  | 124 => ⟨S50000x1, .f32⟩
  | 125 => ⟨S50000x128, .f32⟩
  | 126 => ⟨S50000x128, .f32⟩
  | 127 => ⟨S1x128x128, .f32⟩
  | _ => ⟨S50000x128, .f32⟩

abbrev hbmTy0_1 (i : Nat) : BufTy := match i % 128 with
  | 0 => ⟨S128x128, .f32⟩
  | 1 => ⟨S50000x128, .f32⟩
  | 2 => ⟨S1x128, .f32⟩
  | 3 => ⟨S128, .f32⟩
  | 4 => ⟨S1x128, .f32⟩
  | 5 => ⟨S50000x128, .f32⟩
  | 6 => ⟨S50000x128, .f32⟩
  | 7 => ⟨S1x128x128, .f32⟩
  | 8 => ⟨S128x128, .f32⟩
  | 9 => ⟨S50000x128, .f32⟩
  | 10 => ⟨S50000x128, .f32⟩
  | 11 => ⟨S_, .f32⟩
  | 12 => ⟨S50000x128, .f32⟩
  | 13 => ⟨S50000x128, .i1⟩
  | 14 => ⟨S_, .f32⟩
  | 15 => ⟨S50000x128, .f32⟩
  | 16 => ⟨S50000x128, .i1⟩
  | 17 => ⟨S_, .f32⟩
  | 18 => ⟨S_, .f32⟩
  | 19 => ⟨S50000x128, .f32⟩
  | 20 => ⟨S50000x128, .f32⟩
  | 21 => ⟨S50000x128, .f32⟩
  | 22 => ⟨S_, .f32⟩
  | 23 => ⟨S50000x128, .f32⟩
  | 24 => ⟨S50000x128, .f32⟩
  | 25 => ⟨S50000x128, .f32⟩
  | 26 => ⟨S1x128x128, .f32⟩
  | 27 => ⟨S128x128, .f32⟩
  | 28 => ⟨S50000x128, .f32⟩
  | 29 => ⟨S1x128, .f32⟩
  | 30 => ⟨S128, .f32⟩
  | 31 => ⟨S1x128, .f32⟩
  | 32 => ⟨S50000x128, .f32⟩
  | 33 => ⟨S50000x128, .f32⟩
  | 34 => ⟨S_, .f32⟩
  | 35 => ⟨S50000x128, .f32⟩
  | 36 => ⟨S50000x128, .i1⟩
  | 37 => ⟨S_, .f32⟩
  | 38 => ⟨S50000x128, .f32⟩
  | 39 => ⟨S50000x128, .i1⟩
  | 40 => ⟨S_, .f32⟩
  | 41 => ⟨S_, .f32⟩
  | 42 => ⟨S50000x128, .f32⟩
  | 43 => ⟨S50000x128, .f32⟩
  | 44 => ⟨S50000x128, .f32⟩
  | 45 => ⟨S_, .f32⟩
  | 46 => ⟨S50000x128, .f32⟩
  | 47 => ⟨S50000x128, .f32⟩
  | 48 => ⟨S50000x128, .f32⟩
  | 49 => ⟨S1x128x128, .f32⟩
  | 50 => ⟨S128x128, .f32⟩
  | 51 => ⟨S50000x128, .f32⟩
  | 52 => ⟨S1x128, .f32⟩
  | 53 => ⟨S128, .f32⟩
  | 54 => ⟨S1x128, .f32⟩
  | 55 => ⟨S50000x128, .f32⟩
  | 56 => ⟨S50000x128, .f32⟩
  | 57 => ⟨S_, .f32⟩
  | 58 => ⟨S50000x128, .f32⟩
  | 59 => ⟨S50000x128, .i1⟩
  | 60 => ⟨S_, .f32⟩
  | 61 => ⟨S50000x128, .f32⟩
  | 62 => ⟨S50000x128, .i1⟩
  | 63 => ⟨S_, .f32⟩
  | 64 => ⟨S_, .f32⟩
  | 65 => ⟨S50000x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000x128, .f32⟩
  | 72 => ⟨S50000x32, .f32⟩
  | 73 => ⟨S1x32, .f32⟩
  | 74 => ⟨S50000x32, .f32⟩
  | 75 => ⟨S50000x32, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call0_cst : Ref sig .tc := ⟨.hbm, 53, rfl⟩
abbrev main_call0_v0 : Ref sig .tc := ⟨.hbm, 54, rfl⟩
abbrev main_call0_v1 : Ref sig .tc := ⟨.hbm, 55, rfl⟩
abbrev main_call0_cst_0 : Ref sig .tc := ⟨.hbm, 56, rfl⟩
abbrev main_call0_v2 : Ref sig .tc := ⟨.hbm, 57, rfl⟩
abbrev main_call0_v3 : Ref sig .tc := ⟨.hbm, 58, rfl⟩
abbrev main_call0_cst_1 : Ref sig .tc := ⟨.hbm, 59, rfl⟩
abbrev main_call0_call0_v0 : Ref sig .tc := ⟨.hbm, 60, rfl⟩
abbrev main_call0_call0_v1 : Ref sig .tc := ⟨.hbm, 61, rfl⟩
abbrev main_call0_v4 : Ref sig .tc := ⟨.hbm, 62, rfl⟩
abbrev main_call0_v5 : Ref sig .tc := ⟨.hbm, 63, rfl⟩
abbrev main_call0_cst_2 : Ref sig .tc := ⟨.hbm, 64, rfl⟩
abbrev main_call0_v6 : Ref sig .tc := ⟨.hbm, 65, rfl⟩
abbrev main_call0_v7 : Ref sig .tc := ⟨.hbm, 66, rfl⟩
abbrev main_v37 : Ref sig .tc := ⟨.hbm, 67, rfl⟩
abbrev main_c_5 : Ref sig .tc := ⟨.hbm, 68, rfl⟩
abbrev main_v38 : Ref sig .tc := ⟨.hbm, 69, rfl⟩
abbrev main_v39 : Ref sig .tc := ⟨.hbm, 70, rfl⟩
abbrev main_c_6 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_7 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_call1_cst : Ref sig .tc := ⟨.hbm, 96, rfl⟩
abbrev main_call1_v0 : Ref sig .tc := ⟨.hbm, 97, rfl⟩
abbrev main_call1_v1 : Ref sig .tc := ⟨.hbm, 98, rfl⟩
abbrev main_call1_cst_0 : Ref sig .tc := ⟨.hbm, 99, rfl⟩
abbrev main_call1_v2 : Ref sig .tc := ⟨.hbm, 100, rfl⟩
abbrev main_call1_v3 : Ref sig .tc := ⟨.hbm, 101, rfl⟩
abbrev main_call1_cst_1 : Ref sig .tc := ⟨.hbm, 102, rfl⟩
abbrev main_call1_call0_v0 : Ref sig .tc := ⟨.hbm, 103, rfl⟩
abbrev main_call1_call0_v1 : Ref sig .tc := ⟨.hbm, 104, rfl⟩
abbrev main_call1_v4 : Ref sig .tc := ⟨.hbm, 105, rfl⟩
abbrev main_call1_v5 : Ref sig .tc := ⟨.hbm, 106, rfl⟩
abbrev main_call1_cst_2 : Ref sig .tc := ⟨.hbm, 107, rfl⟩
abbrev main_call1_v6 : Ref sig .tc := ⟨.hbm, 108, rfl⟩
abbrev main_call1_v7 : Ref sig .tc := ⟨.hbm, 109, rfl⟩
abbrev main_v63 : Ref sig .tc := ⟨.hbm, 110, rfl⟩
abbrev main_c_8 : Ref sig .tc := ⟨.hbm, 111, rfl⟩
abbrev main_v64 : Ref sig .tc := ⟨.hbm, 112, rfl⟩
abbrev main_v65 : Ref sig .tc := ⟨.hbm, 113, rfl⟩
abbrev main_c_9 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_cst_10 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_call2_cst : Ref sig .tc := ⟨.hbm, 139, rfl⟩
abbrev main_call2_v0 : Ref sig .tc := ⟨.hbm, 140, rfl⟩
abbrev main_call2_v1 : Ref sig .tc := ⟨.hbm, 141, rfl⟩
abbrev main_call2_cst_0 : Ref sig .tc := ⟨.hbm, 142, rfl⟩
abbrev main_call2_v2 : Ref sig .tc := ⟨.hbm, 143, rfl⟩
abbrev main_call2_v3 : Ref sig .tc := ⟨.hbm, 144, rfl⟩
abbrev main_call2_cst_1 : Ref sig .tc := ⟨.hbm, 145, rfl⟩
abbrev main_call2_call0_v0 : Ref sig .tc := ⟨.hbm, 146, rfl⟩
abbrev main_call2_call0_v1 : Ref sig .tc := ⟨.hbm, 147, rfl⟩
abbrev main_call2_v4 : Ref sig .tc := ⟨.hbm, 148, rfl⟩
abbrev main_call2_v5 : Ref sig .tc := ⟨.hbm, 149, rfl⟩
abbrev main_call2_cst_2 : Ref sig .tc := ⟨.hbm, 150, rfl⟩
abbrev main_call2_v6 : Ref sig .tc := ⟨.hbm, 151, rfl⟩
abbrev main_call2_v7 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_call3_cst : Ref sig .tc := ⟨.hbm, 162, rfl⟩
abbrev main_call3_v0 : Ref sig .tc := ⟨.hbm, 163, rfl⟩
abbrev main_call3_v1 : Ref sig .tc := ⟨.hbm, 164, rfl⟩
abbrev main_call3_cst_0 : Ref sig .tc := ⟨.hbm, 165, rfl⟩
abbrev main_call3_v2 : Ref sig .tc := ⟨.hbm, 166, rfl⟩
abbrev main_call3_v3 : Ref sig .tc := ⟨.hbm, 167, rfl⟩
abbrev main_call3_cst_1 : Ref sig .tc := ⟨.hbm, 168, rfl⟩
abbrev main_call3_call0_v0 : Ref sig .tc := ⟨.hbm, 169, rfl⟩
abbrev main_call3_call0_v1 : Ref sig .tc := ⟨.hbm, 170, rfl⟩
abbrev main_call3_v4 : Ref sig .tc := ⟨.hbm, 171, rfl⟩
abbrev main_call3_v5 : Ref sig .tc := ⟨.hbm, 172, rfl⟩
abbrev main_call3_cst_2 : Ref sig .tc := ⟨.hbm, 173, rfl⟩
abbrev main_call3_v6 : Ref sig .tc := ⟨.hbm, 174, rfl⟩
abbrev main_call3_v7 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_call4_cst : Ref sig .tc := ⟨.hbm, 185, rfl⟩
abbrev main_call4_v0 : Ref sig .tc := ⟨.hbm, 186, rfl⟩
abbrev main_call4_v1 : Ref sig .tc := ⟨.hbm, 187, rfl⟩
abbrev main_call4_cst_0 : Ref sig .tc := ⟨.hbm, 188, rfl⟩
abbrev main_call4_v2 : Ref sig .tc := ⟨.hbm, 189, rfl⟩
abbrev main_call4_v3 : Ref sig .tc := ⟨.hbm, 190, rfl⟩
abbrev main_call4_cst_1 : Ref sig .tc := ⟨.hbm, 191, rfl⟩
abbrev main_call4_call0_v0 : Ref sig .tc := ⟨.hbm, 192, rfl⟩
abbrev main_call4_call0_v1 : Ref sig .tc := ⟨.hbm, 193, rfl⟩
abbrev main_call4_v4 : Ref sig .tc := ⟨.hbm, 194, rfl⟩
abbrev main_call4_v5 : Ref sig .tc := ⟨.hbm, 195, rfl⟩
abbrev main_call4_cst_2 : Ref sig .tc := ⟨.hbm, 196, rfl⟩
abbrev main_call4_v6 : Ref sig .tc := ⟨.hbm, 197, rfl⟩
abbrev main_call4_v7 : Ref sig .tc := ⟨.hbm, 198, rfl⟩
abbrev main_v107 : Ref sig .tc := ⟨.hbm, 199, rfl⟩
abbrev main_v108 : Ref sig .tc := ⟨.hbm, 200, rfl⟩
abbrev main_v109 : Ref sig .tc := ⟨.hbm, 201, rfl⟩
abbrev main_v110 : Ref sig .tc := ⟨.hbm, 202, rfl⟩
abbrev main_v111 : Ref sig .tc := ⟨.hbm, 203, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  slices_S2x128x128_S1x128x128_0_0_0 : S2x128x128.Slices ![0, 0, 0] S1x128x128
  slices_S2x128_S1x128_0_0 : S2x128.Slices ![0, 0] S1x128
  slices_S2x128x128_S1x128x128_1_0_0 : S2x128x128.Slices ![1, 0, 0] S1x128x128
  slices_S2x128_S1x128_1_0 : S2x128.Slices ![1, 0] S1x128
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x32_S50000x32_1_0_0_1_n_n_wf : DotDims.WF S50000x128 S128x32 S50000x32 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf

class Facts : Prop extends Facts₀ where

variable [Facts]
-- ==== Proof.KernelRun.lean ====
/-
  The idealized kernel's run with its result array named.

  @main is seventeen segments: stretches of host operations and six pipelined regions. The buffer contents at the
  last boundary are a fold from the launch memory through all of them; every execution ends with each unscoped
  buffer at that fold, so in particular the result array ends at the fold read at the result's buffer, and each
  argument array as launched.
-/
import proofs.«105906_j24541443129509_1_alg».proof.Proof.Gen.KernelIdeal.Frame

set_option maxRecDepth 16384

noncomputable section

namespace Cert.KernelIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result array ends at the last boundary's
    contents read at its buffer, and the nine argument arrays end as launched. -/
theorem run_out : θ_run defs (onTc (τ := τ) (main (F := F))) ⟨m, fun _ => 0, ρ⟩ (fun r => ∀ c : Dev nD,
      r.2.mem ((c.tc : Thread nD τ).loc main_v89) = W17 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v89 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c)⟩)

end Cert.KernelIdeal.Out

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibHostReads.lean ====
/-
  Three host-side readings at an entry, over any sizes, on the extended reals.

  * A plain matrix product on the host (an M × K by a K × N `dot_general`, no batch axes): entry (i, j) is
    Σ_k lhs (i, k) · rhs (k, j).
  * One matrix picked out of a tensor [G, O, K, N] by slicing the first axis at g, dropping it, slicing the next at o
    and dropping it too: entry (k, n) of the result is the tensor at (g, o, k, n).
  * One row picked out of a table [G, N] at g, flattened, and broadcast down M rows: entry (i, n) of the result is
    the table at (g, n).
-/
import Idealize.ShloMosaic.PureOps.Ideal.Laws
import Idealize.ShloMosaic.Lib.Pipeline.Value
import Idealize.ShloMosaic.Lib.ValueIdx

noncomputable section

open scoped BigOperators

namespace Cert.LibHostReads

open Idealize.ShloMosaic Idealize.ShloMosaic.ValueIdx

/-- Entry (i, j) of the host's plain product of `lhs` (M × K) and `rhs` (K × N). -/
theorem dotGeneral_plain_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (F := Ideal) (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- One matrix of a [G, O, K, N] tensor, picked by two slice-and-drop steps, read at (k, n). -/
theorem select_matrix_apply {α : Type} {G O K N : Nat} (W : (⟨4, ![G, O, K, N]⟩ : Shape).Idx → α) (g : Fin G) (o : Fin O)
    (h1 : (⟨4, ![G, O, K, N]⟩ : Shape).Slices ![g.val, 0, 0, 0] ⟨4, ![1, O, K, N]⟩)
    (h2 : (⟨4, ![1, O, K, N]⟩ : Shape).ShapeCasts ⟨3, ![O, K, N]⟩)
    (h3 : (⟨3, ![O, K, N]⟩ : Shape).Slices ![o.val, 0, 0] ⟨3, ![1, K, N]⟩)
    (h4 : (⟨3, ![1, K, N]⟩ : Shape).ShapeCasts ⟨2, ![K, N]⟩) (k : Fin K) (n : Fin N) :
    shapeCast ⟨2, ![K, N]⟩ (extractStridedSlice ⟨3, ![1, K, N]⟩ ![o.val, 0, 0]
      (shapeCast ⟨3, ![O, K, N]⟩ (extractStridedSlice ⟨4, ![1, O, K, N]⟩ ![g.val, 0, 0, 0] W h1) h2) h3) h4 (ix2 k n)
      = W (ix4 g o k n) := by
  refine (shapeCast_apply _ h4 (ix2 k n) (ix3 (0 : Fin 1) k n) ?_).trans ?_
  · rewrite [Shape.rowMajor_val_three, Shape.rowMajor_val_two]
    show ((0 : Fin 1).val * K + k.val) * N + n.val = k.val * N + n.val
    simp
  refine (extractStridedSlice_apply ![o.val, 0, 0] _ h3 (ix3 (0 : Fin 1) k n) (ix3 o k n) ?_).trans ?_
  · intro a
    match a with
    | ⟨0, _⟩ => show o.val = o.val + (0 : Fin 1).val; simp
    | ⟨1, _⟩ => show k.val = 0 + k.val; omega
    | ⟨2, _⟩ => show n.val = 0 + n.val; omega
  refine (shapeCast_apply _ h2 (ix3 o k n) (ix4 (0 : Fin 1) o k n) ?_).trans ?_
  · rewrite [Shape.rowMajor_val_four, Shape.rowMajor_val_three]
    show (((0 : Fin 1).val * O + o.val) * K + k.val) * N + n.val = (o.val * K + k.val) * N + n.val
    simp
  refine extractStridedSlice_apply ![g.val, 0, 0, 0] W h1 (ix4 (0 : Fin 1) o k n) (ix4 g o k n) ?_
  intro a
  match a with
  | ⟨0, _⟩ => show g.val = g.val + (0 : Fin 1).val; simp
  | ⟨1, _⟩ => show o.val = 0 + o.val; omega
  | ⟨2, _⟩ => show k.val = 0 + k.val; omega
  | ⟨3, _⟩ => show n.val = 0 + n.val; omega

/-- One row of a [G, N] table picked at g, flattened and broadcast down M rows, read at (i, n). -/
theorem select_row_apply {α : Type} {G N M : Nat} (hN : N ≠ 1) (B : (⟨2, ![G, N]⟩ : Shape).Idx → α) (g : Fin G)
    (h1 : (⟨2, ![G, N]⟩ : Shape).Slices ![g.val, 0] ⟨2, ![1, N]⟩)
    (h2 : (⟨2, ![1, N]⟩ : Shape).ShapeCasts ⟨1, ![N]⟩)
    (h3 : (⟨1, ![N]⟩ : Shape).BroadcastsInDim ⟨2, ![1, N]⟩ ![1])
    (h4 : (⟨2, ![1, N]⟩ : Shape).BroadcastsInDim ⟨2, ![M, N]⟩ ![0, 1]) (i : Fin M) (n : Fin N) :
    broadcastInDim ⟨2, ![M, N]⟩ ![0, 1] h4 (broadcastInDim ⟨2, ![1, N]⟩ ![1] h3
      (shapeCast ⟨1, ![N]⟩ (extractStridedSlice ⟨2, ![1, N]⟩ ![g.val, 0] B h1) h2)) (ix2 i n) = B (ix2 g n) := by
  refine (broadcastInDim_apply _ h4 _ (ix2 i n) (ix2 (0 : Fin 1) n) ?_).trans ?_
  · intro a
    match a with
    | ⟨0, _⟩ => show (0 : Fin 1).val = if (1 : Nat) = 1 then 0 else i.val; rw [if_pos rfl]; rfl
    | ⟨1, _⟩ => show n.val = if N = 1 then 0 else n.val; rw [if_neg hN]
  refine (broadcastInDim_apply _ h3 _ (ix2 (0 : Fin 1) n) (ix1 n) ?_).trans ?_
  · intro a
    match a with
    | ⟨0, _⟩ => show n.val = if N = 1 then 0 else n.val; rw [if_neg hN]
  refine (shapeCast_apply _ h2 (ix1 n) (ix2 (0 : Fin 1) n) ?_).trans ?_
  · rewrite [Shape.rowMajor_val_two, Shape.rowMajor_val_one]
    show (0 : Fin 1).val * N + n.val = n.val
    simp
  refine extractStridedSlice_apply ![g.val, 0] B h1 (ix2 (0 : Fin 1) n) (ix2 g n) ?_
  intro a
  match a with
  | ⟨0, _⟩ => show g.val = g.val + (0 : Fin 1).val; simp
  | ⟨1, _⟩ => show n.val = 0 + n.val; omega

end Cert.LibHostReads

end
-- ==== Proof.LibHostLayout.lean ====
/-
  Two host re-layings read at one entry, over any sizes and any element type.

  * A matrix transposed: the result at (i, j) is the matrix at (j, i).
  * A vector of N entries laid as a row [1, N] and then down M rows, by two `broadcast_in_dim`s: the result at (r, c)
    is entry c.
  * A rank-zero value broadcast to a matrix: every entry is the value.
-/
import Idealize.ShloMosaic.Lib.Pipeline.Value
import Idealize.ShloMosaic.Lib.ValueIdx

noncomputable section

namespace Cert.HostLayout

open Idealize.ShloMosaic Idealize.ShloMosaic.ValueIdx

/-- A transposed matrix at (i, j) is the matrix at (j, i). -/
theorem transpose2_apply {α : Type} {a b : ℕ} (x : (⟨2, ![a, b]⟩ : Shape).Idx → α)
    (h : (⟨2, ![a, b]⟩ : Shape).Transposes [1, 0] ⟨2, ![b, a]⟩) (i : Fin b) (j : Fin a) :
    transpose ⟨2, ![b, a]⟩ [1, 0] x h (ix2 i j) = x (ix2 j i) := by
  refine transpose_apply [1, 0] x h (ix2 i j) (ix2 j i) fun q => ?_
  match q with
  | ⟨0, _⟩ => rfl
  | ⟨1, _⟩ => rfl

/-- A vector laid as a row and then down M rows reads, at (r, c), entry c. -/
theorem biasRow_apply {α : Type} {M N : ℕ} (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 v) (ix2 r c) = v (ix1 c) := by
  refine (broadcastInDim_apply _ h2 _ (ix2 r c) (ix2 (0 : Fin 1) c) fun a => ?_).trans
    (broadcastInDim_apply _ h1 v (ix2 (0 : Fin 1) c) (ix1 c) fun a => ?_)
  · match a with
    | ⟨0, _⟩ => show (0 : Fin 1).val = if (1 : Nat) = 1 then 0 else r.val; rw [if_pos rfl]; rfl
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- A rank-zero value broadcast to any shape reads the value everywhere. -/
theorem scalar_apply {α : Type} {t : Shape} (u : (⟨0, ![]⟩ : Shape).Idx → α)
    (h : (⟨0, ![]⟩ : Shape).BroadcastsInDim t ![]) (i : t.Idx) :
    broadcastInDim t ![] h u i = u (fun a => a.elim0) :=
  broadcastInDim_apply ![] h u i (fun a => a.elim0) (fun a => a.elim0)

end Cert.HostLayout

end
-- ==== Proof.LibBlockRows.lean ====
/-
  Picking rows out of a matrix, and the layers of a dense graph network read on the picked rows.

  A map ρ from the row numbers of a small matrix to the row numbers of a tall one lays rows ρ 0, ρ 1, … of the
  tall matrix as a matrix of its own (`rowsOf`). Every layer below acts on each row separately, so computing the
  layer on the picked rows gives the picked rows of the layer computed on the whole matrix:

  * a product with a fixed right factor, Σ_k A (r, k) · G (k, c): the matrix unit's product into a zero
    accumulator on the picked rows against the host's plain product on the whole;
  * a bias, one vector of N numbers added to every row: the vector laid as a row and broadcast down the picked
    rows against two host broadcasts down all rows;
  * the entry-by-entry operations (sum, product, maximum, exponential) and a constant splat.

  Everything is on the extended reals, where a change of float format is the identity, so an operand may first
  have been converted to a narrower format.
-/
import Idealize.ShloMosaic.PureOps.Ideal.Laws
import Idealize.ShloMosaic.Lib.Pipeline.Value
import Idealize.ShloMosaic.Lib.ValueIdx
import Idealize.ShloMosaic.Lib.ValueLayout
import proofs.«105906_j24541443129509_1_alg».proof.Proof.LibPlainMatmul
import proofs.«105906_j24541443129509_1_alg».proof.Proof.LibHostReads
import proofs.«105906_j24541443129509_1_alg».proof.Proof.LibHostLayout

noncomputable section

open scoped BigOperators

namespace Cert.BlockRows

open Idealize.ShloMosaic Idealize.ShloMosaic.ValueIdx

variable {TM M K N : Nat}

/-- Rows ρ 0, ρ 1, … of an M-row matrix, laid as a TM-row matrix. -/
def rowsOf {α : Type} (ρ : Fin TM → Fin M) (X : (⟨2, ![M, K]⟩ : Shape).Idx → α) : (⟨2, ![TM, K]⟩ : Shape).Idx → α :=
  fun j => X (ix2 (ρ (j 0)) (j 1))

/-- Entry (p, k) of the picked rows is entry (ρ p, k) of the matrix. -/
theorem rowsOf_apply {α : Type} (ρ : Fin TM → Fin M) (X : (⟨2, ![M, K]⟩ : Shape).Idx → α) (p : Fin TM) (k : Fin K) :
    rowsOf ρ X (ix2 p k) = X (ix2 (ρ p) k) := rfl

/-- Picking every row in place changes nothing. -/
theorem rowsOf_id {α : Type} (X : (⟨2, ![M, K]⟩ : Shape).Idx → α) : rowsOf (fun p : Fin M => p) X = X := by
  funext j
  exact congrArg X (eq_ix2 j).symm

/-- Row p of block t when M rows are cut into n blocks of TM rows each: row TM · t + p. -/
def blockRow (TM n M : Nat) (h : TM * n ≤ M) (t : Fin n) : Fin TM → Fin M := fun p =>
  ⟨TM * t.val + p.val, by
    have ht := t.isLt
    have hp := p.isLt
    calc TM * t.val + p.val < TM * t.val + TM := by omega
      _ = TM * (t.val + 1) := by rw [Nat.mul_succ]
      _ ≤ TM * n := Nat.mul_le_mul_left _ (by omega)
      _ ≤ M := h⟩

/-- Its row number. -/
theorem blockRow_val (TM n M : Nat) (h : TM * n ≤ M) (t : Fin n) (p : Fin TM) :
    (blockRow TM n M h t p).val = TM * t.val + p.val := rfl

/-- A sum of picked rows is the picked rows of the sum. -/
theorem addf_rows {φ : FTy} (ρ : Fin TM → Fin M) (X Y : FVec Ideal ⟨2, ![M, N]⟩ φ) :
    addf (rowsOf ρ X) (rowsOf ρ Y) = rowsOf ρ (addf X Y) := rfl

/-- A product, entry by entry, of picked rows is the picked rows of the product. -/
theorem mulf_rows {φ : FTy} (ρ : Fin TM → Fin M) (X Y : FVec Ideal ⟨2, ![M, N]⟩ φ) :
    mulf (rowsOf ρ X) (rowsOf ρ Y) = rowsOf ρ (mulf X Y) := rfl

/-- The exponential of picked rows is the picked rows of the host's exponential: one function on the extended reals. -/
theorem exp_rows {φ : FTy} (ρ : Fin TM → Fin M) (X : FVec Ideal ⟨2, ![M, N]⟩ φ) :
    exp (rowsOf ρ X) = rowsOf ρ (Host.exp X) := rfl

/-- The host's plain product of an M × K by a K × N matrix. -/
def propagate (A : FVec Ideal ⟨2, ![M, K]⟩ .f32) (G : FVec Ideal ⟨2, ![K, N]⟩ .f32) : FVec Ideal ⟨2, ![M, N]⟩ .f32 :=
  Host.dotGeneral (F := Ideal) (DotDims.plain M K N) none A G

/-- The host's dense layer: the plain product X · W plus the one row B added to every row. -/
def dense (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    FVec Ideal ⟨2, ![M, N]⟩ .f32 :=
  addf (Host.dotGeneral (F := Ideal) (DotDims.plain M K N) none X W) (broadcastInDim ⟨2, ![M, N]⟩ ![0, 1] h2 B)

/-- The host's maximum with zero, the zero a rank-zero constant broadcast to the matrix. -/
def relu (h0 : (⟨0, ![]⟩ : Shape).BroadcastsInDim ⟨2, ![M, N]⟩ ![]) (Y : FVec Ideal ⟨2, ![M, N]⟩ .f32) :
    FVec Ideal ⟨2, ![M, N]⟩ .f32 :=
  maximumf Y (broadcastInDim ⟨2, ![M, N]⟩ ![] h0 (constant (F := Ideal) ⟨0, ![]⟩ .f32 0x00000000#32))

/-- The host's product with a constant, the constant of word `w` broadcast from rank zero. -/
def scaled (w : BitVec 32) (h0 : (⟨0, ![]⟩ : Shape).BroadcastsInDim ⟨2, ![M, N]⟩ ![]) (Y : FVec Ideal ⟨2, ![M, N]⟩ .f32) :
    FVec Ideal ⟨2, ![M, N]⟩ .f32 :=
  mulf (broadcastInDim ⟨2, ![M, N]⟩ ![] h0 (constant (F := Ideal) ⟨0, ![]⟩ .f32 w)) Y

/-- The product with a fixed right factor, row by row: when row p of `a` is row ρ p of `A` and `g` is `G`, the
    matrix unit's product of `a` and `g` into zeros is the picked rows of the host's product of `A` and `G`. -/
theorem matmul_rows (ρ : Fin TM → Fin M) {φ₁ φ₂ : FTy} (prec prec' : Option ContractPrecision)
    (a : FVec Ideal ⟨2, ![TM, K]⟩ φ₁) (g : FVec Ideal ⟨2, ![K, N]⟩ φ₂)
    (A : FVec Ideal ⟨2, ![M, K]⟩ .f32) (G : FVec Ideal ⟨2, ![K, N]⟩ .f32)
    (ha : ∀ (p : Fin TM) (k : Fin K), (a (ix2 p k) : EReal) = A (ix2 (ρ p) k))
    (hg : ∀ (k : Fin K) (n : Fin N), (g (ix2 k n) : EReal) = G (ix2 k n)) :
    matmul (DotDims.plain TM K N) prec a g (constant ⟨2, ![TM, N]⟩ .f32 0x00000000#32)
      = rowsOf ρ (Host.dotGeneral (F := Ideal) (DotDims.plain M K N) prec' A G) := by
  funext j
  obtain ⟨p, c, rfl⟩ : ∃ (p : Fin TM) (c : Fin N), j = ix2 p c := ⟨j 0, j 1, eq_ix2 j⟩
  rw [rowsOf_apply, Cert.LibHostReads.dotGeneral_plain_apply]
  refine (Cert.PlainMatmul.matmul_zero_apply TM K N prec a g p c).trans ?_
  exact Finset.sum_congr rfl fun k _ => congrArg₂ (· * ·) (ha p k) (hg k c)

/-- The propagation step on picked rows: the matrix unit's product, into zeros, of the picked rows of A and the
    whole of G — both first converted to a narrower float format, which changes nothing on the extended reals — is
    the picked rows of the host's product A · G. -/
theorem propagate_rows (ρ : Fin TM → Fin M) {ψ : FTy} (hψ : ψ.bits < FTy.f32.bits)
    (hs : (⟨2, ![K, N]⟩ : Shape).ShapeCasts ⟨2, ![K, N]⟩)
    (A : FVec Ideal ⟨2, ![M, K]⟩ .f32) (G : FVec Ideal ⟨2, ![K, N]⟩ .f32) :
    matmul (DotDims.plain TM K N) none (truncf ψ (rowsOf ρ A) hψ) (truncf ψ (shapeCast ⟨2, ![K, N]⟩ G hs) hψ)
        (constant ⟨2, ![TM, N]⟩ .f32 0x00000000#32)
      = rowsOf ρ (propagate A G) := by
  rw [shapeCast_self]
  exact matmul_rows ρ none none _ _ A G (fun _ _ => rfl) (fun _ _ => rfl)

/-- A dense layer on picked rows: the matrix unit's product of the picked rows of X and the whole of W into zeros,
    plus the row B broadcast down the picked rows, is the picked rows of the host's layer on X. -/
theorem dense_rows (ρ : Fin TM → Fin M)
    (hsw : (⟨2, ![K, N]⟩ : Shape).ShapeCasts ⟨2, ![K, N]⟩) (hs : (⟨2, ![1, N]⟩ : Shape).ShapeCasts ⟨2, ![1, N]⟩)
    (hb : (⟨2, ![1, N]⟩ : Shape).Broadcasts ⟨2, ![TM, N]⟩)
    (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    addf (matmul (DotDims.plain TM K N) none (rowsOf ρ X) (shapeCast ⟨2, ![K, N]⟩ W hsw)
          (constant ⟨2, ![TM, N]⟩ .f32 0x00000000#32))
        (broadcastTo ⟨2, ![TM, N]⟩ (shapeCast ⟨2, ![1, N]⟩ B hs) hb)
      = rowsOf ρ (dense h2 X W B) := by
  rw [shapeCast_self, shapeCast_self, matmul_rows ρ none none (rowsOf ρ X) W X W (fun _ _ => rfl) (fun _ _ => rfl)]
  unfold dense
  rw [← addf_rows]
  refine congrArg (addf (rowsOf ρ (Host.dotGeneral (F := Ideal) (DotDims.plain M K N) none X W))) ?_
  funext j
  obtain ⟨p, c, rfl⟩ : ∃ (p : Fin TM) (c : Fin N), j = ix2 p c := ⟨j 0, j 1, eq_ix2 j⟩
  rw [broadcastTo_1b_ab_apply, rowsOf_apply]
  refine (broadcastInDim_apply _ h2 B (ix2 (ρ p) c) (ix2 (0 : Fin 1) c) fun a => ?_).symm
  match a with
  | ⟨0, _⟩ => show (0 : Fin 1).val = if (1 : Nat) = 1 then 0 else (ρ p).val; rw [if_pos rfl]; rfl
  | ⟨1, _⟩ =>
    show c.val = if N = 1 then 0 else c.val
    split
    · have := c.isLt; omega
    · rfl

/-- A vector of N numbers reshaped to one row is the same vector broadcast into a row along its one axis. -/
theorem reshape_row {α : Type} (v : (⟨1, ![N]⟩ : Shape).Idx → α) (hs : (⟨1, ![N]⟩ : Shape).ShapeCasts ⟨2, ![1, N]⟩)
    (h1 : (⟨1, ![N]⟩ : Shape).BroadcastsInDim ⟨2, ![1, N]⟩ ![1]) :
    shapeCast ⟨2, ![1, N]⟩ v hs = broadcastInDim ⟨2, ![1, N]⟩ ![1] h1 v := by
  funext i
  obtain ⟨z, c, rfl⟩ : ∃ (z : Fin 1) (c : Fin N), i = ix2 z c := ⟨i 0, i 1, eq_ix2 i⟩
  have hz : z.val = 0 := by have := z.isLt; omega
  refine (shapeCast_apply v hs (ix2 z c) (ix1 c) ?_).trans (broadcastInDim_apply ![1] h1 v (ix2 z c) (ix1 c) fun a => ?_).symm
  · rewrite [Shape.rowMajor_val_two, Shape.rowMajor_val_one]
    show c.val = z.val * N + c.val
    rw [hz]; simp
  · match a with
    | ⟨0, _⟩ =>
      show c.val = if N = 1 then 0 else c.val
      split
      · have := c.isLt; omega
      · rfl

/-- A constant splat over TM rows is the picked rows of the same constant broadcast from rank zero over M rows. -/
theorem splat_rows (ρ : Fin TM → Fin M) (w : BitVec 32) (h : (⟨0, ![]⟩ : Shape).BroadcastsInDim ⟨2, ![M, N]⟩ ![]) :
    (broadcast ⟨2, ![TM, N]⟩ (Scalar.ofBits (F := Ideal) .f32 w) : FVec Ideal ⟨2, ![TM, N]⟩ .f32)
      = rowsOf ρ (broadcastInDim ⟨2, ![M, N]⟩ ![] h (constant (F := Ideal) ⟨0, ![]⟩ .f32 w)) := by
  funext j
  exact (Cert.HostLayout.scalar_apply (constant (F := Ideal) ⟨0, ![]⟩ .f32 w) h (ix2 (ρ (j 0)) (j 1))).symm

/-- The maximum with a splat zero of picked rows is the picked rows of the host's maximum with zero. -/
theorem relu_rows (ρ : Fin TM → Fin M) (h0 : (⟨0, ![]⟩ : Shape).BroadcastsInDim ⟨2, ![M, N]⟩ ![])
    (Y : FVec Ideal ⟨2, ![M, N]⟩ .f32) :
    maximumf (rowsOf ρ Y) (broadcast ⟨2, ![TM, N]⟩ (Scalar.ofBits (F := Ideal) .f32 0x00000000#32)) = rowsOf ρ (relu h0 Y) := by
  rw [splat_rows ρ 0x00000000#32 h0]; rfl

/-- The product of a splat constant with picked rows is the picked rows of the host's product with the constant. -/
theorem scaled_rows (ρ : Fin TM → Fin M) (w : BitVec 32) (h0 : (⟨0, ![]⟩ : Shape).BroadcastsInDim ⟨2, ![M, N]⟩ ![])
    (Y : FVec Ideal ⟨2, ![M, N]⟩ .f32) :
    mulf (broadcast ⟨2, ![TM, N]⟩ (Scalar.ofBits (F := Ideal) .f32 w)) (rowsOf ρ Y) = rowsOf ρ (scaled w h0 Y) := by
  rw [splat_rows ρ w h0]; rfl

end Cert.BlockRows

end
-- ==== Proof.LibRowLayers.lean ====
/-
  Layers of a dense network read on picked rows, one operation at a time.

  A block of TM rows is cut out of a tall matrix of M rows by a map ρ of row numbers (Cert.BlockRows.rowsOf). Each
  lemma below takes an operand that IS the picked rows of some tall matrix (an equation, so that the lemma applies to
  whatever expression the operand is spelled as) and says that one more operation on it gives the picked rows of the
  host's operation on the tall matrix:

  * a bias given as a matrix B of ONE row, broadcast down the block, against the same row broadcast down all M rows;
  * a sum of two operands, a maximum with a constant zero, a reshape to the operand's own shape;
  * a change to a narrower float format, which on the extended reals changes nothing;
  * the matrix unit's product into a zero accumulator with a fixed right factor against the host's plain product.

  Chained, they read max(x·W + B, 0) and the like, computed on a block, as rows of the same expression on whole arrays.
-/
import Idealize.ShloMosaic.PureOps.Ideal.Laws
import Idealize.ShloMosaic.Lib.Pipeline.Value
import Idealize.ShloMosaic.Lib.ValueIdx
import Idealize.ShloMosaic.Lib.ValueLayout
import proofs.«105906_j24541443129509_1_alg».proof.Proof.LibBlockRows

noncomputable section

namespace Cert.RowLayers

open Idealize.ShloMosaic Idealize.ShloMosaic.ValueIdx Cert.BlockRows

variable {TM M K N : Nat}

/-- The host's bias matrix of a one-row matrix: the row broadcast down M rows. -/
def rowBias {α : Type} (h2 : (⟨2, ![1, N]⟩ : Shape).BroadcastsInDim ⟨2, ![M, N]⟩ ![0, 1])
    (B : (⟨2, ![1, N]⟩ : Shape).Idx → α) : (⟨2, ![M, N]⟩ : Shape).Idx → α :=
  broadcastInDim ⟨2, ![M, N]⟩ ![0, 1] h2 B

/-- Entry (r, c) of the bias matrix is entry (0, c) of the row. -/
theorem rowBias_apply {α : Type} (h2 : (⟨2, ![1, N]⟩ : Shape).BroadcastsInDim ⟨2, ![M, N]⟩ ![0, 1])
    (B : (⟨2, ![1, N]⟩ : Shape).Idx → α) (r : Fin M) (c : Fin N) : rowBias h2 B (ix2 r c) = B (ix2 (0 : Fin 1) c) := by
  unfold rowBias
  refine broadcastInDim_apply _ h2 B (ix2 r c) (ix2 (0 : Fin 1) c) fun a => ?_
  match a with
  | ⟨0, _⟩ => show (0 : Fin 1).val = if (1 : Nat) = 1 then 0 else r.val; rw [if_pos rfl]; rfl
  | ⟨1, _⟩ =>
    show c.val = if N = 1 then 0 else c.val
    split
    · have := c.isLt; omega
    · rfl

/-- The one row, reshaped to its own shape and broadcast down a block of TM rows, is any TM picked rows of the
    host's bias matrix. -/
theorem rowBias_rows {α : Type} (ρ : Fin TM → Fin M) (B : (⟨2, ![1, N]⟩ : Shape).Idx → α)
    (hs : (⟨2, ![1, N]⟩ : Shape).ShapeCasts ⟨2, ![1, N]⟩) (hb : (⟨2, ![1, N]⟩ : Shape).Broadcasts ⟨2, ![TM, N]⟩)
    (h2 : (⟨2, ![1, N]⟩ : Shape).BroadcastsInDim ⟨2, ![M, N]⟩ ![0, 1]) :
    broadcastTo ⟨2, ![TM, N]⟩ (shapeCast ⟨2, ![1, N]⟩ B hs) hb = rowsOf ρ (rowBias h2 B) := by
  rw [shapeCast_self]
  funext j
  obtain ⟨p, c, rfl⟩ : ∃ (p : Fin TM) (c : Fin N), j = ix2 p c := ⟨j 0, j 1, eq_ix2 j⟩
  rw [broadcastTo_1b_ab_apply, rowsOf_apply, rowBias_apply]

/-- A reshape of picked rows to their own shape is the picked rows. -/
theorem cast_of_rows {α : Type} (ρ : Fin TM → Fin M) (y : (⟨2, ![TM, N]⟩ : Shape).Idx → α) (Y : (⟨2, ![M, N]⟩ : Shape).Idx → α)
    (hy : y = rowsOf ρ Y) (hs : (⟨2, ![TM, N]⟩ : Shape).ShapeCasts ⟨2, ![TM, N]⟩) :
    shapeCast ⟨2, ![TM, N]⟩ y hs = rowsOf ρ Y := by
  rw [shapeCast_self]; exact hy

/-- Picked rows plus the bias row broadcast down the block are the picked rows of the host's sum with the bias matrix. -/
theorem addBias_of_rows (ρ : Fin TM → Fin M) (y : FVec Ideal ⟨2, ![TM, N]⟩ .f32) (Y : FVec Ideal ⟨2, ![M, N]⟩ .f32)
    (hy : y = rowsOf ρ Y) (B : FVec Ideal ⟨2, ![1, N]⟩ .f32)
    (hs : (⟨2, ![1, N]⟩ : Shape).ShapeCasts ⟨2, ![1, N]⟩) (hb : (⟨2, ![1, N]⟩ : Shape).Broadcasts ⟨2, ![TM, N]⟩)
    (h2 : (⟨2, ![1, N]⟩ : Shape).BroadcastsInDim ⟨2, ![M, N]⟩ ![0, 1]) :
    addf y (broadcastTo ⟨2, ![TM, N]⟩ (shapeCast ⟨2, ![1, N]⟩ B hs) hb) = rowsOf ρ (addf Y (rowBias h2 B)) := by
  subst hy
  rw [rowBias_rows ρ B hs hb h2, addf_rows]

/-- A sum of two operands that are picked rows is the picked rows of the sum. -/
theorem addf_of_rows (ρ : Fin TM → Fin M) (y z : FVec Ideal ⟨2, ![TM, N]⟩ .f32) (Y Z : FVec Ideal ⟨2, ![M, N]⟩ .f32)
    (hy : y = rowsOf ρ Y) (hz : z = rowsOf ρ Z) : addf y z = rowsOf ρ (addf Y Z) := by
  subst hy hz; rfl

/-- The maximum of picked rows with a splat zero is the picked rows of the host's maximum with zero. -/
theorem relu_of_rows (ρ : Fin TM → Fin M) (y : FVec Ideal ⟨2, ![TM, N]⟩ .f32) (Y : FVec Ideal ⟨2, ![M, N]⟩ .f32)
    (hy : y = rowsOf ρ Y) (h0 : (⟨0, ![]⟩ : Shape).BroadcastsInDim ⟨2, ![M, N]⟩ ![]) :
    maximumf y (broadcast ⟨2, ![TM, N]⟩ (Scalar.ofBits (F := Ideal) .f32 0x00000000#32)) = rowsOf ρ (relu h0 Y) := by
  subst hy
  exact relu_rows ρ h0 Y

/-- Picked rows converted to a narrower float format are, on the extended reals, the same picked rows. -/
theorem trunc_of_rows (ρ : Fin TM → Fin M) {ψ : FTy} (hψ : ψ.bits < FTy.f32.bits) (y : FVec Ideal ⟨2, ![TM, N]⟩ .f32)
    (Y : FVec Ideal ⟨2, ![M, N]⟩ .f32) (hy : y = rowsOf ρ Y) :
    (truncf ψ y hψ : (⟨2, ![TM, N]⟩ : Shape).Idx → EReal) = rowsOf ρ Y := hy

/-- A whole matrix converted to a narrower float format is, on the extended reals, the same matrix. -/
theorem trunc_whole {s : Shape} {ψ : FTy} (hψ : ψ.bits < FTy.f32.bits) (g G : FVec Ideal s .f32) (hg : g = G) :
    (truncf ψ g hψ : s.Idx → EReal) = G := hg

/-- The matrix unit's product into zeros of a left operand that IS picked rows of A with a right operand that IS G
    (either possibly in another float format) is the picked rows of the host's A · G. -/
theorem matmul_of_rows (ρ : Fin TM → Fin M) {φ₁ φ₂ : FTy} (a : FVec Ideal ⟨2, ![TM, K]⟩ φ₁) (g : FVec Ideal ⟨2, ![K, N]⟩ φ₂)
    (A : FVec Ideal ⟨2, ![M, K]⟩ .f32) (G : FVec Ideal ⟨2, ![K, N]⟩ .f32)
    (ha : (a : (⟨2, ![TM, K]⟩ : Shape).Idx → EReal) = rowsOf ρ A) (hg : (g : (⟨2, ![K, N]⟩ : Shape).Idx → EReal) = G) :
    matmul (DotDims.plain TM K N) none a g (constant ⟨2, ![TM, N]⟩ .f32 0x00000000#32) = rowsOf ρ (propagate A G) :=
  matmul_rows ρ none none a g A G (fun p k => congrFun ha (ix2 p k)) (fun k n => congrFun hg (ix2 k n))

end Cert.RowLayers

end
-- ==== Proof.LibDenseBlock.lean ====
/-
  A dense layer computed on a block of rows.

  A tall matrix X of M rows is cut into blocks of TM rows; a block is the rows ρ 0, ρ 1, … of X for a map ρ of row
  numbers. On such a block the matrix unit forms the product with a fixed K × N table W into a zero accumulator — both
  operands first narrowed to a shorter float format, which on the extended reals changes nothing —, adds a one-row
  matrix B broadcast down the block, and possibly cuts the sum at zero from below. Each of these acts on every row
  by itself, so the block's result is the rows ρ 0, ρ 1, … of the same layer computed by the host on all of X:
  X · W, plus B broadcast down all M rows, possibly cut at zero. The block's left operand may first have been
  reshaped to its own shape.
-/
import Idealize.ShloMosaic.PureOps.Ideal.Laws
import Idealize.ShloMosaic.Lib.Pipeline.Value
import Idealize.ShloMosaic.Lib.ValueIdx
import Idealize.ShloMosaic.Lib.ValueLayout
import proofs.«105906_j24541443129509_1_alg».proof.Proof.LibRowLayers

noncomputable section

namespace Cert.DenseBlock

open Idealize.ShloMosaic Idealize.ShloMosaic.ValueIdx Cert.BlockRows Cert.RowLayers

variable {TM M K N : Nat}

/-- The host's affine layer on all M rows: X · W plus the one row B under every row. -/
def affine (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    FVec Ideal ⟨2, ![M, N]⟩ .f32 :=
  addf (propagate X W) (rowBias h2 B)

/-- The same cut at zero from below. -/
def affineRelu (h0 : (⟨0, ![]⟩ : Shape).BroadcastsInDim ⟨2, ![M, N]⟩ ![])
    (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    FVec Ideal ⟨2, ![M, N]⟩ .f32 :=
  relu h0 (affine h2 X W B)

/-- The affine layer on a block: narrowed picked rows of X times narrowed W into zeros, plus B broadcast down the
    block, is the picked rows of the host's affine layer. -/
theorem affine_rows (ρ : Fin TM → Fin M) {ψ : FTy} (hψ : ψ.bits < FTy.f32.bits)
    (hs : (⟨2, ![1, N]⟩ : Shape).ShapeCasts ⟨2, ![1, N]⟩) (hb : (⟨2, ![1, N]⟩ : Shape).Broadcasts ⟨2, ![TM, N]⟩)
    (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    addf (matmul (DotDims.plain TM K N) none (truncf ψ (rowsOf ρ X) hψ) (truncf ψ W hψ)
          (constant ⟨2, ![TM, N]⟩ .f32 0x00000000#32))
        (broadcastTo ⟨2, ![TM, N]⟩ (shapeCast ⟨2, ![1, N]⟩ B hs) hb)
      = rowsOf ρ (affine h2 X W B) :=
  addBias_of_rows ρ _ (propagate X W)
    (matmul_of_rows ρ (truncf ψ (rowsOf ρ X) hψ) (truncf ψ W hψ) X W rfl rfl) B hs hb h2

/-- The same with the block's left operand first reshaped to its own shape. -/
theorem affine_rows_cast (ρ : Fin TM → Fin M) {ψ : FTy} (hψ : ψ.bits < FTy.f32.bits)
    (hx : (⟨2, ![TM, K]⟩ : Shape).ShapeCasts ⟨2, ![TM, K]⟩)
    (hs : (⟨2, ![1, N]⟩ : Shape).ShapeCasts ⟨2, ![1, N]⟩) (hb : (⟨2, ![1, N]⟩ : Shape).Broadcasts ⟨2, ![TM, N]⟩)
    (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    addf (matmul (DotDims.plain TM K N) none (truncf ψ (shapeCast ⟨2, ![TM, K]⟩ (rowsOf ρ X) hx) hψ) (truncf ψ W hψ)
          (constant ⟨2, ![TM, N]⟩ .f32 0x00000000#32))
        (broadcastTo ⟨2, ![TM, N]⟩ (shapeCast ⟨2, ![1, N]⟩ B hs) hb)
      = rowsOf ρ (affine h2 X W B) := by
  rw [shapeCast_self]
  exact affine_rows ρ hψ hs hb h2 X W B

/-- The affine layer cut at zero, on a block. -/
theorem affineRelu_rows (ρ : Fin TM → Fin M) {ψ : FTy} (hψ : ψ.bits < FTy.f32.bits)
    (hs : (⟨2, ![1, N]⟩ : Shape).ShapeCasts ⟨2, ![1, N]⟩) (hb : (⟨2, ![1, N]⟩ : Shape).Broadcasts ⟨2, ![TM, N]⟩)
    (h0 : (⟨0, ![]⟩ : Shape).BroadcastsInDim ⟨2, ![M, N]⟩ ![])
    (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    maximumf
        (addf (matmul (DotDims.plain TM K N) none (truncf ψ (rowsOf ρ X) hψ) (truncf ψ W hψ)
            (constant ⟨2, ![TM, N]⟩ .f32 0x00000000#32))
          (broadcastTo ⟨2, ![TM, N]⟩ (shapeCast ⟨2, ![1, N]⟩ B hs) hb))
        (broadcast ⟨2, ![TM, N]⟩ (Scalar.ofBits (F := Ideal) .f32 0x00000000#32))
      = rowsOf ρ (affineRelu h0 h2 X W B) :=
  relu_of_rows ρ _ (affine h2 X W B) (affine_rows ρ hψ hs hb h2 X W B) h0

/-- The same with the block's left operand first reshaped to its own shape. -/
theorem affineRelu_rows_cast (ρ : Fin TM → Fin M) {ψ : FTy} (hψ : ψ.bits < FTy.f32.bits)
    (hx : (⟨2, ![TM, K]⟩ : Shape).ShapeCasts ⟨2, ![TM, K]⟩)
    (hs : (⟨2, ![1, N]⟩ : Shape).ShapeCasts ⟨2, ![1, N]⟩) (hb : (⟨2, ![1, N]⟩ : Shape).Broadcasts ⟨2, ![TM, N]⟩)
    (h0 : (⟨0, ![]⟩ : Shape).BroadcastsInDim ⟨2, ![M, N]⟩ ![])
    (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    maximumf
        (addf (matmul (DotDims.plain TM K N) none (truncf ψ (shapeCast ⟨2, ![TM, K]⟩ (rowsOf ρ X) hx) hψ) (truncf ψ W hψ)
            (constant ⟨2, ![TM, N]⟩ .f32 0x00000000#32))
          (broadcastTo ⟨2, ![TM, N]⟩ (shapeCast ⟨2, ![1, N]⟩ B hs) hb))
        (broadcast ⟨2, ![TM, N]⟩ (Scalar.ofBits (F := Ideal) .f32 0x00000000#32))
      = rowsOf ρ (affineRelu h0 h2 X W B) :=
  relu_of_rows ρ _ (affine h2 X W B) (affine_rows_cast ρ hψ hx hs hb h2 X W B) h0

end Cert.DenseBlock

end
-- ==== Proof.LibEluLayers.lean ====
/-
  The exponential linear unit and two layers that end in it, read on picked rows.

  elu y is y where y is positive and exp y − 1 elsewhere. The vector unit spells it with a comparison against a
  splat zero, an exponential, a subtraction of a splat one and a select; the host (jax.nn.elu) spells it with the
  comparison against a zero broadcast from rank zero, the exponential-minus-one of the argument with its positive
  entries replaced by zero, a product with a one broadcast from rank zero, and a select. On the extended reals
  both are the same function of each entry, since exponential-minus-one is exp − 1 there and a product with one
  changes nothing.

  Two layers built from it, each acting on every row of a tall matrix by itself, so that the layer on a block of
  picked rows is the picked rows of the layer on the whole matrix:

  * sage A X Wl B Wr = elu ((A · Wl + B) + X · Wr), B a one-row matrix added under every row;
  * lin X W B = elu (X · W + B).
-/
import Idealize.ShloMosaic.PureOps.Ideal.Laws
import Idealize.ShloMosaic.Lib.Pipeline.Value
import Idealize.ShloMosaic.Lib.ValueIdx
import Idealize.ShloMosaic.Lib.ValueLayout
import Idealize.ShloMosaic.Lib.IdealHost
import proofs.«105906_j24541443129509_1_alg».proof.Proof.LibRowLayers
import proofs.«105906_j24541443129509_1_alg».proof.Proof.LibDenseBlock

noncomputable section

namespace Cert.EluLayers

open Idealize.ShloMosaic Idealize.ShloMosaic.ValueIdx Cert.BlockRows Cert.RowLayers Cert.DenseBlock

variable {TM M K N : Nat}

/-- The exponential linear unit of one extended real: y where 0 < y, exp y − 1 elsewhere (the zero and the one
    as the f32 words the programs carry). -/
def eluS (y : EReal) : EReal :=
  Scalar.select (FloatOps.cmpf (F := Ideal) (φ := .f32) .ogt y (FloatOps.ofBits (F := Ideal) .f32 0x00000000#32)) y
    (FloatOps.subf (F := Ideal) (φ := .f32) (FloatOps.exp (F := Ideal) (φ := .f32) y) (FloatOps.ofBits (F := Ideal) .f32 0x3F800000#32))

/-- The unit applied to every entry of an array. -/
def elu {s : Shape} (Y : FVec Ideal s .f32) : FVec Ideal s .f32 := fun i => eluS (Y i)

/-- The vector unit's spelling is the unit entry by entry. -/
theorem elu_vector {s : Shape} (y : FVec Ideal s .f32) :
    select (cmpf .ogt y (broadcast s (Scalar.ofBits (F := Ideal) .f32 0x00000000#32))) y
        (subf (exp y) (broadcast s (Scalar.ofBits (F := Ideal) .f32 0x3F800000#32)))
      = elu y := rfl

/-- The unit on picked rows is the picked rows of the unit. -/
theorem elu_rows (ρ : Fin TM → Fin M) (Y : FVec Ideal ⟨2, ![M, N]⟩ .f32) : elu (rowsOf ρ Y) = rowsOf ρ (elu Y) := rfl

/-- At one entry: the host's spelling, with its inner guard select, is the unit. -/
theorem eluS_host (y : EReal) :
    Scalar.select (FloatOps.cmpf (F := Ideal) (φ := .f32) .ogt y (FloatOps.ofBits (F := Ideal) .f32 0x00000000#32)) y
        (FloatOps.mulf (F := Ideal) (φ := .f32) (FloatOps.ofBits (F := Ideal) .f32 0x3F800000#32)
          (FloatOps.hostUnary (F := Ideal) (φ := .f32) .expm1
            (Scalar.select (FloatOps.cmpf (F := Ideal) (φ := .f32) .ogt y (FloatOps.ofBits (F := Ideal) .f32 0x00000000#32))
              (FloatOps.ofBits (F := Ideal) .f32 0x00000000#32) y)))
      = eluS y := by
  unfold eluS
  rcases BitVec.eq_zero_or_eq_one (FloatOps.cmpf (F := Ideal) (φ := .f32) .ogt y (FloatOps.ofBits (F := Ideal) .f32 0x00000000#32)) with h | h
  · rw [h]
    simp only [Scalar.select, Ideal.ofBits_def, Ideal.ofBits_one_f32, Ideal.mulf_def, Ideal.subf_def, Ideal.exp_def,
      Ideal.hostUnary_expm1_def, one_mul]
    rfl
  · rw [h]; rfl

/-- The host's spelling of the unit on a whole array: the comparison with a zero broadcast from rank zero, the
    exponential-minus-one of the argument with its positive entries replaced by zero, the product with a one broadcast
    from rank zero, the select. -/
def eluHost {s : Shape} (h0 : (⟨0, ![]⟩ : Shape).BroadcastsInDim s ![]) (x : FVec Ideal s .f32) : FVec Ideal s .f32 :=
  select (cmpf .ogt x (broadcastInDim s ![] h0 (constant (F := Ideal) ⟨0, ![]⟩ .f32 0x00000000#32))) x
    (mulf (broadcastInDim s ![] h0 (constant (F := Ideal) ⟨0, ![]⟩ .f32 0x3F800000#32))
      (Host.expm1
        (select (cmpf .ogt x (broadcastInDim s ![] h0 (constant (F := Ideal) ⟨0, ![]⟩ .f32 0x00000000#32)))
          (broadcastInDim s ![] h0 (id (constant (F := Ideal) ⟨0, ![]⟩ .f32 0x00000000#32))) x)))

/-- The host's spelling on a whole array is the unit entry by entry. -/
theorem elu_host {s : Shape} (h0 : (⟨0, ![]⟩ : Shape).BroadcastsInDim s ![]) (x : FVec Ideal s .f32) :
    eluHost h0 x = elu x := by
  unfold eluHost
  funext i
  have hz : broadcastInDim s ![] h0 (constant (F := Ideal) ⟨0, ![]⟩ .f32 0x00000000#32) i
      = FloatOps.ofBits (F := Ideal) .f32 0x00000000#32 := Cert.HostLayout.scalar_apply _ h0 i
  have ho : broadcastInDim s ![] h0 (constant (F := Ideal) ⟨0, ![]⟩ .f32 0x3F800000#32) i
      = FloatOps.ofBits (F := Ideal) .f32 0x3F800000#32 := Cert.HostLayout.scalar_apply _ h0 i
  show Scalar.select (FloatOps.cmpf .ogt (x i) (broadcastInDim s ![] h0 (constant (F := Ideal) ⟨0, ![]⟩ .f32 0x00000000#32) i)) (x i)
      (FloatOps.mulf (broadcastInDim s ![] h0 (constant (F := Ideal) ⟨0, ![]⟩ .f32 0x3F800000#32) i)
        (FloatOps.hostUnary .expm1
          (Scalar.select (FloatOps.cmpf .ogt (x i) (broadcastInDim s ![] h0 (constant (F := Ideal) ⟨0, ![]⟩ .f32 0x00000000#32) i))
            (broadcastInDim s ![] h0 (constant (F := Ideal) ⟨0, ![]⟩ .f32 0x00000000#32) i) (x i)))) = eluS (x i)
  rw [hz, ho]
  exact eluS_host (x i)

/-- The graph layer before the unit, on all M rows: (A · Wl + B) + X · Wr, B one row under every row. -/
def sagePre (h2 : (⟨2, ![1, N]⟩ : Shape).BroadcastsInDim ⟨2, ![M, N]⟩ ![0, 1])
    (A X : FVec Ideal ⟨2, ![M, K]⟩ .f32) (Wl : FVec Ideal ⟨2, ![K, N]⟩ .f32) (B : FVec Ideal ⟨2, ![1, N]⟩ .f32)
    (Wr : FVec Ideal ⟨2, ![K, N]⟩ .f32) : FVec Ideal ⟨2, ![M, N]⟩ .f32 :=
  addf (addf (propagate A Wl) (rowBias h2 B)) (propagate X Wr)

/-- The graph layer on all M rows: elu ((A · Wl + B) + X · Wr), B one row under every row. -/
def sage (h2 : (⟨2, ![1, N]⟩ : Shape).BroadcastsInDim ⟨2, ![M, N]⟩ ![0, 1])
    (A X : FVec Ideal ⟨2, ![M, K]⟩ .f32) (Wl : FVec Ideal ⟨2, ![K, N]⟩ .f32) (B : FVec Ideal ⟨2, ![1, N]⟩ .f32)
    (Wr : FVec Ideal ⟨2, ![K, N]⟩ .f32) : FVec Ideal ⟨2, ![M, N]⟩ .f32 :=
  elu (sagePre h2 A X Wl B Wr)

/-- The dense layer on all M rows: elu (X · W + B). -/
def lin (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    FVec Ideal ⟨2, ![M, N]⟩ .f32 :=
  elu (affine h2 X W B)

/-- The graph layer before the unit, on a block. The left operands ARE picked rows of A and of X and the right
    operands ARE Wl and Wr (equations, so that each may be spelled with a reshape to its own shape or a change of float
    format): both products into zeros, the row B broadcast down the block between them, are the picked rows of the
    same sum on the whole matrices. -/
theorem sagePre_of_rows (ρ : Fin TM → Fin M) {φ₁ φ₂ φ₃ φ₄ : FTy}
    (a : FVec Ideal ⟨2, ![TM, K]⟩ φ₁) (wl : FVec Ideal ⟨2, ![K, N]⟩ φ₂)
    (x : FVec Ideal ⟨2, ![TM, K]⟩ φ₃) (wr : FVec Ideal ⟨2, ![K, N]⟩ φ₄)
    (A X : FVec Ideal ⟨2, ![M, K]⟩ .f32) (Wl Wr : FVec Ideal ⟨2, ![K, N]⟩ .f32) (B : FVec Ideal ⟨2, ![1, N]⟩ .f32)
    (ha : (a : (⟨2, ![TM, K]⟩ : Shape).Idx → EReal) = rowsOf ρ A) (hwl : (wl : (⟨2, ![K, N]⟩ : Shape).Idx → EReal) = Wl)
    (hx : (x : (⟨2, ![TM, K]⟩ : Shape).Idx → EReal) = rowsOf ρ X) (hwr : (wr : (⟨2, ![K, N]⟩ : Shape).Idx → EReal) = Wr)
    (hs : (⟨2, ![1, N]⟩ : Shape).ShapeCasts ⟨2, ![1, N]⟩) (hb : (⟨2, ![1, N]⟩ : Shape).Broadcasts ⟨2, ![TM, N]⟩)
    (h2 : (⟨2, ![1, N]⟩ : Shape).BroadcastsInDim ⟨2, ![M, N]⟩ ![0, 1]) :
    addf
        (addf (matmul (DotDims.plain TM K N) none a wl (constant ⟨2, ![TM, N]⟩ .f32 0x00000000#32))
          (broadcastTo ⟨2, ![TM, N]⟩ (shapeCast ⟨2, ![1, N]⟩ B hs) hb))
        (matmul (DotDims.plain TM K N) none x wr (constant ⟨2, ![TM, N]⟩ .f32 0x00000000#32))
      = rowsOf ρ (sagePre h2 A X Wl B Wr) :=
  addf_of_rows ρ _ _ _ _
    (addBias_of_rows ρ _ (propagate A Wl) (matmul_of_rows ρ a wl A Wl ha hwl) B hs hb h2)
    (matmul_of_rows ρ x wr X Wr hx hwr)

/-- The dense layer before the unit, on a block, in the same style: the product into zeros plus the row B broadcast
    down the block is the picked rows of X · W + B. -/
theorem affine_of_rows (ρ : Fin TM → Fin M) {φ₁ φ₂ : FTy}
    (x : FVec Ideal ⟨2, ![TM, K]⟩ φ₁) (w : FVec Ideal ⟨2, ![K, N]⟩ φ₂)
    (X : FVec Ideal ⟨2, ![M, K]⟩ .f32) (W : FVec Ideal ⟨2, ![K, N]⟩ .f32) (B : FVec Ideal ⟨2, ![1, N]⟩ .f32)
    (hx : (x : (⟨2, ![TM, K]⟩ : Shape).Idx → EReal) = rowsOf ρ X) (hw : (w : (⟨2, ![K, N]⟩ : Shape).Idx → EReal) = W)
    (hs : (⟨2, ![1, N]⟩ : Shape).ShapeCasts ⟨2, ![1, N]⟩) (hb : (⟨2, ![1, N]⟩ : Shape).Broadcasts ⟨2, ![TM, N]⟩)
    (h2 : (⟨2, ![1, N]⟩ : Shape).BroadcastsInDim ⟨2, ![M, N]⟩ ![0, 1]) :
    addf (matmul (DotDims.plain TM K N) none x w (constant ⟨2, ![TM, N]⟩ .f32 0x00000000#32))
        (broadcastTo ⟨2, ![TM, N]⟩ (shapeCast ⟨2, ![1, N]⟩ B hs) hb)
      = rowsOf ρ (affine h2 X W B) :=
  addBias_of_rows ρ _ (propagate X W) (matmul_of_rows ρ x w X W hx hw) B hs hb h2

/-- A narrowed reshape of picked rows to their own shape is, on the extended reals, the picked rows. -/
theorem narrowed_cast_rows (ρ : Fin TM → Fin M) {ψ : FTy} (hψ : ψ.bits < FTy.f32.bits)
    (hc : (⟨2, ![TM, K]⟩ : Shape).ShapeCasts ⟨2, ![TM, K]⟩) (X : FVec Ideal ⟨2, ![M, K]⟩ .f32) :
    (truncf ψ (shapeCast ⟨2, ![TM, K]⟩ (rowsOf ρ X) hc) hψ : (⟨2, ![TM, K]⟩ : Shape).Idx → EReal) = rowsOf ρ X := by
  rw [shapeCast_self]; rfl

/-- A narrowed reshape of a whole matrix to its own shape is, on the extended reals, the matrix. -/
theorem narrowed_cast_whole {s : Shape} {ψ : FTy} (hψ : ψ.bits < FTy.f32.bits) (hc : s.ShapeCasts s) (W : FVec Ideal s .f32) :
    (truncf ψ (shapeCast s W hc) hψ : s.Idx → EReal) = W := by
  rw [shapeCast_self]; rfl

end Cert.EluLayers

end
-- ==== Proof.NetSpec.lean ====
/-
  The network both programs compute, as one function of the nine argument arrays.

  Three graph layers, two dense layers with the exponential linear unit, and a dense head without it. A graph layer
  first aggregates: every edge (s, d) of the edge list adds row s of the node features into row d of an array of
  zeros, and row d is then scaled by 1 / max(in-degree of d, 1); the layer is
  elu ((aggregate · Wl + bl) + features · Wr) with the k-th tables and bias row sliced out of the stacked arguments.
  Negative source indices are first raised by the number of nodes, as the gather's lowering does.
-/
import Idealize.ShloMosaic.PureOps.Ideal.Laws
import Idealize.ShloMosaic.Lib.ValueIdx
import proofs.«105906_j24541443129509_1_alg».proof.Proof.LibEluLayers

noncomputable section

namespace Cert.NetSpec

open Idealize.ShloMosaic Cert.BlockRows Cert.RowLayers Cert.DenseBlock Cert.EluLayers

/-! ## Shapes -/

abbrev S0 : Shape := ⟨0, ![]⟩
abbrev SX : Shape := ⟨2, ![50000, 128]⟩
abbrev SE : Shape := ⟨2, ![2, 800000]⟩
abbrev SE1 : Shape := ⟨2, ![1, 800000]⟩
abbrev SEv : Shape := ⟨1, ![800000]⟩
abbrev SEc : Shape := ⟨2, ![800000, 1]⟩
abbrev SM : Shape := ⟨2, ![800000, 128]⟩
abbrev SN : Shape := ⟨1, ![50000]⟩
abbrev SNc : Shape := ⟨2, ![50000, 1]⟩
abbrev SW3 : Shape := ⟨3, ![3, 128, 128]⟩
abbrev SW2 : Shape := ⟨3, ![2, 128, 128]⟩
abbrev SW1 : Shape := ⟨3, ![1, 128, 128]⟩
abbrev SW : Shape := ⟨2, ![128, 128]⟩
abbrev SB3 : Shape := ⟨2, ![3, 128]⟩
abbrev SB2 : Shape := ⟨2, ![2, 128]⟩
abbrev SB1 : Shape := ⟨2, ![1, 128]⟩
abbrev SB : Shape := ⟨1, ![128]⟩
abbrev SWo : Shape := ⟨2, ![128, 32]⟩
abbrev SBo : Shape := ⟨1, ![32]⟩
abbrev SBo1 : Shape := ⟨2, ![1, 32]⟩
abbrev SY : Shape := ⟨2, ![50000, 32]⟩

/-! ## Side conditions of the layout operations -/

theorem bias128 : SB1.BroadcastsInDim SX ![0, 1] := by decide
theorem bias32 : SBo1.BroadcastsInDim SY ![0, 1] := by decide
theorem row32 : SBo.BroadcastsInDim SBo1 ![1] := by decide
theorem row128 : SB.BroadcastsInDim SB1 ![1] := by decide
theorem edgeRow0 : SE.Slices ![0, 0] SE1 := by decide
theorem edgeRow1 : SE.Slices ![1, 0] SE1 := by decide
theorem edgeCast : SE1.ShapeCasts SEv := by decide
theorem asCol : SEv.BroadcastsInDim SEc ![0] := by decide
theorem splatE : S0.BroadcastsInDim SEv ![] := by decide
theorem splatN : S0.BroadcastsInDim SN ![] := by decide
theorem splatX : S0.BroadcastsInDim SX ![] := by decide
theorem degCol : SN.BroadcastsInDim SNc ![0] := by decide
theorem degMat : SNc.BroadcastsInDim SX ![0, 1] := by decide
theorem tblCast : SW1.ShapeCasts SW := by decide
theorem rowCast : SB1.ShapeCasts SB := by decide
theorem rowCastBack : SB.ShapeCasts SB1 := by decide
theorem convTbl0 : SW3.Slices ![0, 0, 0] SW1 := by decide
theorem convTbl1 : SW3.Slices ![1, 0, 0] SW1 := by decide
theorem convTbl2 : SW3.Slices ![2, 0, 0] SW1 := by decide
theorem convRow0 : SB3.Slices ![0, 0] SB1 := by decide
theorem convRow1 : SB3.Slices ![1, 0] SB1 := by decide
theorem convRow2 : SB3.Slices ![2, 0] SB1 := by decide
theorem linTbl0 : SW2.Slices ![0, 0, 0] SW1 := by decide
theorem linTbl1 : SW2.Slices ![1, 0, 0] SW1 := by decide
theorem linRow0 : SB2.Slices ![0, 0] SB1 := by decide
theorem linRow1 : SB2.Slices ![1, 0] SB1 := by decide

/-- Adding ones at the destination indices into a vector: the in-degree count. -/
def scatCount : ScatterDims SN SEc SEv where
  updateWindowDims := []
  insertedWindowDims := [0]
  scatterDimsToOperandDims := [0]
  indexVectorDim := 1
  wf := by decide

/-- Picking rows of the node features by a column of indices. -/
def gathRows : GatherDims SX SEc SM where
  offsetDims := [1]
  collapsedSliceDims := [0]
  operandBatchingDims := []
  startIndicesBatchingDims := []
  startIndexMap := [0]
  indexVectorDim := 1
  sliceSizes := ![1, 128]
  wf := by decide

/-- Adding rows into the rows a column of indices names. -/
def scatRows : ScatterDims SX SEc SM where
  updateWindowDims := [1]
  insertedWindowDims := [0]
  scatterDimsToOperandDims := [0]
  indexVectorDim := 1
  wf := by decide

/-! ## The aggregation -/

/-- Row r of the edge list as a vector. -/
def edgeRow (r : Nat) (h : SE.Slices ![r, 0] SE1) (ei : IVec SE 32) : IVec SEv 32 :=
  shapeCast SEv (extractStridedSlice SE1 ![r, 0] ei h) edgeCast

/-- The edges' sources and destinations. -/
def src (ei : IVec SE 32) : IVec SEv 32 := edgeRow 0 edgeRow0 ei
def dst (ei : IVec SE 32) : IVec SEv 32 := edgeRow 1 edgeRow1 ei

/-- 1 / max(in-degree, 1) per node. -/
def invDeg (d : IVec SEv 32) : FVec Ideal SN .f32 :=
  Host.divf (broadcastInDim SN ![] splatN (constant (F := Ideal) S0 .f32 0x3F800000#32))
    (maximumf
      (Host.scatterAdd scatCount (broadcastInDim SN ![] splatN (constant (F := Ideal) S0 .f32 0x00000000#32))
        (broadcastInDim SEc ![0] asCol d)
        (broadcastInDim SEv ![] splatE (constant (F := Ideal) S0 .f32 0x3F800000#32)))
      (broadcastInDim SN ![] splatN (constant (F := Ideal) S0 .f32 0x3F800000#32)))

/-- The aggregate of node features x over edges with sources s and destinations d, rows scaled by the column q. -/
def aggOf (s d : IVec SEv 32) (q : FVec Ideal SNc .f32) (x : FVec Ideal SX .f32) : FVec Ideal SX .f32 :=
  mulf
    (Host.scatterAdd scatRows (broadcastInDim SX ![] splatX (constant (F := Ideal) S0 .f32 0x00000000#32))
      (broadcastInDim SEc ![0] asCol d)
      (Host.gather gathRows x
        (broadcastInDim SEc ![0] asCol
          (select (cmpi .slt s (broadcastInDim SEv ![] splatE (constantI S0 32 0#32)))
            (addi s (broadcastInDim SEv ![] splatE (constantI S0 32 50000#32))) s))))
    (broadcastInDim SX ![0, 1] degMat q)

/-- The mean aggregate over the edge list ei. -/
def aggregate (ei : IVec SE 32) (x : FVec Ideal SX .f32) : FVec Ideal SX .f32 :=
  aggOf (src ei) (dst ei) (broadcastInDim SNc ![0] degCol (invDeg (dst ei))) x

/-! ## Tables and bias rows out of the stacked arguments -/

def tblOf {G : Nat} (k : Nat) (h : (⟨3, ![G, 128, 128]⟩ : Shape).Slices ![k, 0, 0] SW1) (W : FVec Ideal ⟨3, ![G, 128, 128]⟩ .f32) : FVec Ideal SW .f32 :=
  shapeCast SW (extractStridedSlice SW1 ![k, 0, 0] W h) tblCast

def rowVecOf {G : Nat} (k : Nat) (h : (⟨2, ![G, 128]⟩ : Shape).Slices ![k, 0] SB1) (b : FVec Ideal ⟨2, ![G, 128]⟩ .f32) : FVec Ideal SB .f32 :=
  shapeCast SB (extractStridedSlice SB1 ![k, 0] b h) rowCast

/-- A vector of 128 numbers as a one-row matrix. -/
def rowMat (v : FVec Ideal SB .f32) : FVec Ideal SB1 .f32 := broadcastInDim SB1 ![1] row128 v

/-- The same row, spelled as a reshape. -/
theorem rowMat_eq_cast (v : FVec Ideal SB .f32) : shapeCast SB1 v rowCastBack = rowMat v :=
  reshape_row v rowCastBack row128

/-! ## The layers and the network -/

def conv (k : Nat) (hW : SW3.Slices ![k, 0, 0] SW1) (hb : SB3.Slices ![k, 0] SB1) (ei : IVec SE 32)
    (Wl : FVec Ideal SW3 .f32) (bl : FVec Ideal SB3 .f32) (Wr : FVec Ideal SW3 .f32) (x : FVec Ideal SX .f32) : FVec Ideal SX .f32 :=
  sage bias128 (aggregate ei x) x (tblOf k hW Wl) (rowMat (rowVecOf k hb bl)) (tblOf k hW Wr)

def dense (k : Nat) (hW : SW2.Slices ![k, 0, 0] SW1) (hb : SB2.Slices ![k, 0] SB1)
    (W : FVec Ideal SW2 .f32) (b : FVec Ideal SB2 .f32) (x : FVec Ideal SX .f32) : FVec Ideal SX .f32 :=
  lin bias128 x (tblOf k hW W) (rowMat (rowVecOf k hb b))

def head (Wo : FVec Ideal SWo .f32) (bo : FVec Ideal SBo .f32) (x : FVec Ideal SX .f32) : FVec Ideal SY .f32 :=
  addf (Host.dotGeneral (F := Ideal) (DotDims.plain 50000 128 32) none x Wo)
    (broadcastInDim SY ![0, 1] bias32 (broadcastInDim SBo1 ![1] row32 bo))

def x1 (x : FVec Ideal SX .f32) (ei : IVec SE 32) (Wl : FVec Ideal SW3 .f32) (bl : FVec Ideal SB3 .f32) (Wr : FVec Ideal SW3 .f32) :=
  conv 0 convTbl0 convRow0 ei Wl bl Wr x
def x2 (x : FVec Ideal SX .f32) (ei : IVec SE 32) (Wl : FVec Ideal SW3 .f32) (bl : FVec Ideal SB3 .f32) (Wr : FVec Ideal SW3 .f32) :=
  conv 1 convTbl1 convRow1 ei Wl bl Wr (x1 x ei Wl bl Wr)
def x3 (x : FVec Ideal SX .f32) (ei : IVec SE 32) (Wl : FVec Ideal SW3 .f32) (bl : FVec Ideal SB3 .f32) (Wr : FVec Ideal SW3 .f32) :=
  conv 2 convTbl2 convRow2 ei Wl bl Wr (x2 x ei Wl bl Wr)
def x4 (x : FVec Ideal SX .f32) (ei : IVec SE 32) (Wl : FVec Ideal SW3 .f32) (bl : FVec Ideal SB3 .f32) (Wr : FVec Ideal SW3 .f32)
    (lW : FVec Ideal SW2 .f32) (lb : FVec Ideal SB2 .f32) :=
  dense 0 linTbl0 linRow0 lW lb (x3 x ei Wl bl Wr)
def x5 (x : FVec Ideal SX .f32) (ei : IVec SE 32) (Wl : FVec Ideal SW3 .f32) (bl : FVec Ideal SB3 .f32) (Wr : FVec Ideal SW3 .f32)
    (lW : FVec Ideal SW2 .f32) (lb : FVec Ideal SB2 .f32) :=
  dense 1 linTbl1 linRow1 lW lb (x4 x ei Wl bl Wr lW lb)

/-- The whole network. -/
def net (x : FVec Ideal SX .f32) (ei : IVec SE 32) (Wl : FVec Ideal SW3 .f32) (bl : FVec Ideal SB3 .f32) (Wr : FVec Ideal SW3 .f32)
    (lW : FVec Ideal SW2 .f32) (lb : FVec Ideal SB2 .f32) (Wo : FVec Ideal SWo .f32) (bo : FVec Ideal SBo .f32) : FVec Ideal SY .f32 :=
  head Wo bo (x5 x ei Wl bl Wr lW lb)

/-! ## The head computed on 128 columns -/

theorem padTbl : SWo.Pads (![0, 0] : Fin 2 → Nat) ![0, 96] ![0, 0] SW := by decide
theorem padRow : SBo.Pads (![0] : Fin 1 → Nat) ![96] ![0] SB := by decide
theorem one_pos : 0 < S0.numel := by decide
theorem headSlice : SX.Slices ![0, 0] SY := by decide

/-- The padding value: the integer zero converted. -/
def zeroPad : FVec Ideal S0 .f32 := sitofp .f32 (constantI S0 32 0#32)

/-- The head's table widened from 32 to 128 columns with the padding value. -/
def padW (Wo : FVec Ideal SWo .f32) : FVec Ideal SW .f32 := pad SW ![0, 0] ![0, 96] ![0, 0] Wo zeroPad padTbl one_pos

/-- The head's bias widened from 32 to 128 entries with the padding value. -/
def padB (bo : FVec Ideal SBo .f32) : FVec Ideal SB .f32 := pad SB ![0] ![96] ![0] bo zeroPad padRow one_pos

end Cert.NetSpec

end
-- ==== Proof.HeadLaw.lean ====
/-
  The head computed on 128 columns and cut back to 32 is the head.

  The kernel widens the head's table and bias from 32 to 128 columns with a padding value, computes X · W' + b' on all
  128 columns and keeps the first 32. Column q < 32 of the product sums X (r, k) · W' (k, q) over k, and W' (k, q)
  is W (k, q) there; entry q of the widened bias is entry q of the bias. The padded columns are never read, so the
  padding value does not matter and no finiteness is needed.
-/
import Idealize.ShloMosaic.PureOps.Ideal.Laws
import Idealize.ShloMosaic.Lib.Pipeline.Value
import Idealize.ShloMosaic.Lib.ValueIdx
import Idealize.ShloMosaic.Lib.KernelVsHost
import proofs.«105906_j24541443129509_1_alg».proof.Proof.NetSpec

noncomputable section

open scoped BigOperators

namespace Cert.NetSpec

open Idealize.ShloMosaic Idealize.ShloMosaic.ValueIdx Cert.BlockRows Cert.RowLayers Cert.DenseBlock Cert.EluLayers

/-- Entry (k, q) of the widened table, q < 32, is entry (k, q) of the table. -/
theorem padW_apply (Wo : FVec Ideal SWo .f32) (k : Fin 128) (q : Fin 32) (hq : q.val < 128) :
    padW Wo (ix2 k ⟨q.val, hq⟩) = Wo (ix2 k q) := by
  unfold padW
  refine pad_apply_of_inside _ _ _ Wo zeroPad padTbl one_pos (ix2 k ⟨q.val, hq⟩) (ix2 k q) fun a => ?_
  match a with
  | ⟨0, _⟩ => show k.val = 0 + k.val * (0 + 1); omega
  | ⟨1, _⟩ => show q.val = 0 + q.val * (0 + 1); omega

/-- Entry q of the widened bias, q < 32, is entry q of the bias. -/
theorem padB_apply (bo : FVec Ideal SBo .f32) (q : Fin 32) (hq : q.val < 128) :
    padB bo (ix1 ⟨q.val, hq⟩) = bo (ix1 q) := by
  unfold padB
  refine pad_apply_of_inside _ _ _ bo zeroPad padRow one_pos (ix1 ⟨q.val, hq⟩) (ix1 q) fun a => ?_
  match a with
  | ⟨0, _⟩ => show q.val = 0 + q.val * (0 + 1); omega

/-- The head on the widened table and bias, cut back to its first 32 columns, is the head. -/
theorem head_of_padded (Wo : FVec Ideal SWo .f32) (bo : FVec Ideal SBo .f32) (X : FVec Ideal SX .f32) :
    extractStridedSlice SY ![0, 0] (affine bias128 X (padW Wo) (shapeCast SB1 (padB bo) rowCastBack)) headSlice
      = head Wo bo X := by
  funext i
  obtain ⟨r, q, rfl⟩ : ∃ (r : Fin 50000) (q : Fin 32), i = ix2 r q := ⟨i 0, i 1, eq_ix2 i⟩
  have hq : q.val < 128 := by have := q.isLt; omega
  rw [extractStridedSlice_apply ![0, 0] _ headSlice (ix2 r q) (ix2 r ⟨q.val, hq⟩) (fun a => by
    match a with
    | ⟨0, _⟩ => show r.val = 0 + r.val; omega
    | ⟨1, _⟩ => show q.val = 0 + q.val; omega)]
  rw [rowMat_eq_cast]
  unfold affine head propagate
  show Host.dotGeneral (F := Ideal) (DotDims.plain 50000 128 128) none X (padW Wo) (ix2 r ⟨q.val, hq⟩)
        + rowBias bias128 (rowMat (padB bo)) (ix2 r ⟨q.val, hq⟩)
      = Host.dotGeneral (F := Ideal) (DotDims.plain 50000 128 32) none X Wo (ix2 r q)
        + broadcastInDim SY ![0, 1] bias32 (broadcastInDim SBo1 ![1] row32 bo) (ix2 r q)
  rw [Cert.LibHostReads.dotGeneral_plain_apply, Cert.LibHostReads.dotGeneral_plain_apply, rowBias_apply,
    Cert.HostLayout.biasRow_apply]
  refine congrArg₂ (· + ·) (Finset.sum_congr rfl fun k _ => congrArg (X (ix2 r k) * ·) (padW_apply Wo k q hq)) ?_
  unfold rowMat
  refine (broadcastInDim_apply _ row128 (padB bo) (ix2 (0 : Fin 1) ⟨q.val, hq⟩) (ix1 ⟨q.val, hq⟩) fun a => ?_).trans (padB_apply bo q hq)
  match a with
  | ⟨0, _⟩ => show q.val = if (128 : Nat) = 1 then 0 else q.val; rw [if_neg (by decide)]

end Cert.NetSpec

end
-- ==== Proof.Region0.lean ====
/-
  Region 0 of the idealized kernel, read as one whole-array function.

  The region runs the graph layer on ten blocks of 5000 rows. Block t of the aggregate and of the node features are
  rows 5000·t … 5000·t + 4999 of those arrays; the two weight tables and the one-row bias are staged whole at every
  point. The layer acts on every row by itself, so what point t writes back is rows 5000·t … of the layer computed on
  the whole arrays, and the ten blocks tile the result array: after the region it holds
  elu ((A · Wl + B) + X · Wr) of the arrays the region found.
-/
import proofs.«105906_j24541443129509_1_alg».proof.Proof.Gen.KernelIdeal.Frame
import proofs.«105906_j24541443129509_1_alg».proof.Proof.LibEluLayers
import proofs.«105906_j24541443129509_1_alg».proof.Proof.NetSpec
import Idealize.ShloMosaic.Lib.Pipeline.Value

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen Cert.BlockRows Cert.RowLayers Cert.DenseBlock Cert.EluLayers Cert.NetSpec

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block (t, 0), the tables at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The rows of the tall arrays that block t holds. -/
def rowsAt (t : Fin cfg0.N) : Fin 5000 → Fin 50000 := blockRow 5000 10 50000 (by norm_num) (Fin.cast N_0 t)

theorem rowsAt_val (t : Fin cfg0.N) (p : Fin 5000) : (rowsAt t p).val = 5000 * t.val + p.val := rfl

/-- The layer on a block whose operands are the picked rows and the whole tables. -/
theorem pay_rows (ρ : Fin 5000 → Fin 50000) (A X : FVec Ideal ⟨2, ![50000, 128]⟩ .f32) (Wl Wr : FVec Ideal ⟨2, ![128, 128]⟩ .f32)
    (B : FVec Ideal ⟨2, ![1, 128]⟩ .f32)
    (x0 x1 : Vec Ideal S5000x128 .f32) (x2 x4 : Vec Ideal S128x128 .f32) (x3 : Vec Ideal S1x128 .f32)
    (h0 : x0 = rowsOf ρ A) (h1 : x1 = rowsOf ρ X) (h2 : x2 = Wl) (h3 : x3 = B) (h4 : x4 = Wr) :
    k0_pay1 x0 x1 x2 x4 x3 = rowsOf ρ (sage bias128 A X Wl B Wr) := by
  subst h0 h1 h2 h3 h4
  unfold k0_pay1
  dsimp only
  refine (elu_vector _).trans ?_
  refine (congrArg elu ?_).trans (elu_rows ρ _)
  exact sagePre_of_rows ρ _ _ _ _ A X x2 x4 x3
    (narrowed_cast_rows ρ bitsLt_bf16_f32 shapeCasts_S5000x128_S5000x128 A)
    (narrowed_cast_whole bitsLt_bf16_f32 shapeCasts_S128x128_S128x128 x2)
    rfl
    (narrowed_cast_whole bitsLt_bf16_f32 shapeCasts_S128x128_S128x128 x4)
    shapeCasts_S1x128_S1x128 broadcasts_S1x128_S5000x128 bias128

/-- Block t of a row-blocked window is the picked rows of its array. -/
theorem blk_rows (c : Dev nD) (t : Fin cfg0.N) :
    (iblk0 V c 0 t : Vec Ideal S5000x128 .f32) = rowsOf (rowsAt t) (V c (Pipeline.arrRef spec0 0) : S50000x128.Idx → EReal)
    ∧ (iblk0 V c 1 t : Vec Ideal S5000x128 .f32) = rowsOf (rowsAt t) (V c (Pipeline.arrRef spec0 1) : S50000x128.Idx → EReal) := by
  obtain ⟨e0, e1, e2, e3, -⟩ := idx_facts t
  refine ⟨funext fun j => ?_, funext fun j => ?_⟩
  · unfold iblk0
    rw [View.read_apply]
    show V c (Pipeline.arrRef spec0 0) _ = V c (Pipeline.arrRef spec0 0) _
    refine congrArg _ (funext fun a => Fin.ext ?_)
    match a with
    | ⟨0, _⟩ => show win0_0.index t (0 : Fin 2) * 5000 + 1 * (j 0).val = 5000 * t.val + (j 0).val; rw [e0]; omega
    | ⟨1, _⟩ => show win0_0.index t (1 : Fin 2) * 128 + 1 * (j 1).val = (j 1).val; rw [e1]; omega
  · unfold iblk0
    rw [View.read_apply]
    show V c (Pipeline.arrRef spec0 1) _ = V c (Pipeline.arrRef spec0 1) _
    refine congrArg _ (funext fun a => Fin.ext ?_)
    match a with
    | ⟨0, _⟩ => show win0_1.index t (0 : Fin 2) * 5000 + 1 * (j 0).val = 5000 * t.val + (j 0).val; rw [e2]; omega
    | ⟨1, _⟩ => show win0_1.index t (1 : Fin 2) * 128 + 1 * (j 1).val = (j 1).val; rw [e3]; omega

/-- The block of a table staged whole is the table. -/
theorem blk_whole (c : Dev nD) (t : Fin cfg0.N) :
    (iblk0 V c 2 t : Vec Ideal S128x128 .f32) = (V c (Pipeline.arrRef spec0 2) : S128x128.Idx → EReal)
    ∧ (iblk0 V c 3 t : Vec Ideal S1x128 .f32) = (V c (Pipeline.arrRef spec0 3) : S1x128.Idx → EReal)
    ∧ (iblk0 V c 4 t : Vec Ideal S128x128 .f32) = (V c (Pipeline.arrRef spec0 4) : S128x128.Idx → EReal) := by
  obtain ⟨-, -, -, -, e4, e5, e6, e7, e8, e9, -⟩ := idx_facts t
  refine ⟨funext fun j => ?_, funext fun j => ?_, funext fun j => ?_⟩
  · unfold iblk0
    rw [View.read_apply]
    show V c (Pipeline.arrRef spec0 2) _ = V c (Pipeline.arrRef spec0 2) _
    refine congrArg _ (funext fun a => Fin.ext ?_)
    match a with
    | ⟨0, _⟩ => show win0_2.index t (0 : Fin 2) * 128 + 1 * (j 0).val = (j 0).val; rw [e4]; omega
    | ⟨1, _⟩ => show win0_2.index t (1 : Fin 2) * 128 + 1 * (j 1).val = (j 1).val; rw [e5]; omega
  · unfold iblk0
    rw [View.read_apply]
    show V c (Pipeline.arrRef spec0 3) _ = V c (Pipeline.arrRef spec0 3) _
    refine congrArg _ (funext fun a => Fin.ext ?_)
    match a with
    | ⟨0, _⟩ => show win0_3.index t (0 : Fin 2) * 1 + 1 * (j 0).val = (j 0).val; rw [e6]; omega
    | ⟨1, _⟩ => show win0_3.index t (1 : Fin 2) * 128 + 1 * (j 1).val = (j 1).val; rw [e7]; omega
  · unfold iblk0
    rw [View.read_apply]
    show V c (Pipeline.arrRef spec0 4) _ = V c (Pipeline.arrRef spec0 4) _
    refine congrArg _ (funext fun a => Fin.ext ?_)
    match a with
    | ⟨0, _⟩ => show win0_4.index t (0 : Fin 2) * 128 + 1 * (j 0).val = (j 0).val; rw [e8]; omega
    | ⟨1, _⟩ => show win0_4.index t (1 : Fin 2) * 128 + 1 * (j 1).val = (j 1).val; rw [e9]; omega

/-- The layer of the arrays the region finds. -/
def layerOf (c : Dev nD) : S50000x128.Idx → EReal :=
  sage bias128 (V c (Pipeline.arrRef spec0 0) : S50000x128.Idx → EReal) (V c (Pipeline.arrRef spec0 1) : S50000x128.Idx → EReal)
    (V c (Pipeline.arrRef spec0 2) : S128x128.Idx → EReal) (V c (Pipeline.arrRef spec0 3) : S1x128.Idx → EReal)
    (V c (Pipeline.arrRef spec0 4) : S128x128.Idx → EReal)

/-- What point t writes back is block t of the layer of the whole arrays. -/
theorem flushed_eq (c : Dev nD) (t : Fin cfg0.N) :
    (dat0 V c).flushed 5 t = ((cfg0.win 5).blk t).view.read (Elt Ideal) (layerOf V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  refine (pay_rows (rowsAt t) _ _ _ _ _ _ _ _ _ _ (blk_rows V c t).1 (blk_rows V c t).2 (blk_whole V c t).1 (blk_whole V c t).2.1
    (blk_whole V c t).2.2).trans ?_
  obtain ⟨-, -, -, -, -, -, -, -, -, -, e10, e11⟩ := idx_facts t
  funext j
  rw [View.read_apply]
  show layerOf V c _ = layerOf V c _
  refine congrArg _ (funext fun a => Fin.ext ?_)
  match a with
  | ⟨0, _⟩ => show 5000 * t.val + (j 0).val = win0_5.index t (0 : Fin 2) * 5000 + 1 * (j 0).val; rw [e10]; omega
  | ⟨1, _⟩ => show (j 1).val = win0_5.index t (1 : Fin 2) * 128 + 1 * (j 1).val; rw [e11]; omega

/-- An index of the result array is in point t's block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v32).slice (win0_5.rect t)).set ↔ _
  rw [View.set_slice_whole, Rect.mem_set_unit]
  exact Iff.rfl

/-- The ten blocks tile the result array: row r is in block r / 5000. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, -, -, -, -, e10, e11⟩ := idx_facts t
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    rw [e10]; show (i 0).val / 5000 * 5000 ≤ (i 0).val ∧ (i 0).val < (i 0).val / 5000 * 5000 + 5000; omega
  | ⟨1, _⟩ =>
    show win0_5.index t (1 : Fin 2) * 128 ≤ (i 1).val ∧ (i 1).val < win0_5.index t (1 : Fin 2) * 128 + 128
    rw [e11]; omega

/-- After the region the result array holds the layer of the arrays the region found. -/
theorem final (c : Dev nD) : (dat0 V c).arrAt 5 cfg0.N = layerOf V c :=
  (dat0 V c).arrAt_eq_of_cover 5 (layerOf V c) (fun t _ => flushed_eq V c t) (cover)

end Cert.KernelIdeal.Region0

end
-- ==== Proof.Region1.lean ====
/-
  Region 1 of the idealized kernel, read as one whole-array function.

  The region runs the graph layer on ten blocks of 5000 rows. Block t of the aggregate and of the node features are
  rows 5000·t … 5000·t + 4999 of those arrays; the two weight tables and the one-row bias are staged whole at every
  point. The layer acts on every row by itself, so what point t writes back is rows 5000·t … of the layer computed on
  the whole arrays, and the ten blocks tile the result array: after the region it holds
  elu ((A · Wl + B) + X · Wr) of the arrays the region found.
-/
import proofs.«105906_j24541443129509_1_alg».proof.Proof.Gen.KernelIdeal.Frame
import proofs.«105906_j24541443129509_1_alg».proof.Proof.LibEluLayers
import proofs.«105906_j24541443129509_1_alg».proof.Proof.NetSpec
import Idealize.ShloMosaic.Lib.Pipeline.Value

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen Cert.BlockRows Cert.RowLayers Cert.DenseBlock Cert.EluLayers Cert.NetSpec

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block (t, 0), the tables at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The rows of the tall arrays that block t holds. -/
def rowsAt (t : Fin cfg1.N) : Fin 5000 → Fin 50000 := blockRow 5000 10 50000 (by norm_num) (Fin.cast N_1 t)

theorem rowsAt_val (t : Fin cfg1.N) (p : Fin 5000) : (rowsAt t p).val = 5000 * t.val + p.val := rfl

/-- The layer on a block whose operands are the picked rows and the whole tables. -/
theorem pay_rows (ρ : Fin 5000 → Fin 50000) (A X : FVec Ideal ⟨2, ![50000, 128]⟩ .f32) (Wl Wr : FVec Ideal ⟨2, ![128, 128]⟩ .f32)
    (B : FVec Ideal ⟨2, ![1, 128]⟩ .f32)
    (x0 x1 : Vec Ideal S5000x128 .f32) (x2 x4 : Vec Ideal S128x128 .f32) (x3 : Vec Ideal S1x128 .f32)
    (h0 : x0 = rowsOf ρ A) (h1 : x1 = rowsOf ρ X) (h2 : x2 = Wl) (h3 : x3 = B) (h4 : x4 = Wr) :
    k1_pay1 x0 x1 x2 x4 x3 = rowsOf ρ (sage bias128 A X Wl B Wr) := by
  subst h0 h1 h2 h3 h4
  unfold k1_pay1
  dsimp only
  refine (elu_vector _).trans ?_
  refine (congrArg elu ?_).trans (elu_rows ρ _)
  exact sagePre_of_rows ρ _ _ _ _ A X x2 x4 x3
    (narrowed_cast_rows ρ bitsLt_bf16_f32 shapeCasts_S5000x128_S5000x128 A)
    (narrowed_cast_whole bitsLt_bf16_f32 shapeCasts_S128x128_S128x128 x2)
    (narrowed_cast_rows ρ bitsLt_bf16_f32 shapeCasts_S5000x128_S5000x128 X)
    (narrowed_cast_whole bitsLt_bf16_f32 shapeCasts_S128x128_S128x128 x4)
    shapeCasts_S1x128_S1x128 broadcasts_S1x128_S5000x128 bias128

/-- Block t of a row-blocked window is the picked rows of its array. -/
theorem blk_rows (c : Dev nD) (t : Fin cfg1.N) :
    (iblk1 V c 0 t : Vec Ideal S5000x128 .f32) = rowsOf (rowsAt t) (V c (Pipeline.arrRef spec1 0) : S50000x128.Idx → EReal)
    ∧ (iblk1 V c 1 t : Vec Ideal S5000x128 .f32) = rowsOf (rowsAt t) (V c (Pipeline.arrRef spec1 1) : S50000x128.Idx → EReal) := by
  obtain ⟨e0, e1, e2, e3, -⟩ := idx_facts t
  refine ⟨funext fun j => ?_, funext fun j => ?_⟩
  · unfold iblk1
    rw [View.read_apply]
    show V c (Pipeline.arrRef spec1 0) _ = V c (Pipeline.arrRef spec1 0) _
    refine congrArg _ (funext fun a => Fin.ext ?_)
    match a with
    | ⟨0, _⟩ => show win1_0.index t (0 : Fin 2) * 5000 + 1 * (j 0).val = 5000 * t.val + (j 0).val; rw [e0]; omega
    | ⟨1, _⟩ => show win1_0.index t (1 : Fin 2) * 128 + 1 * (j 1).val = (j 1).val; rw [e1]; omega
  · unfold iblk1
    rw [View.read_apply]
    show V c (Pipeline.arrRef spec1 1) _ = V c (Pipeline.arrRef spec1 1) _
    refine congrArg _ (funext fun a => Fin.ext ?_)
    match a with
    | ⟨0, _⟩ => show win1_1.index t (0 : Fin 2) * 5000 + 1 * (j 0).val = 5000 * t.val + (j 0).val; rw [e2]; omega
    | ⟨1, _⟩ => show win1_1.index t (1 : Fin 2) * 128 + 1 * (j 1).val = (j 1).val; rw [e3]; omega

/-- The block of a table staged whole is the table. -/
theorem blk_whole (c : Dev nD) (t : Fin cfg1.N) :
    (iblk1 V c 2 t : Vec Ideal S128x128 .f32) = (V c (Pipeline.arrRef spec1 2) : S128x128.Idx → EReal)
    ∧ (iblk1 V c 3 t : Vec Ideal S1x128 .f32) = (V c (Pipeline.arrRef spec1 3) : S1x128.Idx → EReal)
    ∧ (iblk1 V c 4 t : Vec Ideal S128x128 .f32) = (V c (Pipeline.arrRef spec1 4) : S128x128.Idx → EReal) := by
  obtain ⟨-, -, -, -, e4, e5, e6, e7, e8, e9, -⟩ := idx_facts t
  refine ⟨funext fun j => ?_, funext fun j => ?_, funext fun j => ?_⟩
  · unfold iblk1
    rw [View.read_apply]
    show V c (Pipeline.arrRef spec1 2) _ = V c (Pipeline.arrRef spec1 2) _
    refine congrArg _ (funext fun a => Fin.ext ?_)
    match a with
    | ⟨0, _⟩ => show win1_2.index t (0 : Fin 2) * 128 + 1 * (j 0).val = (j 0).val; rw [e4]; omega
    | ⟨1, _⟩ => show win1_2.index t (1 : Fin 2) * 128 + 1 * (j 1).val = (j 1).val; rw [e5]; omega
  · unfold iblk1
    rw [View.read_apply]
    show V c (Pipeline.arrRef spec1 3) _ = V c (Pipeline.arrRef spec1 3) _
    refine congrArg _ (funext fun a => Fin.ext ?_)
    match a with
    | ⟨0, _⟩ => show win1_3.index t (0 : Fin 2) * 1 + 1 * (j 0).val = (j 0).val; rw [e6]; omega
    | ⟨1, _⟩ => show win1_3.index t (1 : Fin 2) * 128 + 1 * (j 1).val = (j 1).val; rw [e7]; omega
  · unfold iblk1
    rw [View.read_apply]
    show V c (Pipeline.arrRef spec1 4) _ = V c (Pipeline.arrRef spec1 4) _
    refine congrArg _ (funext fun a => Fin.ext ?_)
    match a with
    | ⟨0, _⟩ => show win1_4.index t (0 : Fin 2) * 128 + 1 * (j 0).val = (j 0).val; rw [e8]; omega
    | ⟨1, _⟩ => show win1_4.index t (1 : Fin 2) * 128 + 1 * (j 1).val = (j 1).val; rw [e9]; omega

/-- The layer of the arrays the region finds. -/
def layerOf (c : Dev nD) : S50000x128.Idx → EReal :=
  sage bias128 (V c (Pipeline.arrRef spec1 0) : S50000x128.Idx → EReal) (V c (Pipeline.arrRef spec1 1) : S50000x128.Idx → EReal)
    (V c (Pipeline.arrRef spec1 2) : S128x128.Idx → EReal) (V c (Pipeline.arrRef spec1 3) : S1x128.Idx → EReal)
    (V c (Pipeline.arrRef spec1 4) : S128x128.Idx → EReal)

/-- What point t writes back is block t of the layer of the whole arrays. -/
theorem flushed_eq (c : Dev nD) (t : Fin cfg1.N) :
    (dat1 V c).flushed 5 t = ((cfg1.win 5).blk t).view.read (Elt Ideal) (layerOf V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  refine (pay_rows (rowsAt t) _ _ _ _ _ _ _ _ _ _ (blk_rows V c t).1 (blk_rows V c t).2 (blk_whole V c t).1 (blk_whole V c t).2.1
    (blk_whole V c t).2.2).trans ?_
  obtain ⟨-, -, -, -, -, -, -, -, -, -, e10, e11⟩ := idx_facts t
  funext j
  rw [View.read_apply]
  show layerOf V c _ = layerOf V c _
  refine congrArg _ (funext fun a => Fin.ext ?_)
  match a with
  | ⟨0, _⟩ => show 5000 * t.val + (j 0).val = win1_5.index t (0 : Fin 2) * 5000 + 1 * (j 0).val; rw [e10]; omega
  | ⟨1, _⟩ => show (j 1).val = win1_5.index t (1 : Fin 2) * 128 + 1 * (j 1).val; rw [e11]; omega

/-- An index of the result array is in point t's block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v52).slice (win1_5.rect t)).set ↔ _
  rw [View.set_slice_whole, Rect.mem_set_unit]
  exact Iff.rfl

/-- The ten blocks tile the result array: row r is in block r / 5000. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, -, -, -, -, -, -, e10, e11⟩ := idx_facts t
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    rw [e10]; show (i 0).val / 5000 * 5000 ≤ (i 0).val ∧ (i 0).val < (i 0).val / 5000 * 5000 + 5000; omega
  | ⟨1, _⟩ =>
    show win1_5.index t (1 : Fin 2) * 128 ≤ (i 1).val ∧ (i 1).val < win1_5.index t (1 : Fin 2) * 128 + 128
    rw [e11]; omega

/-- After the region the result array holds the layer of the arrays the region found. -/
theorem final (c : Dev nD) : (dat1 V c).arrAt 5 cfg1.N = layerOf V c :=
  (dat1 V c).arrAt_eq_of_cover 5 (layerOf V c) (fun t _ => flushed_eq V c t) (cover)

end Cert.KernelIdeal.Region1

end
-- ==== Proof.Region2.lean ====
/-
  Region 2 of the idealized kernel, read as one whole-array function.

  The region runs the graph layer on ten blocks of 5000 rows. Block t of the aggregate and of the node features are
  rows 5000·t … 5000·t + 4999 of those arrays; the two weight tables and the one-row bias are staged whole at every
  point. The layer acts on every row by itself, so what point t writes back is rows 5000·t … of the layer computed on
  the whole arrays, and the ten blocks tile the result array: after the region it holds
  elu ((A · Wl + B) + X · Wr) of the arrays the region found.
-/
import proofs.«105906_j24541443129509_1_alg».proof.Proof.Gen.KernelIdeal.Frame
import proofs.«105906_j24541443129509_1_alg».proof.Proof.LibEluLayers
import proofs.«105906_j24541443129509_1_alg».proof.Proof.NetSpec
import Idealize.ShloMosaic.Lib.Pipeline.Value

set_option maxRecDepth 16384

noncomputable section

namespace Cert.KernelIdeal.Region2

open Idealize.ShloMosaic Idealize.ShloMosaic.TcCoe Idealize.SL.Sem Idealize.ShloMosaic.ValueIdx
open Idealize.ShloMosaic.Pipeline (Dat)
open Cert.KernelIdeal Cert.KernelIdeal.Gen Cert.BlockRows Cert.RowLayers Cert.DenseBlock Cert.EluLayers Cert.NetSpec

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block (t, 0), the tables at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The rows of the tall arrays that block t holds. -/
def rowsAt (t : Fin cfg2.N) : Fin 5000 → Fin 50000 := blockRow 5000 10 50000 (by norm_num) (Fin.cast N_2 t)

theorem rowsAt_val (t : Fin cfg2.N) (p : Fin 5000) : (rowsAt t p).val = 5000 * t.val + p.val := rfl

/-- The layer on a block whose operands are the picked rows and the whole tables. -/
theorem pay_rows (ρ : Fin 5000 → Fin 50000) (A X : FVec Ideal ⟨2, ![50000, 128]⟩ .f32) (Wl Wr : FVec Ideal ⟨2, ![128, 128]⟩ .f32)
    (B : FVec Ideal ⟨2, ![1, 128]⟩ .f32)
    (x0 x1 : Vec Ideal S5000x128 .f32) (x2 x4 : Vec Ideal S128x128 .f32) (x3 : Vec Ideal S1x128 .f32)
    (h0 : x0 = rowsOf ρ A) (h1 : x1 = rowsOf ρ X) (h2 : x2 = Wl) (h3 : x3 = B) (h4 : x4 = Wr) :
    k2_pay1 x0 x1 x2 x4 x3 = rowsOf ρ (sage bias128 A X Wl B Wr) := by
  subst h0 h1 h2 h3 h4
  unfold k2_pay1
  dsimp only
  refine (elu_vector _).trans ?_
  refine (congrArg elu ?_).trans (elu_rows ρ _)
  exact sagePre_of_rows ρ _ _ _ _ A X x2 x4 x3
    (narrowed_cast_rows ρ bitsLt_bf16_f32 shapeCasts_S5000x128_S5000x128 A)
    (narrowed_cast_whole bitsLt_bf16_f32 shapeCasts_S128x128_S128x128 x2)
    (narrowed_cast_rows ρ bitsLt_bf16_f32 shapeCasts_S5000x128_S5000x128 X)
    (narrowed_cast_whole bitsLt_bf16_f32 shapeCasts_S128x128_S128x128 x4)
    shapeCasts_S1x128_S1x128 broadcasts_S1x128_S5000x128 bias128

/-- Block t of a row-blocked window is the picked rows of its array. -/
theorem blk_rows (c : Dev nD) (t : Fin cfg2.N) :
    (iblk2 V c 0 t : Vec Ideal S5000x128 .f32) = rowsOf (rowsAt t) (V c (Pipeline.arrRef spec2 0) : S50000x128.Idx → EReal)
    ∧ (iblk2 V c 1 t : Vec Ideal S5000x128 .f32) = rowsOf (rowsAt t) (V c (Pipeline.arrRef spec2 1) : S50000x128.Idx → EReal) := by
  obtain ⟨e0, e1, e2, e3, -⟩ := idx_facts t
  refine ⟨funext fun j => ?_, funext fun j => ?_⟩
  · unfold iblk2
    rw [View.read_apply]
    show V c (Pipeline.arrRef spec2 0) _ = V c (Pipeline.arrRef spec2 0) _
    refine congrArg _ (funext fun a => Fin.ext ?_)
    match a with
    | ⟨0, _⟩ => show win2_0.index t (0 : Fin 2) * 5000 + 1 * (j 0).val = 5000 * t.val + (j 0).val; rw [e0]; omega
    | ⟨1, _⟩ => show win2_0.index t (1 : Fin 2) * 128 + 1 * (j 1).val = (j 1).val; rw [e1]; omega
  · unfold iblk2
    rw [View.read_apply]
    show V c (Pipeline.arrRef spec2 1) _ = V c (Pipeline.arrRef spec2 1) _
    refine congrArg _ (funext fun a => Fin.ext ?_)
    match a with
    | ⟨0, _⟩ => show win2_1.index t (0 : Fin 2) * 5000 + 1 * (j 0).val = 5000 * t.val + (j 0).val; rw [e2]; omega
    | ⟨1, _⟩ => show win2_1.index t (1 : Fin 2) * 128 + 1 * (j 1).val = (j 1).val; rw [e3]; omega

/-- The block of a table staged whole is the table. -/
theorem blk_whole (c : Dev nD) (t : Fin cfg2.N) :
    (iblk2 V c 2 t : Vec Ideal S128x128 .f32) = (V c (Pipeline.arrRef spec2 2) : S128x128.Idx → EReal)
    ∧ (iblk2 V c 3 t : Vec Ideal S1x128 .f32) = (V c (Pipeline.arrRef spec2 3) : S1x128.Idx → EReal)
    ∧ (iblk2 V c 4 t : Vec Ideal S128x128 .f32) = (V c (Pipeline.arrRef spec2 4) : S128x128.Idx → EReal) := by
  obtain ⟨-, -, -, -, e4, e5, e6, e7, e8, e9, -⟩ := idx_facts t
  refine ⟨funext fun j => ?_, funext fun j => ?_, funext fun j => ?_⟩
  · unfold iblk2
    rw [View.read_apply]
    show V c (Pipeline.arrRef spec2 2) _ = V c (Pipeline.arrRef spec2 2) _
    refine congrArg _ (funext fun a => Fin.ext ?_)
    match a with
    | ⟨0, _⟩ => show win2_2.index t (0 : Fin 2) * 128 + 1 * (j 0).val = (j 0).val; rw [e4]; omega
    | ⟨1, _⟩ => show win2_2.index t (1 : Fin 2) * 128 + 1 * (j 1).val = (j 1).val; rw [e5]; omega
  · unfold iblk2
    rw [View.read_apply]
    show V c (Pipeline.arrRef spec2 3) _ = V c (Pipeline.arrRef spec2 3) _
    refine congrArg _ (funext fun a => Fin.ext ?_)
    match a with
    | ⟨0, _⟩ => show win2_3.index t (0 : Fin 2) * 1 + 1 * (j 0).val = (j 0).val; rw [e6]; omega
    | ⟨1, _⟩ => show win2_3.index t (1 : Fin 2) * 128 + 1 * (j 1).val = (j 1).val; rw [e7]; omega
  · unfold iblk2
    rw [View.read_apply]
    show V c (Pipeline.arrRef spec2 4) _ = V c (Pipeline.arrRef spec2 4) _
    refine congrArg _ (funext fun a => Fin.ext ?_)
    match a with
    | ⟨0, _⟩ => show win2_4.index t (0 : Fin 2) * 128 + 1 * (j 0).val = (j 0).val; rw [e8]; omega
    | ⟨1, _⟩ => show win2_4.index t (1 : Fin 2) * 128 + 1 * (j 1).val = (j 1).val; rw [e9]; omega

/-- The layer of the arrays the region finds. -/
def layerOf (c : Dev nD) : S50000x128.Idx → EReal :=
  sage bias128 (V c (Pipeline.arrRef spec2 0) : S50000x128.Idx → EReal) (V c (Pipeline.arrRef spec2 1) : S50000x128.Idx → EReal)
    (V c (Pipeline.arrRef spec2 2) : S128x128.Idx → EReal) (V c (Pipeline.arrRef spec2 3) : S1x128.Idx → EReal)
    (V c (Pipeline.arrRef spec2 4) : S128x128.Idx → EReal)

/-- What point t writes back is block t of the layer of the whole arrays. -/
theorem flushed_eq (c : Dev nD) (t : Fin cfg2.N) :
    (dat2 V c).flushed 5 t = ((cfg2.win 5).blk t).view.read (Elt Ideal) (layerOf V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  refine (pay_rows (rowsAt t) _ _ _ _ _ _ _ _ _ _ (blk_rows V c t).1 (blk_rows V c t).2 (blk_whole V c t).1 (blk_whole V c t).2.1
    (blk_whole V c t).2.2).trans ?_
  obtain ⟨-, -, -, -, -, -, -, -, -, -, e10, e11⟩ := idx_facts t
  funext j
  rw [View.read_apply]
  show layerOf V c _ = layerOf V c _
  refine congrArg _ (funext fun a => Fin.ext ?_)
  match a with
  | ⟨0, _⟩ => show 5000 * t.val + (j 0).val = win2_5.index t (0 : Fin 2) * 5000 + 1 * (j 0).val; rw [e10]; omega
  | ⟨1, _⟩ => show (j 1).val = win2_5.index t (1 : Fin 2) * 128 + 1 * (j 1).val; rw [e11]; omega

/-- An index of the result array is in point t's block iff each coordinate is in the block's range on its axis. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v72).slice (win2_5.rect t)).set ↔ _
  rw [View.set_slice_whole, Rect.mem_set_unit]
  exact Iff.rfl

/-- The ten blocks tile the result array: row r is in block r / 5000. -/
theorem cover (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  obtain ⟨-, -, -, -, -, -, -, -, -, -, e10, e11⟩ := idx_facts t
  refine ⟨t, flush2_5 t, ?_⟩
  rw [mem_blk]
  intro a
  match a with
  | ⟨0, _⟩ =>
    show win2_5.index t (0 : Fin 2) * 5000 ≤ (i 0).val ∧ (i 0).val < win2_5.index t (0 : Fin 2) * 5000 + 5000
    rw [e10]; show (i 0).val / 5000 * 5000 ≤ (i 0).val ∧ (i 0).val < (i 0).val / 5000 * 5000 + 5000; omega
  | ⟨1, _⟩ =>
    show win2_5.index t (1 : Fin 2) * 128 ≤ (i 1).val ∧ (i 1).val < win2_5.index t (1 : Fin 2) * 128 + 128
    rw [e11]; omega

/-- After the region the result array holds the layer of the arrays the region found. -/
theorem final (c : Dev nD) : (dat2 V c).arrAt 5 cfg2.N = layerOf V c :=
  (dat2 V c).arrAt_eq_of_cover 5 (layerOf V c) (fun t _ => flushed_eq V c t) (cover)

end Cert.KernelIdeal.Region2

end
-- ==== Proof.Region3.lean ====
/-
  Region 3 of the idealized kernel, read as one whole-array function.

  The region runs a dense layer on ten blocks of 5000 rows. Block t of the input is rows 5000·t … 5000·t + 4999 of
  the array; the weight table and the one-row bias are staged whole at every point. The layer acts on every row by
  itself, so what point t writes back is rows 5000·t … of the layer computed on the whole array, and the ten blocks
  tile the result array: after the region it holds elu (X · W + B) of the arrays the region found.
-/
import proofs.«105906_j24541443129509_1_alg».proof.Proof.Gen.KernelIdeal.Frame
import proofs.«105906_j24541443129509_1_alg».proof.Proof.LibEluLayers
import proofs.«105906_j24541443129509_1_alg».proof.Proof.NetSpec
import Idealize.ShloMosaic.Lib.Pipeline.Value

set_option maxRecDepth 16384

noncomputable section

namespace Cert.KernelIdeal.Region3

open Idealize.ShloMosaic Idealize.ShloMosaic.TcCoe Idealize.SL.Sem Idealize.ShloMosaic.ValueIdx
open Idealize.ShloMosaic.Pipeline (Dat)
open Cert.KernelIdeal Cert.KernelIdeal.Gen Cert.BlockRows Cert.RowLayers Cert.DenseBlock Cert.EluLayers Cert.NetSpec

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block (t, 0), the tables at block (0, 0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The rows of the tall arrays that block t holds. -/
def rowsAt (t : Fin cfg3.N) : Fin 5000 → Fin 50000 := blockRow 5000 10 50000 (by norm_num) (Fin.cast N_3 t)

/-- The layer on a block whose operands are the picked rows and the whole tables. -/
theorem pay_rows (ρ : Fin 5000 → Fin 50000) (X : FVec Ideal ⟨2, ![50000, 128]⟩ .f32) (W : FVec Ideal ⟨2, ![128, 128]⟩ .f32)
    (B : FVec Ideal ⟨2, ![1, 128]⟩ .f32)
    (x0 : Vec Ideal S5000x128 .f32) (x1 : Vec Ideal S128x128 .f32) (x2 : Vec Ideal S1x128 .f32)
    (h0 : x0 = rowsOf ρ X) (h1 : x1 = W) (h2 : x2 = B) :
    k3_pay1 x0 x1 x2 = rowsOf ρ (lin bias128 X W B) := by
  subst h0 h1 h2
  unfold k3_pay1
  dsimp only
  refine (elu_vector _).trans ?_
  refine (congrArg elu ?_).trans (elu_rows ρ _)
  exact affine_of_rows ρ _ _ X x1 x2
    (narrowed_cast_rows ρ bitsLt_bf16_f32 shapeCasts_S5000x128_S5000x128 X)
    (narrowed_cast_whole bitsLt_bf16_f32 shapeCasts_S128x128_S128x128 x1)
    shapeCasts_S1x128_S1x128 broadcasts_S1x128_S5000x128 bias128

/-- Block t of the row-blocked window is the picked rows of its array. -/
theorem blk_rows (c : Dev nD) (t : Fin cfg3.N) :
    (iblk3 V c 0 t : Vec Ideal S5000x128 .f32) = rowsOf (rowsAt t) (V c (Pipeline.arrRef spec3 0) : S50000x128.Idx → EReal) := by
  obtain ⟨e0, e1, -⟩ := idx_facts t
  funext j
  unfold iblk3
  rw [View.read_apply]
  show V c (Pipeline.arrRef spec3 0) _ = V c (Pipeline.arrRef spec3 0) _
  refine congrArg _ (funext fun a => Fin.ext ?_)
  match a with
  | ⟨0, _⟩ => show win3_0.index t (0 : Fin 2) * 5000 + 1 * (j 0).val = 5000 * t.val + (j 0).val; rw [e0]; omega
  | ⟨1, _⟩ => show win3_0.index t (1 : Fin 2) * 128 + 1 * (j 1).val = (j 1).val; rw [e1]; omega

/-- The block of a table staged whole is the table. -/
theorem blk_whole (c : Dev nD) (t : Fin cfg3.N) :
    (iblk3 V c 1 t : Vec Ideal S128x128 .f32) = (V c (Pipeline.arrRef spec3 1) : S128x128.Idx → EReal)
    ∧ (iblk3 V c 2 t : Vec Ideal S1x128 .f32) = (V c (Pipeline.arrRef spec3 2) : S1x128.Idx → EReal) := by
  obtain ⟨-, -, e2, e3, e4, e5, -⟩ := idx_facts t
  refine ⟨funext fun j => ?_, funext fun j => ?_⟩
  · unfold iblk3
    rw [View.read_apply]
    show V c (Pipeline.arrRef spec3 1) _ = V c (Pipeline.arrRef spec3 1) _
    refine congrArg _ (funext fun a => Fin.ext ?_)
    match a with
    | ⟨0, _⟩ => show win3_1.index t (0 : Fin 2) * 128 + 1 * (j 0).val = (j 0).val; rw [e2]; omega
    | ⟨1, _⟩ => show win3_1.index t (1 : Fin 2) * 128 + 1 * (j 1).val = (j 1).val; rw [e3]; omega
  · unfold iblk3
    rw [View.read_apply]
    show V c (Pipeline.arrRef spec3 2) _ = V c (Pipeline.arrRef spec3 2) _
    refine congrArg _ (funext fun a => Fin.ext ?_)
    match a with
    | ⟨0, _⟩ => show win3_2.index t (0 : Fin 2) * 1 + 1 * (j 0).val = (j 0).val; rw [e4]; omega
    | ⟨1, _⟩ => show win3_2.index t (1 : Fin 2) * 128 + 1 * (j 1).val = (j 1).val; rw [e5]; omega

/-- The layer of the arrays the region finds. -/
def layerOf (c : Dev nD) : S50000x128.Idx → EReal :=
  lin bias128 (V c (Pipeline.arrRef spec3 0) : S50000x128.Idx → EReal)
    (V c (Pipeline.arrRef spec3 1) : S128x128.Idx → EReal) (V c (Pipeline.arrRef spec3 2) : S1x128.Idx → EReal)

/-- What point t writes back is block t of the layer of the whole arrays. -/
theorem flushed_eq (c : Dev nD) (t : Fin cfg3.N) :
    (dat3 V c).flushed 3 t = ((cfg3.win 3).blk t).view.read (Elt Ideal) (layerOf V c) := by
  show (cfg3.win 3).cut (grid3.coords t) ((dat3 V c).after 3 t) = _
  rw [after3_3]
  unfold out3_3
  rw [View.canon_unit_zero hz]
  simp only [View.ld_unit_zero (S := S5000x128) hz, View.ld_unit_zero (S := S128x128) hz, View.ld_unit_zero (S := S1x128) hz]
  refine (pay_rows (rowsAt t) _ _ _ _ _ _ (blk_rows V c t) (blk_whole V c t).1 (blk_whole V c t).2).trans ?_
  obtain ⟨-, -, -, -, -, -, e6, e7⟩ := idx_facts t
  funext j
  rw [View.read_apply]
  show layerOf V c _ = layerOf V c _
  refine congrArg _ (funext fun a => Fin.ext ?_)
  match a with
  | ⟨0, _⟩ => show 5000 * t.val + (j 0).val = win3_3.index t (0 : Fin 2) * 5000 + 1 * (j 0).val; rw [e6]; omega
  | ⟨1, _⟩ => show (j 1).val = win3_3.index t (1 : Fin 2) * 128 + 1 * (j 1).val; rw [e7]; omega

/-- An index of the result array is in point t's block iff each coordinate is in the block's range on its axis. -/
theorem mem_blk (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v78).slice (win3_3.rect t)).set ↔ _
  rw [View.set_slice_whole, Rect.mem_set_unit]
  exact Iff.rfl

/-- The ten blocks tile the result array: row r is in block r / 5000. -/
theorem cover (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨-, -, -, -, -, -, e6, e7⟩ := idx_facts t
  refine ⟨t, flush3_3 t, ?_⟩
  rw [mem_blk]
  intro a
  match a with
  | ⟨0, _⟩ =>
    show win3_3.index t (0 : Fin 2) * 5000 ≤ (i 0).val ∧ (i 0).val < win3_3.index t (0 : Fin 2) * 5000 + 5000
    rw [e6]; show (i 0).val / 5000 * 5000 ≤ (i 0).val ∧ (i 0).val < (i 0).val / 5000 * 5000 + 5000; omega
  | ⟨1, _⟩ =>
    show win3_3.index t (1 : Fin 2) * 128 ≤ (i 1).val ∧ (i 1).val < win3_3.index t (1 : Fin 2) * 128 + 128
    rw [e7]; omega

/-- After the region the result array holds the layer of the arrays the region found. -/
theorem final (c : Dev nD) : (dat3 V c).arrAt 3 cfg3.N = layerOf V c :=
  (dat3 V c).arrAt_eq_of_cover 3 (layerOf V c) (fun t _ => flushed_eq V c t) (cover)

end Cert.KernelIdeal.Region3

end
-- ==== Proof.Region4.lean ====
/-
  Region 4 of the idealized kernel, read as one whole-array function.

  The region runs a dense layer on ten blocks of 5000 rows. Block t of the input is rows 5000·t … 5000·t + 4999 of
  the array; the weight table and the one-row bias are staged whole at every point. The layer acts on every row by
  itself, so what point t writes back is rows 5000·t … of the layer computed on the whole array, and the ten blocks
  tile the result array: after the region it holds elu (X · W + B) of the arrays the region found.
-/
import proofs.«105906_j24541443129509_1_alg».proof.Proof.Gen.KernelIdeal.Frame
import proofs.«105906_j24541443129509_1_alg».proof.Proof.LibEluLayers
import proofs.«105906_j24541443129509_1_alg».proof.Proof.NetSpec
import Idealize.ShloMosaic.Lib.Pipeline.Value

set_option maxRecDepth 16384

noncomputable section

namespace Cert.KernelIdeal.Region4

open Idealize.ShloMosaic Idealize.ShloMosaic.TcCoe Idealize.SL.Sem Idealize.ShloMosaic.ValueIdx
open Idealize.ShloMosaic.Pipeline (Dat)
open Cert.KernelIdeal Cert.KernelIdeal.Gen Cert.BlockRows Cert.RowLayers Cert.DenseBlock Cert.EluLayers Cert.NetSpec

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block (t, 0), the tables at block (0, 0). -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The rows of the tall arrays that block t holds. -/
def rowsAt (t : Fin cfg4.N) : Fin 5000 → Fin 50000 := blockRow 5000 10 50000 (by norm_num) (Fin.cast N_4 t)

/-- The layer on a block whose operands are the picked rows and the whole tables. -/
theorem pay_rows (ρ : Fin 5000 → Fin 50000) (X : FVec Ideal ⟨2, ![50000, 128]⟩ .f32) (W : FVec Ideal ⟨2, ![128, 128]⟩ .f32)
    (B : FVec Ideal ⟨2, ![1, 128]⟩ .f32)
    (x0 : Vec Ideal S5000x128 .f32) (x1 : Vec Ideal S128x128 .f32) (x2 : Vec Ideal S1x128 .f32)
    (h0 : x0 = rowsOf ρ X) (h1 : x1 = W) (h2 : x2 = B) :
    k4_pay1 x0 x1 x2 = rowsOf ρ (lin bias128 X W B) := by
  subst h0 h1 h2
  unfold k4_pay1
  dsimp only
  refine (elu_vector _).trans ?_
  refine (congrArg elu ?_).trans (elu_rows ρ _)
  exact affine_of_rows ρ _ _ X x1 x2
    (narrowed_cast_rows ρ bitsLt_bf16_f32 shapeCasts_S5000x128_S5000x128 X)
    (narrowed_cast_whole bitsLt_bf16_f32 shapeCasts_S128x128_S128x128 x1)
    shapeCasts_S1x128_S1x128 broadcasts_S1x128_S5000x128 bias128

/-- Block t of the row-blocked window is the picked rows of its array. -/
theorem blk_rows (c : Dev nD) (t : Fin cfg4.N) :
    (iblk4 V c 0 t : Vec Ideal S5000x128 .f32) = rowsOf (rowsAt t) (V c (Pipeline.arrRef spec4 0) : S50000x128.Idx → EReal) := by
  obtain ⟨e0, e1, -⟩ := idx_facts t
  funext j
  unfold iblk4
  rw [View.read_apply]
  show V c (Pipeline.arrRef spec4 0) _ = V c (Pipeline.arrRef spec4 0) _
  refine congrArg _ (funext fun a => Fin.ext ?_)
  match a with
  | ⟨0, _⟩ => show win4_0.index t (0 : Fin 2) * 5000 + 1 * (j 0).val = 5000 * t.val + (j 0).val; rw [e0]; omega
  | ⟨1, _⟩ => show win4_0.index t (1 : Fin 2) * 128 + 1 * (j 1).val = (j 1).val; rw [e1]; omega

/-- The block of a table staged whole is the table. -/
theorem blk_whole (c : Dev nD) (t : Fin cfg4.N) :
    (iblk4 V c 1 t : Vec Ideal S128x128 .f32) = (V c (Pipeline.arrRef spec4 1) : S128x128.Idx → EReal)
    ∧ (iblk4 V c 2 t : Vec Ideal S1x128 .f32) = (V c (Pipeline.arrRef spec4 2) : S1x128.Idx → EReal) := by
  obtain ⟨-, -, e2, e3, e4, e5, -⟩ := idx_facts t
  refine ⟨funext fun j => ?_, funext fun j => ?_⟩
  · unfold iblk4
    rw [View.read_apply]
    show V c (Pipeline.arrRef spec4 1) _ = V c (Pipeline.arrRef spec4 1) _
    refine congrArg _ (funext fun a => Fin.ext ?_)
    match a with
    | ⟨0, _⟩ => show win4_1.index t (0 : Fin 2) * 128 + 1 * (j 0).val = (j 0).val; rw [e2]; omega
    | ⟨1, _⟩ => show win4_1.index t (1 : Fin 2) * 128 + 1 * (j 1).val = (j 1).val; rw [e3]; omega
  · unfold iblk4
    rw [View.read_apply]
    show V c (Pipeline.arrRef spec4 2) _ = V c (Pipeline.arrRef spec4 2) _
    refine congrArg _ (funext fun a => Fin.ext ?_)
    match a with
    | ⟨0, _⟩ => show win4_2.index t (0 : Fin 2) * 1 + 1 * (j 0).val = (j 0).val; rw [e4]; omega
    | ⟨1, _⟩ => show win4_2.index t (1 : Fin 2) * 128 + 1 * (j 1).val = (j 1).val; rw [e5]; omega

/-- The layer of the arrays the region finds. -/
def layerOf (c : Dev nD) : S50000x128.Idx → EReal :=
  lin bias128 (V c (Pipeline.arrRef spec4 0) : S50000x128.Idx → EReal)
    (V c (Pipeline.arrRef spec4 1) : S128x128.Idx → EReal) (V c (Pipeline.arrRef spec4 2) : S1x128.Idx → EReal)

/-- What point t writes back is block t of the layer of the whole arrays. -/
theorem flushed_eq (c : Dev nD) (t : Fin cfg4.N) :
    (dat4 V c).flushed 3 t = ((cfg4.win 3).blk t).view.read (Elt Ideal) (layerOf V c) := by
  show (cfg4.win 3).cut (grid4.coords t) ((dat4 V c).after 3 t) = _
  rw [after4_3]
  unfold out4_3
  rw [View.canon_unit_zero hz]
  simp only [View.ld_unit_zero (S := S5000x128) hz, View.ld_unit_zero (S := S128x128) hz, View.ld_unit_zero (S := S1x128) hz]
  refine (pay_rows (rowsAt t) _ _ _ _ _ _ (blk_rows V c t) (blk_whole V c t).1 (blk_whole V c t).2).trans ?_
  obtain ⟨-, -, -, -, -, -, e6, e7⟩ := idx_facts t
  funext j
  rw [View.read_apply]
  show layerOf V c _ = layerOf V c _
  refine congrArg _ (funext fun a => Fin.ext ?_)
  match a with
  | ⟨0, _⟩ => show 5000 * t.val + (j 0).val = win4_3.index t (0 : Fin 2) * 5000 + 1 * (j 0).val; rw [e6]; omega
  | ⟨1, _⟩ => show (j 1).val = win4_3.index t (1 : Fin 2) * 128 + 1 * (j 1).val; rw [e7]; omega

/-- An index of the result array is in point t's block iff each coordinate is in the block's range on its axis. -/
theorem mem_blk (t : Fin cfg4.N) (i : S50000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v84).slice (win4_3.rect t)).set ↔ _
  rw [View.set_slice_whole, Rect.mem_set_unit]
  exact Iff.rfl

/-- The ten blocks tile the result array: row r is in block r / 5000. -/
theorem cover (i : S50000x128.Idx) : ∃ t : Fin cfg4.N, (cfg4.win 3).flush t = true ∧ i ∈ ((cfg4.win 3).blk t).view.set := by
  have hi0 : (i 0).val < 50000 := (i 0).isLt
  have hi1 : (i 1).val < 128 := (i 1).isLt
  have hN : cfg4.N = 10 := N_4
  let t : Fin cfg4.N := ⟨(i 0).val / 5000, by rw [hN]; omega⟩
  obtain ⟨-, -, -, -, -, -, e6, e7⟩ := idx_facts t
  refine ⟨t, flush4_3 t, ?_⟩
  rw [mem_blk]
  intro a
  match a with
  | ⟨0, _⟩ =>
    show win4_3.index t (0 : Fin 2) * 5000 ≤ (i 0).val ∧ (i 0).val < win4_3.index t (0 : Fin 2) * 5000 + 5000
    rw [e6]; show (i 0).val / 5000 * 5000 ≤ (i 0).val ∧ (i 0).val < (i 0).val / 5000 * 5000 + 5000; omega
  | ⟨1, _⟩ =>
    show win4_3.index t (1 : Fin 2) * 128 ≤ (i 1).val ∧ (i 1).val < win4_3.index t (1 : Fin 2) * 128 + 128
    rw [e7]; omega

/-- After the region the result array holds the layer of the arrays the region found. -/
theorem final (c : Dev nD) : (dat4 V c).arrAt 3 cfg4.N = layerOf V c :=
  (dat4 V c).arrAt_eq_of_cover 3 (layerOf V c) (fun t _ => flushed_eq V c t) (cover)

end Cert.KernelIdeal.Region4

end
-- ==== Proof.Region5.lean ====
/-
  Region 5 of the idealized kernel, read as one whole-array function.

  The region runs a dense layer on ten blocks of 5000 rows. Block t of the input is rows 5000·t … 5000·t + 4999 of
  the array; the weight table and the one-row bias are staged whole at every point. The layer acts on every row by
  itself, so what point t writes back is rows 5000·t … of the layer computed on the whole array, and the ten blocks
  tile the result array: after the region it holds X · W + B of the arrays the region found.
-/
import proofs.«105906_j24541443129509_1_alg».proof.Proof.Gen.KernelIdeal.Frame
import proofs.«105906_j24541443129509_1_alg».proof.Proof.LibEluLayers
import proofs.«105906_j24541443129509_1_alg».proof.Proof.NetSpec
import Idealize.ShloMosaic.Lib.Pipeline.Value

set_option maxRecDepth 16384

noncomputable section

namespace Cert.KernelIdeal.Region5

open Idealize.ShloMosaic Idealize.ShloMosaic.TcCoe Idealize.SL.Sem Idealize.ShloMosaic.ValueIdx
open Idealize.ShloMosaic.Pipeline (Dat)
open Cert.KernelIdeal Cert.KernelIdeal.Gen Cert.BlockRows Cert.RowLayers Cert.DenseBlock Cert.EluLayers Cert.NetSpec

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block (t, 0), the tables at block (0, 0). -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The rows of the tall arrays that block t holds. -/
def rowsAt (t : Fin cfg5.N) : Fin 5000 → Fin 50000 := blockRow 5000 10 50000 (by norm_num) (Fin.cast N_5 t)

/-- The layer on a block whose operands are the picked rows and the whole tables. -/
theorem pay_rows (ρ : Fin 5000 → Fin 50000) (X : FVec Ideal ⟨2, ![50000, 128]⟩ .f32) (W : FVec Ideal ⟨2, ![128, 128]⟩ .f32)
    (B : FVec Ideal ⟨2, ![1, 128]⟩ .f32)
    (x0 : Vec Ideal S5000x128 .f32) (x1 : Vec Ideal S128x128 .f32) (x2 : Vec Ideal S1x128 .f32)
    (h0 : x0 = rowsOf ρ X) (h1 : x1 = W) (h2 : x2 = B) :
    k5_pay1 x0 x1 x2 = rowsOf ρ (affine bias128 X W B) := by
  subst h0 h1 h2
  unfold k5_pay1
  dsimp only
  exact affine_of_rows ρ _ _ X x1 x2
    (narrowed_cast_rows ρ bitsLt_bf16_f32 shapeCasts_S5000x128_S5000x128 X)
    (narrowed_cast_whole bitsLt_bf16_f32 shapeCasts_S128x128_S128x128 x1)
    shapeCasts_S1x128_S1x128 broadcasts_S1x128_S5000x128 bias128

/-- Block t of the row-blocked window is the picked rows of its array. -/
theorem blk_rows (c : Dev nD) (t : Fin cfg5.N) :
    (iblk5 V c 0 t : Vec Ideal S5000x128 .f32) = rowsOf (rowsAt t) (V c (Pipeline.arrRef spec5 0) : S50000x128.Idx → EReal) := by
  obtain ⟨e0, e1, -⟩ := idx_facts t
  funext j
  unfold iblk5
  rw [View.read_apply]
  show V c (Pipeline.arrRef spec5 0) _ = V c (Pipeline.arrRef spec5 0) _
  refine congrArg _ (funext fun a => Fin.ext ?_)
  match a with
  | ⟨0, _⟩ => show win5_0.index t (0 : Fin 2) * 5000 + 1 * (j 0).val = 5000 * t.val + (j 0).val; rw [e0]; omega
  | ⟨1, _⟩ => show win5_0.index t (1 : Fin 2) * 128 + 1 * (j 1).val = (j 1).val; rw [e1]; omega

/-- The block of a table staged whole is the table. -/
theorem blk_whole (c : Dev nD) (t : Fin cfg5.N) :
    (iblk5 V c 1 t : Vec Ideal S128x128 .f32) = (V c (Pipeline.arrRef spec5 1) : S128x128.Idx → EReal)
    ∧ (iblk5 V c 2 t : Vec Ideal S1x128 .f32) = (V c (Pipeline.arrRef spec5 2) : S1x128.Idx → EReal) := by
  obtain ⟨-, -, e2, e3, e4, e5, -⟩ := idx_facts t
  refine ⟨funext fun j => ?_, funext fun j => ?_⟩
  · unfold iblk5
    rw [View.read_apply]
    show V c (Pipeline.arrRef spec5 1) _ = V c (Pipeline.arrRef spec5 1) _
    refine congrArg _ (funext fun a => Fin.ext ?_)
    match a with
    | ⟨0, _⟩ => show win5_1.index t (0 : Fin 2) * 128 + 1 * (j 0).val = (j 0).val; rw [e2]; omega
    | ⟨1, _⟩ => show win5_1.index t (1 : Fin 2) * 128 + 1 * (j 1).val = (j 1).val; rw [e3]; omega
  · unfold iblk5
    rw [View.read_apply]
    show V c (Pipeline.arrRef spec5 2) _ = V c (Pipeline.arrRef spec5 2) _
    refine congrArg _ (funext fun a => Fin.ext ?_)
    match a with
    | ⟨0, _⟩ => show win5_2.index t (0 : Fin 2) * 1 + 1 * (j 0).val = (j 0).val; rw [e4]; omega
    | ⟨1, _⟩ => show win5_2.index t (1 : Fin 2) * 128 + 1 * (j 1).val = (j 1).val; rw [e5]; omega

/-- The layer of the arrays the region finds. -/
def layerOf (c : Dev nD) : S50000x128.Idx → EReal :=
  affine bias128 (V c (Pipeline.arrRef spec5 0) : S50000x128.Idx → EReal)
    (V c (Pipeline.arrRef spec5 1) : S128x128.Idx → EReal) (V c (Pipeline.arrRef spec5 2) : S1x128.Idx → EReal)

/-- What point t writes back is block t of the layer of the whole arrays. -/
theorem flushed_eq (c : Dev nD) (t : Fin cfg5.N) :
    (dat5 V c).flushed 3 t = ((cfg5.win 3).blk t).view.read (Elt Ideal) (layerOf V c) := by
  show (cfg5.win 3).cut (grid5.coords t) ((dat5 V c).after 3 t) = _
  rw [after5_3]
  unfold out5_3
  rw [View.canon_unit_zero hz]
  simp only [View.ld_unit_zero (S := S5000x128) hz, View.ld_unit_zero (S := S128x128) hz, View.ld_unit_zero (S := S1x128) hz]
  refine (pay_rows (rowsAt t) _ _ _ _ _ _ (blk_rows V c t) (blk_whole V c t).1 (blk_whole V c t).2).trans ?_
  obtain ⟨-, -, -, -, -, -, e6, e7⟩ := idx_facts t
  funext j
  rw [View.read_apply]
  show layerOf V c _ = layerOf V c _
  refine congrArg _ (funext fun a => Fin.ext ?_)
  match a with
  | ⟨0, _⟩ => show 5000 * t.val + (j 0).val = win5_3.index t (0 : Fin 2) * 5000 + 1 * (j 0).val; rw [e6]; omega
  | ⟨1, _⟩ => show (j 1).val = win5_3.index t (1 : Fin 2) * 128 + 1 * (j 1).val; rw [e7]; omega

/-- An index of the result array is in point t's block iff each coordinate is in the block's range on its axis. -/
theorem mem_blk (t : Fin cfg5.N) (i : S50000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v88).slice (win5_3.rect t)).set ↔ _
  rw [View.set_slice_whole, Rect.mem_set_unit]
  exact Iff.rfl

/-- The ten blocks tile the result array: row r is in block r / 5000. -/
theorem cover (i : S50000x128.Idx) : ∃ t : Fin cfg5.N, (cfg5.win 3).flush t = true ∧ i ∈ ((cfg5.win 3).blk t).view.set := by
  have hi0 : (i 0).val < 50000 := (i 0).isLt
  have hi1 : (i 1).val < 128 := (i 1).isLt
  have hN : cfg5.N = 10 := N_5
  let t : Fin cfg5.N := ⟨(i 0).val / 5000, by rw [hN]; omega⟩
  obtain ⟨-, -, -, -, -, -, e6, e7⟩ := idx_facts t
  refine ⟨t, flush5_3 t, ?_⟩
  rw [mem_blk]
  intro a
  match a with
  | ⟨0, _⟩ =>
    show win5_3.index t (0 : Fin 2) * 5000 ≤ (i 0).val ∧ (i 0).val < win5_3.index t (0 : Fin 2) * 5000 + 5000
    rw [e6]; show (i 0).val / 5000 * 5000 ≤ (i 0).val ∧ (i 0).val < (i 0).val / 5000 * 5000 + 5000; omega
  | ⟨1, _⟩ =>
    show win5_3.index t (1 : Fin 2) * 128 ≤ (i 1).val ∧ (i 1).val < win5_3.index t (1 : Fin 2) * 128 + 128
    rw [e7]; omega

/-- After the region the result array holds the layer of the arrays the region found. -/
theorem final (c : Dev nD) : (dat5 V c).arrAt 3 cfg5.N = layerOf V c :=
  (dat5 V c).arrAt_eq_of_cover 3 (layerOf V c) (fun t _ => flushed_eq V c t) (cover)

end Cert.KernelIdeal.Region5

end
-- ==== Proof.KHost0.lean ====
/-
  The host operations before the first region, read at the buffers the regions and the later stretches use: the
  aggregate of the node features, the first layer's tables and bias row, the edges' sources and destinations, the
  inverse in-degrees as a column; the argument arrays are not written.
-/
import proofs.«105906_j24541443129509_1_alg».proof.Proof.Gen.KernelIdeal.Frame
import proofs.«105906_j24541443129509_1_alg».proof.Proof.NetSpec

set_option maxRecDepth 16384

noncomputable section

namespace Cert.KernelIdeal.Host0

open Idealize.ShloMosaic Idealize.ShloMosaic.TcCoe Idealize.SL.Sem
open Cert.KernelIdeal Cert.KernelIdeal.Gen Cert.NetSpec

set_option maxHeartbeats 8000000 in
theorem v24 (W : Valuation τ sig (Elt Ideal)) :
    StableHlo.after (hostOps0) W (Proc.devRef .tc main_v24) = aggregate (W (Proc.devRef .tc main_arg1)) (W (Proc.devRef .tc main_arg0)) := by
  after_results_simp
  rfl

set_option maxHeartbeats 4000000 in
theorem v26 (W : Valuation τ sig (Elt Ideal)) :
    StableHlo.after (hostOps0) W (Proc.devRef .tc main_v26) = tblOf 0 convTbl0 (W (Proc.devRef .tc main_arg2)) := by
  after_results_simp
  rfl

set_option maxHeartbeats 4000000 in
theorem v30 (W : Valuation τ sig (Elt Ideal)) :
    StableHlo.after (hostOps0) W (Proc.devRef .tc main_v30) = tblOf 0 convTbl0 (W (Proc.devRef .tc main_arg4)) := by
  after_results_simp
  rfl

set_option maxHeartbeats 4000000 in
theorem v31 (W : Valuation τ sig (Elt Ideal)) :
    StableHlo.after (hostOps0) W (Proc.devRef .tc main_v31) = shapeCast SB1 (rowVecOf 0 convRow0 (W (Proc.devRef .tc main_arg3))) rowCastBack := by
  after_results_simp
  rfl

set_option maxHeartbeats 4000000 in
theorem v1 (W : Valuation τ sig (Elt Ideal)) :
    StableHlo.after (hostOps0) W (Proc.devRef .tc main_v1) = src (W (Proc.devRef .tc main_arg1)) := by
  after_results_simp
  rfl

set_option maxHeartbeats 4000000 in
theorem v3 (W : Valuation τ sig (Elt Ideal)) :
    StableHlo.after (hostOps0) W (Proc.devRef .tc main_v3) = dst (W (Proc.devRef .tc main_arg1)) := by
  after_results_simp
  rfl

set_option maxHeartbeats 4000000 in
theorem v12 (W : Valuation τ sig (Elt Ideal)) :
    StableHlo.after (hostOps0) W (Proc.devRef .tc main_v12) = broadcastInDim SNc ![0] degCol (invDeg (dst (W (Proc.devRef .tc main_arg1)))) := by
  after_results_simp
  rfl

theorem c_arg0 (W : Valuation τ sig (Elt Ideal)) :
    StableHlo.after (hostOps0) W (Proc.devRef .tc main_arg0) = W (Proc.devRef .tc main_arg0) := by
  after_results_simp

theorem c_arg2 (W : Valuation τ sig (Elt Ideal)) :
    StableHlo.after (hostOps0) W (Proc.devRef .tc main_arg2) = W (Proc.devRef .tc main_arg2) := by
  after_results_simp

theorem c_arg3 (W : Valuation τ sig (Elt Ideal)) :
    StableHlo.after (hostOps0) W (Proc.devRef .tc main_arg3) = W (Proc.devRef .tc main_arg3) := by
  after_results_simp

theorem c_arg4 (W : Valuation τ sig (Elt Ideal)) :
    StableHlo.after (hostOps0) W (Proc.devRef .tc main_arg4) = W (Proc.devRef .tc main_arg4) := by
  after_results_simp

theorem c_arg5 (W : Valuation τ sig (Elt Ideal)) :
    StableHlo.after (hostOps0) W (Proc.devRef .tc main_arg5) = W (Proc.devRef .tc main_arg5) := by
  after_results_simp

theorem c_arg6 (W : Valuation τ sig (Elt Ideal)) :
    StableHlo.after (hostOps0) W (Proc.devRef .tc main_arg6) = W (Proc.devRef .tc main_arg6) := by
  after_results_simp

theorem c_arg7 (W : Valuation τ sig (Elt Ideal)) :
    StableHlo.after (hostOps0) W (Proc.devRef .tc main_arg7) = W (Proc.devRef .tc main_arg7) := by
  after_results_simp

theorem c_arg8 (W : Valuation τ sig (Elt Ideal)) :
    StableHlo.after (hostOps0) W (Proc.devRef .tc main_arg8) = W (Proc.devRef .tc main_arg8) := by
  after_results_simp

end Cert.KernelIdeal.Host0

end
-- ==== Proof.KHost1.lean ====
/-
  The host operations before region 1: the aggregate of the previous layer's result, layer 1's tables and bias row;
  the buffers later stretches read are not written.
-/
import proofs.«105906_j24541443129509_1_alg».proof.Proof.Gen.KernelIdeal.Frame
import proofs.«105906_j24541443129509_1_alg».proof.Proof.NetSpec

set_option maxRecDepth 16384

noncomputable section

namespace Cert.KernelIdeal.Host1

open Idealize.ShloMosaic Idealize.ShloMosaic.TcCoe Idealize.SL.Sem
open Cert.KernelIdeal Cert.KernelIdeal.Gen Cert.NetSpec

set_option maxHeartbeats 8000000 in
theorem agg (W : Valuation τ sig (Elt Ideal)) :
    StableHlo.after (hostOps1) W (Proc.devRef .tc main_v44) = aggOf (W (Proc.devRef .tc main_v1)) (W (Proc.devRef .tc main_v3)) (W (Proc.devRef .tc main_v12)) (W (Proc.devRef .tc main_v32)) := by
  after_results_simp
  rfl

set_option maxHeartbeats 4000000 in
theorem wl (W : Valuation τ sig (Elt Ideal)) :
    StableHlo.after (hostOps1) W (Proc.devRef .tc main_v46) = tblOf 1 convTbl1 (W (Proc.devRef .tc main_arg2)) := by
  after_results_simp
  rfl

set_option maxHeartbeats 4000000 in
theorem wr (W : Valuation τ sig (Elt Ideal)) :
    StableHlo.after (hostOps1) W (Proc.devRef .tc main_v50) = tblOf 1 convTbl1 (W (Proc.devRef .tc main_arg4)) := by
  after_results_simp
  rfl

set_option maxHeartbeats 4000000 in
theorem b (W : Valuation τ sig (Elt Ideal)) :
    StableHlo.after (hostOps1) W (Proc.devRef .tc main_v51) = shapeCast SB1 (rowVecOf 1 convRow1 (W (Proc.devRef .tc main_arg3))) rowCastBack := by
  after_results_simp
  rfl

theorem c_v32 (W : Valuation τ sig (Elt Ideal)) :
    StableHlo.after (hostOps1) W (Proc.devRef .tc main_v32) = W (Proc.devRef .tc main_v32) := by
  after_results_simp

theorem c_v1 (W : Valuation τ sig (Elt Ideal)) :
    StableHlo.after (hostOps1) W (Proc.devRef .tc main_v1) = W (Proc.devRef .tc main_v1) := by
  after_results_simp

theorem c_v3 (W : Valuation τ sig (Elt Ideal)) :
    StableHlo.after (hostOps1) W (Proc.devRef .tc main_v3) = W (Proc.devRef .tc main_v3) := by
  after_results_simp

theorem c_v12 (W : Valuation τ sig (Elt Ideal)) :
    StableHlo.after (hostOps1) W (Proc.devRef .tc main_v12) = W (Proc.devRef .tc main_v12) := by
  after_results_simp

theorem c_arg2 (W : Valuation τ sig (Elt Ideal)) :
    StableHlo.after (hostOps1) W (Proc.devRef .tc main_arg2) = W (Proc.devRef .tc main_arg2) := by
  after_results_simp

theorem c_arg3 (W : Valuation τ sig (Elt Ideal)) :
    StableHlo.after (hostOps1) W (Proc.devRef .tc main_arg3) = W (Proc.devRef .tc main_arg3) := by
  after_results_simp

theorem c_arg4 (W : Valuation τ sig (Elt Ideal)) :
    StableHlo.after (hostOps1) W (Proc.devRef .tc main_arg4) = W (Proc.devRef .tc main_arg4) := by
  after_results_simp

theorem c_arg5 (W : Valuation τ sig (Elt Ideal)) :
    StableHlo.after (hostOps1) W (Proc.devRef .tc main_arg5) = W (Proc.devRef .tc main_arg5) := by
  after_results_simp

theorem c_arg6 (W : Valuation τ sig (Elt Ideal)) :
    StableHlo.after (hostOps1) W (Proc.devRef .tc main_arg6) = W (Proc.devRef .tc main_arg6) := by
  after_results_simp

theorem c_arg7 (W : Valuation τ sig (Elt Ideal)) :
    StableHlo.after (hostOps1) W (Proc.devRef .tc main_arg7) = W (Proc.devRef .tc main_arg7) := by
  after_results_simp

theorem c_arg8 (W : Valuation τ sig (Elt Ideal)) :
    StableHlo.after (hostOps1) W (Proc.devRef .tc main_arg8) = W (Proc.devRef .tc main_arg8) := by
  after_results_simp

end Cert.KernelIdeal.Host1

end
-- ==== Proof.KHost2.lean ====
/-
  The host operations before region 2: the aggregate of the previous layer's result, layer 2's tables and bias row;
  the buffers later stretches read are not written.
-/
import proofs.«105906_j24541443129509_1_alg».proof.Proof.Gen.KernelIdeal.Frame
import proofs.«105906_j24541443129509_1_alg».proof.Proof.NetSpec

set_option maxRecDepth 16384

noncomputable section

namespace Cert.KernelIdeal.Host2

open Idealize.ShloMosaic Idealize.ShloMosaic.TcCoe Idealize.SL.Sem
open Cert.KernelIdeal Cert.KernelIdeal.Gen Cert.NetSpec

set_option maxHeartbeats 8000000 in
theorem agg (W : Valuation τ sig (Elt Ideal)) :
    StableHlo.after (hostOps2) W (Proc.devRef .tc main_v64) = aggOf (W (Proc.devRef .tc main_v1)) (W (Proc.devRef .tc main_v3)) (W (Proc.devRef .tc main_v12)) (W (Proc.devRef .tc main_v52)) := by
  after_results_simp
  rfl

set_option maxHeartbeats 4000000 in
theorem wl (W : Valuation τ sig (Elt Ideal)) :
    StableHlo.after (hostOps2) W (Proc.devRef .tc main_v66) = tblOf 2 convTbl2 (W (Proc.devRef .tc main_arg2)) := by
  after_results_simp
  rfl

set_option maxHeartbeats 4000000 in
theorem wr (W : Valuation τ sig (Elt Ideal)) :
    StableHlo.after (hostOps2) W (Proc.devRef .tc main_v70) = tblOf 2 convTbl2 (W (Proc.devRef .tc main_arg4)) := by
  after_results_simp
  rfl

set_option maxHeartbeats 4000000 in
theorem b (W : Valuation τ sig (Elt Ideal)) :
    StableHlo.after (hostOps2) W (Proc.devRef .tc main_v71) = shapeCast SB1 (rowVecOf 2 convRow2 (W (Proc.devRef .tc main_arg3))) rowCastBack := by
  after_results_simp
  rfl

theorem c_v52 (W : Valuation τ sig (Elt Ideal)) :
    StableHlo.after (hostOps2) W (Proc.devRef .tc main_v52) = W (Proc.devRef .tc main_v52) := by
  after_results_simp

theorem c_arg5 (W : Valuation τ sig (Elt Ideal)) :
    StableHlo.after (hostOps2) W (Proc.devRef .tc main_arg5) = W (Proc.devRef .tc main_arg5) := by
  after_results_simp

theorem c_arg6 (W : Valuation τ sig (Elt Ideal)) :
    StableHlo.after (hostOps2) W (Proc.devRef .tc main_arg6) = W (Proc.devRef .tc main_arg6) := by
  after_results_simp

theorem c_arg7 (W : Valuation τ sig (Elt Ideal)) :
    StableHlo.after (hostOps2) W (Proc.devRef .tc main_arg7) = W (Proc.devRef .tc main_arg7) := by
  after_results_simp

theorem c_arg8 (W : Valuation τ sig (Elt Ideal)) :
    StableHlo.after (hostOps2) W (Proc.devRef .tc main_arg8) = W (Proc.devRef .tc main_arg8) := by
  after_results_simp

end Cert.KernelIdeal.Host2

end
-- ==== Proof.KHostRest.lean ====
/-
  The short host stretches between the later regions: a dense layer's table and bias row sliced out of the stacked
  arguments before each of regions 3 and 4; before region 5 the head's table and bias padded with zeros from 32 to 128
  columns; after it the first 32 columns of its result. Buffers the later stretches read are not written.
-/
import proofs.«105906_j24541443129509_1_alg».proof.Proof.Gen.KernelIdeal.Frame
import proofs.«105906_j24541443129509_1_alg».proof.Proof.NetSpec

set_option maxRecDepth 16384

noncomputable section

namespace Cert.KernelIdeal.HostRest

open Idealize.ShloMosaic Idealize.ShloMosaic.TcCoe Idealize.SL.Sem
open Cert.KernelIdeal Cert.KernelIdeal.Gen Cert.NetSpec

set_option maxHeartbeats 4000000 in
theorem h3_w (W : Valuation τ sig (Elt Ideal)) :
    StableHlo.after (hostOps3) W (Proc.devRef .tc main_v74) = tblOf 0 linTbl0 (W (Proc.devRef .tc main_arg5)) := by
  after_results_simp
  rfl

set_option maxHeartbeats 4000000 in
theorem h3_b (W : Valuation τ sig (Elt Ideal)) :
    StableHlo.after (hostOps3) W (Proc.devRef .tc main_v77) = shapeCast SB1 (rowVecOf 0 linRow0 (W (Proc.devRef .tc main_arg6))) rowCastBack := by
  after_results_simp
  rfl

theorem h3_v72 (W : Valuation τ sig (Elt Ideal)) :
    StableHlo.after (hostOps3) W (Proc.devRef .tc main_v72) = W (Proc.devRef .tc main_v72) := by
  after_results_simp

theorem h3_arg5 (W : Valuation τ sig (Elt Ideal)) :
    StableHlo.after (hostOps3) W (Proc.devRef .tc main_arg5) = W (Proc.devRef .tc main_arg5) := by
  after_results_simp

theorem h3_arg6 (W : Valuation τ sig (Elt Ideal)) :
    StableHlo.after (hostOps3) W (Proc.devRef .tc main_arg6) = W (Proc.devRef .tc main_arg6) := by
  after_results_simp

theorem h3_arg7 (W : Valuation τ sig (Elt Ideal)) :
    StableHlo.after (hostOps3) W (Proc.devRef .tc main_arg7) = W (Proc.devRef .tc main_arg7) := by
  after_results_simp

theorem h3_arg8 (W : Valuation τ sig (Elt Ideal)) :
    StableHlo.after (hostOps3) W (Proc.devRef .tc main_arg8) = W (Proc.devRef .tc main_arg8) := by
  after_results_simp

set_option maxHeartbeats 4000000 in
theorem h4_w (W : Valuation τ sig (Elt Ideal)) :
    StableHlo.after (hostOps4) W (Proc.devRef .tc main_v80) = tblOf 1 linTbl1 (W (Proc.devRef .tc main_arg5)) := by
  after_results_simp
  rfl

set_option maxHeartbeats 4000000 in
theorem h4_b (W : Valuation τ sig (Elt Ideal)) :
    StableHlo.after (hostOps4) W (Proc.devRef .tc main_v83) = shapeCast SB1 (rowVecOf 1 linRow1 (W (Proc.devRef .tc main_arg6))) rowCastBack := by
  after_results_simp
  rfl

theorem h4_v78 (W : Valuation τ sig (Elt Ideal)) :
    StableHlo.after (hostOps4) W (Proc.devRef .tc main_v78) = W (Proc.devRef .tc main_v78) := by
  after_results_simp

theorem h4_arg7 (W : Valuation τ sig (Elt Ideal)) :
    StableHlo.after (hostOps4) W (Proc.devRef .tc main_arg7) = W (Proc.devRef .tc main_arg7) := by
  after_results_simp

theorem h4_arg8 (W : Valuation τ sig (Elt Ideal)) :
    StableHlo.after (hostOps4) W (Proc.devRef .tc main_arg8) = W (Proc.devRef .tc main_arg8) := by
  after_results_simp

set_option maxHeartbeats 4000000 in
theorem h5_w (W : Valuation τ sig (Elt Ideal)) :
    StableHlo.after (hostOps5 ++ (hostOps5_1 ++ (hostOps5_2 ++ (hostOps5_3 ++ hostOps5_4)))) W (Proc.devRef .tc main_v85) = padW (W (Proc.devRef .tc main_arg7)) := by
  simp only [List.cons_append, List.nil_append]
  after_results_simp
  rfl

set_option maxHeartbeats 4000000 in
theorem h5_b (W : Valuation τ sig (Elt Ideal)) :
    StableHlo.after (hostOps5 ++ (hostOps5_1 ++ (hostOps5_2 ++ (hostOps5_3 ++ hostOps5_4)))) W (Proc.devRef .tc main_v87) = shapeCast SB1 (padB (W (Proc.devRef .tc main_arg8))) rowCastBack := by
  simp only [List.cons_append, List.nil_append]
  after_results_simp
  rfl

theorem h5_v84 (W : Valuation τ sig (Elt Ideal)) :
    StableHlo.after (hostOps5 ++ (hostOps5_1 ++ (hostOps5_2 ++ (hostOps5_3 ++ hostOps5_4)))) W (Proc.devRef .tc main_v84) = W (Proc.devRef .tc main_v84) := by
  simp only [List.cons_append, List.nil_append]
  after_results_simp

set_option maxHeartbeats 4000000 in
theorem h6_out (W : Valuation τ sig (Elt Ideal)) :
    StableHlo.after (hostOps6) W (Proc.devRef .tc main_v89) = extractStridedSlice SY ![0, 0] (W (Proc.devRef .tc main_v88)) headSlice := by
  after_results_simp

end Cert.KernelIdeal.HostRest

end
-- ==== Proof.KernelValue.lean ====
/-
  What the idealized kernel computes: the network of the nine arguments.

  The buffer contents at the seventeen boundaries of @main are read from the launch memory forward. A stretch of host
  operations leaves each buffer it writes at the operations' function of what the stretch found and the others
  untouched; a region leaves its result array at its layer of the arrays it found and every other buffer untouched. So
  at each boundary the buffers the rest of the program reads hold: the layers' results so far as the network's
  partial results of the arguments, the edges' sources and destinations and the inverse in-degrees as their functions
  of the edge list, and the arguments themselves. A bias row the kernel lays out by a reshape is the row the network
  lays out by a broadcast. The last region computes the head on 128 columns, the last operation keeps 32.
-/
import proofs.«105906_j24541443129509_1_alg».proof.Proof.Gen.KernelIdeal.Frame
import proofs.«105906_j24541443129509_1_alg».proof.Proof.NetSpec
import proofs.«105906_j24541443129509_1_alg».proof.Proof.HeadLaw
import proofs.«105906_j24541443129509_1_alg».proof.Proof.Region0
import proofs.«105906_j24541443129509_1_alg».proof.Proof.Region1
import proofs.«105906_j24541443129509_1_alg».proof.Proof.Region2
import proofs.«105906_j24541443129509_1_alg».proof.Proof.Region3
import proofs.«105906_j24541443129509_1_alg».proof.Proof.Region4
import proofs.«105906_j24541443129509_1_alg».proof.Proof.Region5
import proofs.«105906_j24541443129509_1_alg».proof.Proof.KHost0
import proofs.«105906_j24541443129509_1_alg».proof.Proof.KHost1
import proofs.«105906_j24541443129509_1_alg».proof.Proof.KHost2
import proofs.«105906_j24541443129509_1_alg».proof.Proof.KHostRest

set_option maxRecDepth 16384

noncomputable section

namespace Cert.KernelIdeal.Net

open Idealize.ShloMosaic Idealize.ShloMosaic.TcCoe Idealize.SL.Sem
open Cert.KernelIdeal Cert.KernelIdeal.Gen Cert.NetSpec Cert.EluLayers Cert.BlockRows Cert.RowLayers Cert.DenseBlock

variable (m : (ℓ : Loc nD τ sig) → Buf (Elt Ideal) ℓ) (ρ : Dev nD → PrngReg) (c : Dev nD)

/-! ## The arguments and the network's partial results -/

abbrev a0 : FVec Ideal SX .f32 := m ((c : Thread nD τ).loc main_arg0)
abbrev a1 : IVec SE 32 := m ((c : Thread nD τ).loc main_arg1)
abbrev a2 : FVec Ideal SW3 .f32 := m ((c : Thread nD τ).loc main_arg2)
abbrev a3 : FVec Ideal SB3 .f32 := m ((c : Thread nD τ).loc main_arg3)
abbrev a4 : FVec Ideal SW3 .f32 := m ((c : Thread nD τ).loc main_arg4)
abbrev a5 : FVec Ideal SW2 .f32 := m ((c : Thread nD τ).loc main_arg5)
abbrev a6 : FVec Ideal SB2 .f32 := m ((c : Thread nD τ).loc main_arg6)
abbrev a7 : FVec Ideal SWo .f32 := m ((c : Thread nD τ).loc main_arg7)
abbrev a8 : FVec Ideal SBo .f32 := m ((c : Thread nD τ).loc main_arg8)

def n1 : FVec Ideal SX .f32 := x1 (a0 m c) (a1 m c) (a2 m c) (a3 m c) (a4 m c)
def n2 : FVec Ideal SX .f32 := x2 (a0 m c) (a1 m c) (a2 m c) (a3 m c) (a4 m c)
def n3 : FVec Ideal SX .f32 := x3 (a0 m c) (a1 m c) (a2 m c) (a3 m c) (a4 m c)
def n4 : FVec Ideal SX .f32 := x4 (a0 m c) (a1 m c) (a2 m c) (a3 m c) (a4 m c) (a5 m c) (a6 m c)
def n5 : FVec Ideal SX .f32 := x5 (a0 m c) (a1 m c) (a2 m c) (a3 m c) (a4 m c) (a5 m c) (a6 m c)

/-! ## Before region 0 -/

theorem w1_v24 : W1 m ρ c (Proc.devRef .tc main_v24) = aggregate (a1 m c) (a0 m c) :=
  Host0.v24 (W0 m ρ c)
theorem w1_v26 : W1 m ρ c (Proc.devRef .tc main_v26) = tblOf 0 convTbl0 (a2 m c) :=
  Host0.v26 (W0 m ρ c)
theorem w1_v30 : W1 m ρ c (Proc.devRef .tc main_v30) = tblOf 0 convTbl0 (a4 m c) :=
  Host0.v30 (W0 m ρ c)
theorem w1_v31 : W1 m ρ c (Proc.devRef .tc main_v31) = rowMat (rowVecOf 0 convRow0 (a3 m c)) :=
  (Host0.v31 (W0 m ρ c)).trans (rowMat_eq_cast _)
theorem w1_v1 : W1 m ρ c (Proc.devRef .tc main_v1) = src (a1 m c) :=
  Host0.v1 (W0 m ρ c)
theorem w1_v3 : W1 m ρ c (Proc.devRef .tc main_v3) = dst (a1 m c) :=
  Host0.v3 (W0 m ρ c)
theorem w1_v12 : W1 m ρ c (Proc.devRef .tc main_v12) = broadcastInDim SNc ![0] degCol (invDeg (dst (a1 m c))) :=
  Host0.v12 (W0 m ρ c)
theorem w1_arg0 : W1 m ρ c (Proc.devRef .tc main_arg0) = a0 m c :=
  Host0.c_arg0 (W0 m ρ c)
theorem w1_arg2 : W1 m ρ c (Proc.devRef .tc main_arg2) = a2 m c :=
  Host0.c_arg2 (W0 m ρ c)
theorem w1_arg3 : W1 m ρ c (Proc.devRef .tc main_arg3) = a3 m c :=
  Host0.c_arg3 (W0 m ρ c)
theorem w1_arg4 : W1 m ρ c (Proc.devRef .tc main_arg4) = a4 m c :=
  Host0.c_arg4 (W0 m ρ c)
theorem w1_arg5 : W1 m ρ c (Proc.devRef .tc main_arg5) = a5 m c :=
  Host0.c_arg5 (W0 m ρ c)
theorem w1_arg6 : W1 m ρ c (Proc.devRef .tc main_arg6) = a6 m c :=
  Host0.c_arg6 (W0 m ρ c)
theorem w1_arg7 : W1 m ρ c (Proc.devRef .tc main_arg7) = a7 m c :=
  Host0.c_arg7 (W0 m ρ c)
theorem w1_arg8 : W1 m ρ c (Proc.devRef .tc main_arg8) = a8 m c :=
  Host0.c_arg8 (W0 m ρ c)

/-! ## After region 0 -/

theorem w2_v32 : W2 m ρ c (Proc.devRef .tc main_v32) = n1 m c := by
  refine (W2_arr m ρ c 5).trans ((Region0.final (V1 m ρ) c).trans ?_)
  unfold Region0.layerOf
  show sage bias128 (W1 m ρ c (Proc.devRef .tc main_v24)) (W1 m ρ c (Proc.devRef .tc main_arg0)) (W1 m ρ c (Proc.devRef .tc main_v26)) (W1 m ρ c (Proc.devRef .tc main_v31)) (W1 m ρ c (Proc.devRef .tc main_v30)) = _
  rw [w1_v24, w1_arg0, w1_v26, w1_v31, w1_v30]
  rfl
theorem w2_v1 : W2 m ρ c (Proc.devRef .tc main_v1) = src (a1 m c) :=
  (W2_of_ne m ρ c main_v1 (by decide)).trans (w1_v1 m ρ c)
theorem w2_v3 : W2 m ρ c (Proc.devRef .tc main_v3) = dst (a1 m c) :=
  (W2_of_ne m ρ c main_v3 (by decide)).trans (w1_v3 m ρ c)
theorem w2_v12 : W2 m ρ c (Proc.devRef .tc main_v12) = broadcastInDim SNc ![0] degCol (invDeg (dst (a1 m c))) :=
  (W2_of_ne m ρ c main_v12 (by decide)).trans (w1_v12 m ρ c)
theorem w2_arg2 : W2 m ρ c (Proc.devRef .tc main_arg2) = a2 m c :=
  (W2_of_ne m ρ c main_arg2 (by decide)).trans (w1_arg2 m ρ c)
theorem w2_arg3 : W2 m ρ c (Proc.devRef .tc main_arg3) = a3 m c :=
  (W2_of_ne m ρ c main_arg3 (by decide)).trans (w1_arg3 m ρ c)
theorem w2_arg4 : W2 m ρ c (Proc.devRef .tc main_arg4) = a4 m c :=
  (W2_of_ne m ρ c main_arg4 (by decide)).trans (w1_arg4 m ρ c)
theorem w2_arg5 : W2 m ρ c (Proc.devRef .tc main_arg5) = a5 m c :=
  (W2_of_ne m ρ c main_arg5 (by decide)).trans (w1_arg5 m ρ c)
theorem w2_arg6 : W2 m ρ c (Proc.devRef .tc main_arg6) = a6 m c :=
  (W2_of_ne m ρ c main_arg6 (by decide)).trans (w1_arg6 m ρ c)
theorem w2_arg7 : W2 m ρ c (Proc.devRef .tc main_arg7) = a7 m c :=
  (W2_of_ne m ρ c main_arg7 (by decide)).trans (w1_arg7 m ρ c)
theorem w2_arg8 : W2 m ρ c (Proc.devRef .tc main_arg8) = a8 m c :=
  (W2_of_ne m ρ c main_arg8 (by decide)).trans (w1_arg8 m ρ c)

/-! ## Before region 1 -/

theorem w3_v44 : W3 m ρ c (Proc.devRef .tc main_v44) = aggregate (a1 m c) (n1 m c) := by
  refine (Host1.agg (W2 m ρ c)).trans ?_
  rw [w2_v1, w2_v3, w2_v12, w2_v32]
  rfl
theorem w3_v46 : W3 m ρ c (Proc.devRef .tc main_v46) = tblOf 1 convTbl1 (a2 m c) :=
  (Host1.wl (W2 m ρ c)).trans (by rw [w2_arg2])
theorem w3_v50 : W3 m ρ c (Proc.devRef .tc main_v50) = tblOf 1 convTbl1 (a4 m c) :=
  (Host1.wr (W2 m ρ c)).trans (by rw [w2_arg4])
theorem w3_v51 : W3 m ρ c (Proc.devRef .tc main_v51) = rowMat (rowVecOf 1 convRow1 (a3 m c)) :=
  (Host1.b (W2 m ρ c)).trans (by rw [w2_arg3]; exact rowMat_eq_cast _)
theorem w3_v32 : W3 m ρ c (Proc.devRef .tc main_v32) = n1 m c :=
  (Host1.c_v32 (W2 m ρ c)).trans (w2_v32 m ρ c)
theorem w3_v1 : W3 m ρ c (Proc.devRef .tc main_v1) = src (a1 m c) :=
  (Host1.c_v1 (W2 m ρ c)).trans (w2_v1 m ρ c)
theorem w3_v3 : W3 m ρ c (Proc.devRef .tc main_v3) = dst (a1 m c) :=
  (Host1.c_v3 (W2 m ρ c)).trans (w2_v3 m ρ c)
theorem w3_v12 : W3 m ρ c (Proc.devRef .tc main_v12) = broadcastInDim SNc ![0] degCol (invDeg (dst (a1 m c))) :=
  (Host1.c_v12 (W2 m ρ c)).trans (w2_v12 m ρ c)
theorem w3_arg2 : W3 m ρ c (Proc.devRef .tc main_arg2) = a2 m c :=
  (Host1.c_arg2 (W2 m ρ c)).trans (w2_arg2 m ρ c)
theorem w3_arg3 : W3 m ρ c (Proc.devRef .tc main_arg3) = a3 m c :=
  (Host1.c_arg3 (W2 m ρ c)).trans (w2_arg3 m ρ c)
theorem w3_arg4 : W3 m ρ c (Proc.devRef .tc main_arg4) = a4 m c :=
  (Host1.c_arg4 (W2 m ρ c)).trans (w2_arg4 m ρ c)
theorem w3_arg5 : W3 m ρ c (Proc.devRef .tc main_arg5) = a5 m c :=
  (Host1.c_arg5 (W2 m ρ c)).trans (w2_arg5 m ρ c)
theorem w3_arg6 : W3 m ρ c (Proc.devRef .tc main_arg6) = a6 m c :=
  (Host1.c_arg6 (W2 m ρ c)).trans (w2_arg6 m ρ c)
theorem w3_arg7 : W3 m ρ c (Proc.devRef .tc main_arg7) = a7 m c :=
  (Host1.c_arg7 (W2 m ρ c)).trans (w2_arg7 m ρ c)
theorem w3_arg8 : W3 m ρ c (Proc.devRef .tc main_arg8) = a8 m c :=
  (Host1.c_arg8 (W2 m ρ c)).trans (w2_arg8 m ρ c)

/-! ## After region 1 -/

theorem w4_v52 : W4 m ρ c (Proc.devRef .tc main_v52) = n2 m c := by
  refine (W4_arr m ρ c 5).trans ((Region1.final (V3 m ρ) c).trans ?_)
  unfold Region1.layerOf
  show sage bias128 (W3 m ρ c (Proc.devRef .tc main_v44)) (W3 m ρ c (Proc.devRef .tc main_v32)) (W3 m ρ c (Proc.devRef .tc main_v46)) (W3 m ρ c (Proc.devRef .tc main_v51)) (W3 m ρ c (Proc.devRef .tc main_v50)) = _
  rw [w3_v44, w3_v32, w3_v46, w3_v51, w3_v50]
  rfl
theorem w4_v1 : W4 m ρ c (Proc.devRef .tc main_v1) = src (a1 m c) :=
  (W4_of_ne m ρ c main_v1 (by decide)).trans (w3_v1 m ρ c)
theorem w4_v3 : W4 m ρ c (Proc.devRef .tc main_v3) = dst (a1 m c) :=
  (W4_of_ne m ρ c main_v3 (by decide)).trans (w3_v3 m ρ c)
theorem w4_v12 : W4 m ρ c (Proc.devRef .tc main_v12) = broadcastInDim SNc ![0] degCol (invDeg (dst (a1 m c))) :=
  (W4_of_ne m ρ c main_v12 (by decide)).trans (w3_v12 m ρ c)
theorem w4_arg2 : W4 m ρ c (Proc.devRef .tc main_arg2) = a2 m c :=
  (W4_of_ne m ρ c main_arg2 (by decide)).trans (w3_arg2 m ρ c)
theorem w4_arg3 : W4 m ρ c (Proc.devRef .tc main_arg3) = a3 m c :=
  (W4_of_ne m ρ c main_arg3 (by decide)).trans (w3_arg3 m ρ c)
theorem w4_arg4 : W4 m ρ c (Proc.devRef .tc main_arg4) = a4 m c :=
  (W4_of_ne m ρ c main_arg4 (by decide)).trans (w3_arg4 m ρ c)
theorem w4_arg5 : W4 m ρ c (Proc.devRef .tc main_arg5) = a5 m c :=
  (W4_of_ne m ρ c main_arg5 (by decide)).trans (w3_arg5 m ρ c)
theorem w4_arg6 : W4 m ρ c (Proc.devRef .tc main_arg6) = a6 m c :=
  (W4_of_ne m ρ c main_arg6 (by decide)).trans (w3_arg6 m ρ c)
theorem w4_arg7 : W4 m ρ c (Proc.devRef .tc main_arg7) = a7 m c :=
  (W4_of_ne m ρ c main_arg7 (by decide)).trans (w3_arg7 m ρ c)
theorem w4_arg8 : W4 m ρ c (Proc.devRef .tc main_arg8) = a8 m c :=
  (W4_of_ne m ρ c main_arg8 (by decide)).trans (w3_arg8 m ρ c)

/-! ## Before region 2 -/

theorem w5_v64 : W5 m ρ c (Proc.devRef .tc main_v64) = aggregate (a1 m c) (n2 m c) := by
  refine (Host2.agg (W4 m ρ c)).trans ?_
  rw [w4_v1, w4_v3, w4_v12, w4_v52]
  rfl
theorem w5_v66 : W5 m ρ c (Proc.devRef .tc main_v66) = tblOf 2 convTbl2 (a2 m c) :=
  (Host2.wl (W4 m ρ c)).trans (by rw [w4_arg2])
theorem w5_v70 : W5 m ρ c (Proc.devRef .tc main_v70) = tblOf 2 convTbl2 (a4 m c) :=
  (Host2.wr (W4 m ρ c)).trans (by rw [w4_arg4])
theorem w5_v71 : W5 m ρ c (Proc.devRef .tc main_v71) = rowMat (rowVecOf 2 convRow2 (a3 m c)) :=
  (Host2.b (W4 m ρ c)).trans (by rw [w4_arg3]; exact rowMat_eq_cast _)
theorem w5_v52 : W5 m ρ c (Proc.devRef .tc main_v52) = n2 m c :=
  (Host2.c_v52 (W4 m ρ c)).trans (w4_v52 m ρ c)
theorem w5_arg5 : W5 m ρ c (Proc.devRef .tc main_arg5) = a5 m c :=
  (Host2.c_arg5 (W4 m ρ c)).trans (w4_arg5 m ρ c)
theorem w5_arg6 : W5 m ρ c (Proc.devRef .tc main_arg6) = a6 m c :=
  (Host2.c_arg6 (W4 m ρ c)).trans (w4_arg6 m ρ c)
theorem w5_arg7 : W5 m ρ c (Proc.devRef .tc main_arg7) = a7 m c :=
  (Host2.c_arg7 (W4 m ρ c)).trans (w4_arg7 m ρ c)
theorem w5_arg8 : W5 m ρ c (Proc.devRef .tc main_arg8) = a8 m c :=
  (Host2.c_arg8 (W4 m ρ c)).trans (w4_arg8 m ρ c)

/-! ## After region 2 -/

theorem w6_v72 : W6 m ρ c (Proc.devRef .tc main_v72) = n3 m c := by
  refine (W6_arr m ρ c 5).trans ((Region2.final (V5 m ρ) c).trans ?_)
  unfold Region2.layerOf
  show sage bias128 (W5 m ρ c (Proc.devRef .tc main_v64)) (W5 m ρ c (Proc.devRef .tc main_v52)) (W5 m ρ c (Proc.devRef .tc main_v66)) (W5 m ρ c (Proc.devRef .tc main_v71)) (W5 m ρ c (Proc.devRef .tc main_v70)) = _
  rw [w5_v64, w5_v52, w5_v66, w5_v71, w5_v70]
  rfl
theorem w6_arg5 : W6 m ρ c (Proc.devRef .tc main_arg5) = a5 m c :=
  (W6_of_ne m ρ c main_arg5 (by decide)).trans (w5_arg5 m ρ c)
theorem w6_arg6 : W6 m ρ c (Proc.devRef .tc main_arg6) = a6 m c :=
  (W6_of_ne m ρ c main_arg6 (by decide)).trans (w5_arg6 m ρ c)
theorem w6_arg7 : W6 m ρ c (Proc.devRef .tc main_arg7) = a7 m c :=
  (W6_of_ne m ρ c main_arg7 (by decide)).trans (w5_arg7 m ρ c)
theorem w6_arg8 : W6 m ρ c (Proc.devRef .tc main_arg8) = a8 m c :=
  (W6_of_ne m ρ c main_arg8 (by decide)).trans (w5_arg8 m ρ c)

/-! ## Before region 3 -/

theorem w7_v74 : W7 m ρ c (Proc.devRef .tc main_v74) = tblOf 0 linTbl0 (a5 m c) :=
  (HostRest.h3_w (W6 m ρ c)).trans (by rw [w6_arg5])
theorem w7_v77 : W7 m ρ c (Proc.devRef .tc main_v77) = rowMat (rowVecOf 0 linRow0 (a6 m c)) :=
  (HostRest.h3_b (W6 m ρ c)).trans (by rw [w6_arg6]; exact rowMat_eq_cast _)
theorem w7_v72 : W7 m ρ c (Proc.devRef .tc main_v72) = n3 m c :=
  (HostRest.h3_v72 (W6 m ρ c)).trans (w6_v72 m ρ c)
theorem w7_arg5 : W7 m ρ c (Proc.devRef .tc main_arg5) = a5 m c :=
  (HostRest.h3_arg5 (W6 m ρ c)).trans (w6_arg5 m ρ c)
theorem w7_arg6 : W7 m ρ c (Proc.devRef .tc main_arg6) = a6 m c :=
  (HostRest.h3_arg6 (W6 m ρ c)).trans (w6_arg6 m ρ c)
theorem w7_arg7 : W7 m ρ c (Proc.devRef .tc main_arg7) = a7 m c :=
  (HostRest.h3_arg7 (W6 m ρ c)).trans (w6_arg7 m ρ c)
theorem w7_arg8 : W7 m ρ c (Proc.devRef .tc main_arg8) = a8 m c :=
  (HostRest.h3_arg8 (W6 m ρ c)).trans (w6_arg8 m ρ c)

/-! ## After region 3 -/

theorem w8_v78 : W8 m ρ c (Proc.devRef .tc main_v78) = n4 m c := by
  refine (W8_arr m ρ c 3).trans ((Region3.final (V7 m ρ) c).trans ?_)
  unfold Region3.layerOf
  show lin bias128 (W7 m ρ c (Proc.devRef .tc main_v72)) (W7 m ρ c (Proc.devRef .tc main_v74)) (W7 m ρ c (Proc.devRef .tc main_v77)) = _
  rw [w7_v72, w7_v74, w7_v77]
  rfl
theorem w8_arg5 : W8 m ρ c (Proc.devRef .tc main_arg5) = a5 m c :=
  (W8_of_ne m ρ c main_arg5 (by decide)).trans (w7_arg5 m ρ c)
theorem w8_arg6 : W8 m ρ c (Proc.devRef .tc main_arg6) = a6 m c :=
  (W8_of_ne m ρ c main_arg6 (by decide)).trans (w7_arg6 m ρ c)
theorem w8_arg7 : W8 m ρ c (Proc.devRef .tc main_arg7) = a7 m c :=
  (W8_of_ne m ρ c main_arg7 (by decide)).trans (w7_arg7 m ρ c)
theorem w8_arg8 : W8 m ρ c (Proc.devRef .tc main_arg8) = a8 m c :=
  (W8_of_ne m ρ c main_arg8 (by decide)).trans (w7_arg8 m ρ c)

/-! ## Before region 4 -/

theorem w9_v80 : W9 m ρ c (Proc.devRef .tc main_v80) = tblOf 1 linTbl1 (a5 m c) :=
  (HostRest.h4_w (W8 m ρ c)).trans (by rw [w8_arg5])
theorem w9_v83 : W9 m ρ c (Proc.devRef .tc main_v83) = rowMat (rowVecOf 1 linRow1 (a6 m c)) :=
  (HostRest.h4_b (W8 m ρ c)).trans (by rw [w8_arg6]; exact rowMat_eq_cast _)
theorem w9_v78 : W9 m ρ c (Proc.devRef .tc main_v78) = n4 m c :=
  (HostRest.h4_v78 (W8 m ρ c)).trans (w8_v78 m ρ c)
theorem w9_arg7 : W9 m ρ c (Proc.devRef .tc main_arg7) = a7 m c :=
  (HostRest.h4_arg7 (W8 m ρ c)).trans (w8_arg7 m ρ c)
theorem w9_arg8 : W9 m ρ c (Proc.devRef .tc main_arg8) = a8 m c :=
  (HostRest.h4_arg8 (W8 m ρ c)).trans (w8_arg8 m ρ c)

/-! ## After region 4 -/

theorem w10_v84 : W10 m ρ c (Proc.devRef .tc main_v84) = n5 m c := by
  refine (W10_arr m ρ c 3).trans ((Region4.final (V9 m ρ) c).trans ?_)
  unfold Region4.layerOf
  show lin bias128 (W9 m ρ c (Proc.devRef .tc main_v78)) (W9 m ρ c (Proc.devRef .tc main_v80)) (W9 m ρ c (Proc.devRef .tc main_v83)) = _
  rw [w9_v78, w9_v80, w9_v83]
  rfl
theorem w10_arg7 : W10 m ρ c (Proc.devRef .tc main_arg7) = a7 m c :=
  (W10_of_ne m ρ c main_arg7 (by decide)).trans (w9_arg7 m ρ c)
theorem w10_arg8 : W10 m ρ c (Proc.devRef .tc main_arg8) = a8 m c :=
  (W10_of_ne m ρ c main_arg8 (by decide)).trans (w9_arg8 m ρ c)

/-! ## Before region 5 -/

/-- The five short stretches before region 5 as one line of operations. -/
theorem w15_eq : W15 m ρ c = StableHlo.after (hostOps5 ++ (hostOps5_1 ++ (hostOps5_2 ++ (hostOps5_3 ++ hostOps5_4)))) (W10 m ρ c) := by
  rw [StableHlo.after_append, StableHlo.after_append, StableHlo.after_append, StableHlo.after_append]

theorem w15_v85 : W15 m ρ c (Proc.devRef .tc main_v85) = padW (a7 m c) := by
  rw [w15_eq]; exact (HostRest.h5_w (W10 m ρ c)).trans (by rw [w10_arg7])
theorem w15_v87 : W15 m ρ c (Proc.devRef .tc main_v87) = shapeCast SB1 (padB (a8 m c)) rowCastBack := by
  rw [w15_eq]; exact (HostRest.h5_b (W10 m ρ c)).trans (by rw [w10_arg8])
theorem w15_v84 : W15 m ρ c (Proc.devRef .tc main_v84) = n5 m c := by
  rw [w15_eq]; exact (HostRest.h5_v84 (W10 m ρ c)).trans (w10_v84 m ρ c)

/-! ## After region 5, and the result -/

theorem w16_v88 : W16 m ρ c (Proc.devRef .tc main_v88) = affine bias128 (n5 m c) (padW (a7 m c)) (shapeCast SB1 (padB (a8 m c)) rowCastBack) := by
  refine (W16_arr m ρ c 3).trans ((Region5.final (V15 m ρ) c).trans ?_)
  unfold Region5.layerOf
  show affine bias128 (W15 m ρ c (Proc.devRef .tc main_v84)) (W15 m ρ c (Proc.devRef .tc main_v85)) (W15 m ρ c (Proc.devRef .tc main_v87)) = _
  rw [w15_v84, w15_v85, w15_v87]

/-- The result buffer at the last boundary holds the network of the arguments. -/
theorem value : W17 m ρ c (Proc.devRef .tc main_v89)
    = net (a0 m c) (a1 m c) (a2 m c) (a3 m c) (a4 m c) (a5 m c) (a6 m c) (a7 m c) (a8 m c) := by
  refine (HostRest.h6_out (W16 m ρ c)).trans ?_
  rw [w16_v88]
  exact (head_of_padded (a7 m c) (a8 m c) (n5 m c)).trans rfl

end Cert.KernelIdeal.Net

end
-- ==== Proof.RefRun.lean ====
/-
  The idealized reference's run read back.

  @main is a straight line of host operations; the exponential linear unit is an outlined function that @main calls
  five times, and each call runs the function's own operations — a comparison with zero, a guarded
  exponential-minus-one, a product with one, a select — on that call's buffers. Listed in order (in eight stretches
  cut where a layer ends or where the printed program cuts its text) they are the whole program, so every execution
  ends with each buffer at the fold of the operations' results over the launch contents.
-/
import proofs.«105906_j24541443129509_1_alg».proof.Proof.Gen.ReferenceIdeal
import Idealize.ShloMosaic.Lib.StableHlo.Run
import Idealize.ShloMosaic.Lib.Pipeline.Frame

set_option maxRecDepth 16384

noncomputable section

namespace Cert.ReferenceIdeal.Hand

open Idealize.ShloMosaic Idealize.ShloMosaic.TcCoe Idealize.SL.Sem
open Cert.ReferenceIdeal Cert.ReferenceIdeal.Gen

variable {F : FTy → Type} [FloatOps F]

/-! ## The operations, stretch by stretch -/

abbrev opsA : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_cst (constant S_ .f32 0x3F800000#32),
    StableHlo.unary main_cst main_v4 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v5 (broadcastInDim S50000 ![] bcast_S_S50000 : (⟨S_, .f32⟩ : BufTy).Contents (Elt F) → (⟨S50000, .f32⟩ : BufTy).Contents (Elt F)),
    StableHlo.unary main_v3 main_v6 (broadcastInDim S800000x1 ![0] bcast_S800000_S800000x1_0 : (⟨S800000, .i32⟩ : BufTy).Contents (Elt F) → (⟨S800000x1, .i32⟩ : BufTy).Contents (Elt F)),
    StableHlo.ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x3F800000#32),
    StableHlo.unary main_cst_1 main_v8 (broadcastInDim S50000 ![] bcast_S_S50000 : (⟨S_, .f32⟩ : BufTy).Contents (Elt F) → (⟨S50000, .f32⟩ : BufTy).Contents (Elt F)),
    StableHlo.binary main_v7 main_v8 main_v9 (maximumf : (⟨S50000, .f32⟩ : BufTy).Contents (Elt F) → (⟨S50000, .f32⟩ : BufTy).Contents (Elt F) → (⟨S50000, .f32⟩ : BufTy).Contents (Elt F)),
    StableHlo.nullary main_cst_2 (constant S_ .f32 0x3F800000#32),
    StableHlo.unary main_cst_2 main_v10 (broadcastInDim S50000 ![] bcast_S_S50000 : (⟨S_, .f32⟩ : BufTy).Contents (Elt F) → (⟨S50000, .f32⟩ : BufTy).Contents (Elt F)),
    StableHlo.binary main_v10 main_v9 main_v11 (Host.divf : (⟨S50000, .f32⟩ : BufTy).Contents (Elt F) → (⟨S50000, .f32⟩ : BufTy).Contents (Elt F) → (⟨S50000, .f32⟩ : BufTy).Contents (Elt F)),
    StableHlo.nullary main_c (constantI S_ 32 0#32),
    StableHlo.unary main_c main_v12 (broadcastInDim S800000 ![] bcast_S_S800000 : (⟨S_, .i32⟩ : BufTy).Contents (Elt F) → (⟨S800000, .i32⟩ : BufTy).Contents (Elt F)),
    StableHlo.binary main_v1 main_v12 main_v13 (cmpi .slt : (⟨S800000, .i32⟩ : BufTy).Contents (Elt F) → (⟨S800000, .i32⟩ : BufTy).Contents (Elt F) → (⟨S800000, .i1⟩ : BufTy).Contents (Elt F)),
    StableHlo.nullary main_c_3 (constantI S_ 32 50000#32),
    StableHlo.unary main_c_3 main_v14 (broadcastInDim S800000 ![] bcast_S_S800000 : (⟨S_, .i32⟩ : BufTy).Contents (Elt F) → (⟨S800000, .i32⟩ : BufTy).Contents (Elt F)),
    StableHlo.binary main_v1 main_v14 main_v15 (addi : (⟨S800000, .i32⟩ : BufTy).Contents (Elt F) → (⟨S800000, .i32⟩ : BufTy).Contents (Elt F) → (⟨S800000, .i32⟩ : BufTy).Contents (Elt F)),
    StableHlo.ternary main_v13 main_v15 main_v1 main_v16 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v16 main_v17 (broadcastInDim S800000x1 ![0] bcast_S800000_S800000x1_0 : (⟨S800000, .i32⟩ : BufTy).Contents (Elt F) → (⟨S800000x1, .i32⟩ : BufTy).Contents (Elt F)),
    StableHlo.binary main_arg0 main_v17 main_v18 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_4 (constant S_ .f32 0x00000000#32),
    StableHlo.unary main_cst_4 main_v19 (broadcastInDim S50000x128 ![] bcast_S_S50000x128 : (⟨S_, .f32⟩ : BufTy).Contents (Elt F) → (⟨S50000x128, .f32⟩ : BufTy).Contents (Elt F)),
    StableHlo.unary main_v3 main_v20 (broadcastInDim S800000x1 ![0] bcast_S800000_S800000x1_0 : (⟨S800000, .i32⟩ : BufTy).Contents (Elt F) → (⟨S800000x1, .i32⟩ : BufTy).Contents (Elt F)),
    StableHlo.ternary main_v19 main_v20 main_v18 main_v21 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v11 main_v22 (broadcastInDim S50000x1 ![0] bcast_S50000_S50000x1_0 : (⟨S50000, .f32⟩ : BufTy).Contents (Elt F) → (⟨S50000x1, .f32⟩ : BufTy).Contents (Elt F)),
    StableHlo.unary main_v22 main_v23 (broadcastInDim S50000x128 ![0, 1] bcast_S50000x1_S50000x128_0_1 : (⟨S50000x1, .f32⟩ : BufTy).Contents (Elt F) → (⟨S50000x128, .f32⟩ : BufTy).Contents (Elt F)),
    StableHlo.binary main_v21 main_v23 main_v24 (mulf : (⟨S50000x128, .f32⟩ : BufTy).Contents (Elt F) → (⟨S50000x128, .f32⟩ : BufTy).Contents (Elt F) → (⟨S50000x128, .f32⟩ : BufTy).Contents (Elt F)),
    StableHlo.unary main_arg2 main_v25 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v25 main_v26 rfl shapeCasts_S1x128x128_S128x128,
    StableHlo.binary main_v24 main_v26 main_v27 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v28 ((extractStridedSlice S1x128 ![0, 0] · slices_S3x128_S1x128_0_0) : (⟨S3x128, .f32⟩ : BufTy).Contents (Elt F) → (⟨S1x128, .f32⟩ : BufTy).Contents (Elt F)),
    StableHlo.reshape main_v28 main_v29 rfl shapeCasts_S1x128_S128,
    StableHlo.unary main_v29 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S50000x128 ![0, 1] bcast_S1x128_S50000x128_0_1 : (⟨S1x128, .f32⟩ : BufTy).Contents (Elt F) → (⟨S50000x128, .f32⟩ : BufTy).Contents (Elt F)),
    StableHlo.binary main_v27 main_v31 main_v32 (addf : (⟨S50000x128, .f32⟩ : BufTy).Contents (Elt F) → (⟨S50000x128, .f32⟩ : BufTy).Contents (Elt F) → (⟨S50000x128, .f32⟩ : BufTy).Contents (Elt F)),
    StableHlo.unary main_arg4 main_v33 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v33 main_v34 rfl shapeCasts_S1x128x128_S128x128,
    StableHlo.binary main_arg0 main_v34 main_v35 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v32 main_v35 main_v36 (addf : (⟨S50000x128, .f32⟩ : BufTy).Contents (Elt F) → (⟨S50000x128, .f32⟩ : BufTy).Contents (Elt F) → (⟨S50000x128, .f32⟩ : BufTy).Contents (Elt F)),
    StableHlo.TRef.nullary main_call0.cst (constant S_ .f32 0x00000000#32),
    StableHlo.TRef.unary main_call0.cst main_call0.v0 (broadcastInDim S50000x128 ![] bcast_S_S50000x128),
    StableHlo.TRef.binary (.of main_v36) main_call0.v0 main_call0.v1 (cmpf .ogt),
    StableHlo.TRef.nullary main_call0.cst_0 (constant S_ .f32 0x00000000#32),
    StableHlo.TRef.unary main_call0.cst_0 main_call0.v2 (broadcastInDim S50000x128 ![] bcast_S_S50000x128),
    StableHlo.TRef.binary (.of main_v36) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S50000x128 ![] bcast_S_S50000x128),
    StableHlo.TRef.ternary main_call0.v3 main_call0.call0.v1 (.of main_v36) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S50000x128 ![] bcast_S_S50000x128),
    StableHlo.TRef.binary main_call0.v6 main_call0.v5 main_call0.v7 mulf,
    StableHlo.TRef.ternary main_call0.v1 (.of main_v36) main_call0.v7 main_call0.call1.v0 select ]
theorem opsA_sub : (opsA : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.ternary_bufs_sub ..⟩
theorem opsA_fresh : ∀ op ∈ (opsA : List (HloOp τ sig (Elt F))), op.fresh = ∅ := by
  intro _ h; (repeat (cases h with | head => rfl | tail _ h => ?_)); exact nomatch h

abbrev opsB1 : List (HloOp τ sig (Elt F)) :=
  [ StableHlo.nullary main_c_5 (constantI S_ 32 0#32),
    StableHlo.unary main_c_5 main_v38 (broadcastInDim S800000 ![] bcast_S_S800000 : (⟨S_, .i32⟩ : BufTy).Contents (Elt F) → (⟨S800000, .i32⟩ : BufTy).Contents (Elt F)),
    StableHlo.binary main_v1 main_v38 main_v39 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v40 (broadcastInDim S800000 ![] bcast_S_S800000 : (⟨S_, .i32⟩ : BufTy).Contents (Elt F) → (⟨S800000, .i32⟩ : BufTy).Contents (Elt F)),
    StableHlo.binary main_v1 main_v40 main_v41 (addi : (⟨S800000, .i32⟩ : BufTy).Contents (Elt F) → (⟨S800000, .i32⟩ : BufTy).Contents (Elt F) → (⟨S800000, .i32⟩ : BufTy).Contents (Elt F)),
    StableHlo.ternary main_v39 main_v41 main_v1 main_v42 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v42 main_v43 (broadcastInDim S800000x1 ![0] bcast_S800000_S800000x1_0 : (⟨S800000, .i32⟩ : BufTy).Contents (Elt F) → (⟨S800000x1, .i32⟩ : BufTy).Contents (Elt F)),
    StableHlo.binary main_v37 main_v43 main_v44 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_7 (constant S_ .f32 0x00000000#32),
    StableHlo.unary main_cst_7 main_v45 (broadcastInDim S50000x128 ![] bcast_S_S50000x128 : (⟨S_, .f32⟩ : BufTy).Contents (Elt F) → (⟨S50000x128, .f32⟩ : BufTy).Contents (Elt F)),
    StableHlo.unary main_v3 main_v46 (broadcastInDim S800000x1 ![0] bcast_S800000_S800000x1_0 : (⟨S800000, .i32⟩ : BufTy).Contents (Elt F) → (⟨S800000x1, .i32⟩ : BufTy).Contents (Elt F)),
    StableHlo.ternary main_v45 main_v46 main_v44 main_v47 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v11 main_v48 (broadcastInDim S50000x1 ![0] bcast_S50000_S50000x1_0 : (⟨S50000, .f32⟩ : BufTy).Contents (Elt F) → (⟨S50000x1, .f32⟩ : BufTy).Contents (Elt F)),
    StableHlo.unary main_v48 main_v49 (broadcastInDim S50000x128 ![0, 1] bcast_S50000x1_S50000x128_0_1 : (⟨S50000x1, .f32⟩ : BufTy).Contents (Elt F) → (⟨S50000x128, .f32⟩ : BufTy).Contents (Elt F)) ]
theorem opsB1_sub : (opsB1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub ..⟩
theorem opsB1_fresh : ∀ op ∈ (opsB1 : List (HloOp τ sig (Elt F))), op.fresh = ∅ := by
  intro _ h; (repeat (cases h with | head => rfl | tail _ h => ?_)); exact nomatch h

abbrev opsB2 : List (HloOp τ sig (Elt F)) :=
  [ StableHlo.binary main_v47 main_v49 main_v50 (mulf : (⟨S50000x128, .f32⟩ : BufTy).Contents (Elt F) → (⟨S50000x128, .f32⟩ : BufTy).Contents (Elt F) → (⟨S50000x128, .f32⟩ : BufTy).Contents (Elt F)),
    StableHlo.unary main_arg2 main_v51 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v51 main_v52 rfl shapeCasts_S1x128x128_S128x128,
    StableHlo.binary main_v50 main_v52 main_v53 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v54 ((extractStridedSlice S1x128 ![1, 0] · slices_S3x128_S1x128_1_0) : (⟨S3x128, .f32⟩ : BufTy).Contents (Elt F) → (⟨S1x128, .f32⟩ : BufTy).Contents (Elt F)),
    StableHlo.reshape main_v54 main_v55 rfl shapeCasts_S1x128_S128,
    StableHlo.unary main_v55 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S50000x128 ![0, 1] bcast_S1x128_S50000x128_0_1 : (⟨S1x128, .f32⟩ : BufTy).Contents (Elt F) → (⟨S50000x128, .f32⟩ : BufTy).Contents (Elt F)),
    StableHlo.binary main_v53 main_v57 main_v58 (addf : (⟨S50000x128, .f32⟩ : BufTy).Contents (Elt F) → (⟨S50000x128, .f32⟩ : BufTy).Contents (Elt F) → (⟨S50000x128, .f32⟩ : BufTy).Contents (Elt F)),
    StableHlo.unary main_arg4 main_v59 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v59 main_v60 rfl shapeCasts_S1x128x128_S128x128,
    StableHlo.binary main_v37 main_v60 main_v61 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v58 main_v61 main_v62 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v62) main_call1.v0 main_call1.v1 (cmpf .ogt),
    StableHlo.TRef.nullary main_call1.cst_0 (constant S_ .f32 0x00000000#32),
    StableHlo.TRef.unary main_call1.cst_0 main_call1.v2 (broadcastInDim S50000x128 ![] bcast_S_S50000x128),
    StableHlo.TRef.binary (.of main_v62) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S50000x128 ![] bcast_S_S50000x128),
    StableHlo.TRef.ternary main_call1.v3 main_call1.call0.v1 (.of main_v62) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S50000x128 ![] bcast_S_S50000x128),
    StableHlo.TRef.binary main_call1.v6 main_call1.v5 main_call1.v7 mulf,
    StableHlo.TRef.ternary main_call1.v1 (.of main_v62) main_call1.v7 main_call1.call1.v0 select ]
theorem opsB2_sub : (opsB2 : List (HloOp τ sig (Elt F))).Forall fun op => op.bufs ⊆ StableHlo.tcRefs τ sig :=
  ⟨StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.ternary_bufs_sub ..⟩
theorem opsB2_fresh : ∀ op ∈ (opsB2 : List (HloOp τ sig (Elt F))), op.fresh = ∅ := by
  intro _ h; (repeat (cases h with | head => rfl | tail _ h => ?_)); exact nomatch h

abbrev opsC : List (HloOp τ sig (Elt F)) :=
  [ StableHlo.nullary main_c_8 (constantI S_ 32 0#32),
    StableHlo.unary main_c_8 main_v64 (broadcastInDim S800000 ![] bcast_S_S800000 : (⟨S_, .i32⟩ : BufTy).Contents (Elt F) → (⟨S800000, .i32⟩ : BufTy).Contents (Elt F)),
    StableHlo.binary main_v1 main_v64 main_v65 (cmpi .slt : (⟨S800000, .i32⟩ : BufTy).Contents (Elt F) → (⟨S800000, .i32⟩ : BufTy).Contents (Elt F) → (⟨S800000, .i1⟩ : BufTy).Contents (Elt F)),
    StableHlo.nullary main_c_9 (constantI S_ 32 50000#32),
    StableHlo.unary main_c_9 main_v66 (broadcastInDim S800000 ![] bcast_S_S800000 : (⟨S_, .i32⟩ : BufTy).Contents (Elt F) → (⟨S800000, .i32⟩ : BufTy).Contents (Elt F)),
    StableHlo.binary main_v1 main_v66 main_v67 (addi : (⟨S800000, .i32⟩ : BufTy).Contents (Elt F) → (⟨S800000, .i32⟩ : BufTy).Contents (Elt F) → (⟨S800000, .i32⟩ : BufTy).Contents (Elt F)),
    StableHlo.ternary main_v65 main_v67 main_v1 main_v68 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v68 main_v69 (broadcastInDim S800000x1 ![0] bcast_S800000_S800000x1_0 : (⟨S800000, .i32⟩ : BufTy).Contents (Elt F) → (⟨S800000x1, .i32⟩ : BufTy).Contents (Elt F)),
    StableHlo.binary main_v63 main_v69 main_v70 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_10 (constant S_ .f32 0x00000000#32),
    StableHlo.unary main_cst_10 main_v71 (broadcastInDim S50000x128 ![] bcast_S_S50000x128 : (⟨S_, .f32⟩ : BufTy).Contents (Elt F) → (⟨S50000x128, .f32⟩ : BufTy).Contents (Elt F)),
    StableHlo.unary main_v3 main_v72 (broadcastInDim S800000x1 ![0] bcast_S800000_S800000x1_0 : (⟨S800000, .i32⟩ : BufTy).Contents (Elt F) → (⟨S800000x1, .i32⟩ : BufTy).Contents (Elt F)),
    StableHlo.ternary main_v71 main_v72 main_v70 main_v73 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v11 main_v74 (broadcastInDim S50000x1 ![0] bcast_S50000_S50000x1_0 : (⟨S50000, .f32⟩ : BufTy).Contents (Elt F) → (⟨S50000x1, .f32⟩ : BufTy).Contents (Elt F)),
    StableHlo.unary main_v74 main_v75 (broadcastInDim S50000x128 ![0, 1] bcast_S50000x1_S50000x128_0_1 : (⟨S50000x1, .f32⟩ : BufTy).Contents (Elt F) → (⟨S50000x128, .f32⟩ : BufTy).Contents (Elt F)),
    StableHlo.binary main_v73 main_v75 main_v76 (mulf : (⟨S50000x128, .f32⟩ : BufTy).Contents (Elt F) → (⟨S50000x128, .f32⟩ : BufTy).Contents (Elt F) → (⟨S50000x128, .f32⟩ : BufTy).Contents (Elt F)),
    StableHlo.unary main_arg2 main_v77 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v77 main_v78 rfl shapeCasts_S1x128x128_S128x128,
    StableHlo.binary main_v76 main_v78 main_v79 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v80 ((extractStridedSlice S1x128 ![2, 0] · slices_S3x128_S1x128_2_0) : (⟨S3x128, .f32⟩ : BufTy).Contents (Elt F) → (⟨S1x128, .f32⟩ : BufTy).Contents (Elt F)),
    StableHlo.reshape main_v80 main_v81 rfl shapeCasts_S1x128_S128,
    StableHlo.unary main_v81 main_v82 (broadcastInDim S1x128 ![1] bcast_S128_S1x128_1 : (⟨S128, .f32⟩ : BufTy).Contents (Elt F) → (⟨S1x128, .f32⟩ : BufTy).Contents (Elt F)),
    StableHlo.unary main_v82 main_v83 (broadcastInDim S50000x128 ![0, 1] bcast_S1x128_S50000x128_0_1 : (⟨S1x128, .f32⟩ : BufTy).Contents (Elt F) → (⟨S50000x128, .f32⟩ : BufTy).Contents (Elt F)),
    StableHlo.binary main_v79 main_v83 main_v84 (addf : (⟨S50000x128, .f32⟩ : BufTy).Contents (Elt F) → (⟨S50000x128, .f32⟩ : BufTy).Contents (Elt F) → (⟨S50000x128, .f32⟩ : BufTy).Contents (Elt F)),
    StableHlo.unary main_arg4 main_v85 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v85 main_v86 rfl shapeCasts_S1x128x128_S128x128,
    StableHlo.binary main_v63 main_v86 main_v87 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v84 main_v87 main_v88 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v88) main_call2.v0 main_call2.v1 (cmpf .ogt),
    StableHlo.TRef.nullary main_call2.cst_0 (constant S_ .f32 0x00000000#32),
    StableHlo.TRef.unary main_call2.cst_0 main_call2.v2 (broadcastInDim S50000x128 ![] bcast_S_S50000x128),
    StableHlo.TRef.binary (.of main_v88) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S50000x128 ![] bcast_S_S50000x128),
    StableHlo.TRef.ternary main_call2.v3 main_call2.call0.v1 (.of main_v88) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S50000x128 ![] bcast_S_S50000x128),
    StableHlo.TRef.binary main_call2.v6 main_call2.v5 main_call2.v7 mulf,
    StableHlo.TRef.ternary main_call2.v1 (.of main_v88) main_call2.v7 main_call2.call1.v0 select ]
theorem opsC_sub : (opsC : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.ternary_bufs_sub ..⟩
theorem opsC_fresh : ∀ op ∈ (opsC : List (HloOp τ sig (Elt F))), op.fresh = ∅ := by
  intro _ h; (repeat (cases h with | head => rfl | tail _ h => ?_)); exact nomatch h

abbrev opsD : List (HloOp τ sig (Elt F)) :=
  [ StableHlo.unary main_arg5 main_v90 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v90 main_v91 rfl shapeCasts_S1x128x128_S128x128,
    StableHlo.binary main_v89 main_v91 main_v92 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v93 ((extractStridedSlice S1x128 ![0, 0] · slices_S2x128_S1x128_0_0) : (⟨S2x128, .f32⟩ : BufTy).Contents (Elt F) → (⟨S1x128, .f32⟩ : BufTy).Contents (Elt F)),
    StableHlo.reshape main_v93 main_v94 rfl shapeCasts_S1x128_S128,
    StableHlo.unary main_v94 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S50000x128 ![0, 1] bcast_S1x128_S50000x128_0_1 : (⟨S1x128, .f32⟩ : BufTy).Contents (Elt F) → (⟨S50000x128, .f32⟩ : BufTy).Contents (Elt F)),
    StableHlo.binary main_v92 main_v96 main_v97 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v97) main_call3.v0 main_call3.v1 (cmpf .ogt),
    StableHlo.TRef.nullary main_call3.cst_0 (constant S_ .f32 0x00000000#32),
    StableHlo.TRef.unary main_call3.cst_0 main_call3.v2 (broadcastInDim S50000x128 ![] bcast_S_S50000x128),
    StableHlo.TRef.binary (.of main_v97) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S50000x128 ![] bcast_S_S50000x128),
    StableHlo.TRef.ternary main_call3.v3 main_call3.call0.v1 (.of main_v97) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S50000x128 ![] bcast_S_S50000x128),
    StableHlo.TRef.binary main_call3.v6 main_call3.v5 main_call3.v7 mulf,
    StableHlo.TRef.ternary main_call3.v1 (.of main_v97) main_call3.v7 main_call3.call1.v0 select ]
theorem opsD_sub : (opsD : List (HloOp τ sig (Elt F))).Forall fun op => op.bufs ⊆ StableHlo.tcRefs τ sig :=
  ⟨StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.ternary_bufs_sub ..⟩
theorem opsD_fresh : ∀ op ∈ (opsD : List (HloOp τ sig (Elt F))), op.fresh = ∅ := by
  intro _ h; (repeat (cases h with | head => rfl | tail _ h => ?_)); exact nomatch h

abbrev opsE1 : List (HloOp τ sig (Elt F)) :=
  [ StableHlo.unary main_arg5 main_v99 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v99 main_v100 rfl shapeCasts_S1x128x128_S128x128,
    StableHlo.binary main_v98 main_v100 main_v101 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v102 ((extractStridedSlice S1x128 ![1, 0] · slices_S2x128_S1x128_1_0) : (⟨S2x128, .f32⟩ : BufTy).Contents (Elt F) → (⟨S1x128, .f32⟩ : BufTy).Contents (Elt F)),
    StableHlo.reshape main_v102 main_v103 rfl shapeCasts_S1x128_S128,
    StableHlo.unary main_v103 main_v104 (broadcastInDim S1x128 ![1] bcast_S128_S1x128_1 : (⟨S128, .f32⟩ : BufTy).Contents (Elt F) → (⟨S1x128, .f32⟩ : BufTy).Contents (Elt F)),
    StableHlo.unary main_v104 main_v105 (broadcastInDim S50000x128 ![0, 1] bcast_S1x128_S50000x128_0_1 : (⟨S1x128, .f32⟩ : BufTy).Contents (Elt F) → (⟨S50000x128, .f32⟩ : BufTy).Contents (Elt F)),
    StableHlo.binary main_v101 main_v105 main_v106 (addf : (⟨S50000x128, .f32⟩ : BufTy).Contents (Elt F) → (⟨S50000x128, .f32⟩ : BufTy).Contents (Elt F) → (⟨S50000x128, .f32⟩ : BufTy).Contents (Elt F)) ]
theorem opsE1_sub : (opsE1 : List (HloOp τ sig (Elt F))).Forall fun op => op.bufs ⊆ StableHlo.tcRefs τ sig :=
  ⟨StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub ..⟩
theorem opsE1_fresh : ∀ op ∈ (opsE1 : List (HloOp τ sig (Elt F))), op.fresh = ∅ := by
  intro _ h; (repeat (cases h with | head => rfl | tail _ h => ?_)); exact nomatch h

abbrev opsE2 : List (HloOp τ sig (Elt F)) :=
  [ StableHlo.TRef.nullary main_call4.cst (constant S_ .f32 0x00000000#32),
    StableHlo.TRef.unary main_call4.cst main_call4.v0 (broadcastInDim S50000x128 ![] bcast_S_S50000x128),
    StableHlo.TRef.binary (.of main_v106) main_call4.v0 main_call4.v1 (cmpf .ogt),
    StableHlo.TRef.nullary main_call4.cst_0 (constant S_ .f32 0x00000000#32),
    StableHlo.TRef.unary main_call4.cst_0 main_call4.v2 (broadcastInDim S50000x128 ![] bcast_S_S50000x128),
    StableHlo.TRef.binary (.of main_v106) main_call4.v2 main_call4.v3 (cmpf .ogt),
    StableHlo.TRef.nullary main_call4.cst_1 (constant S_ .f32 0x00000000#32),
    StableHlo.TRef.unary main_call4.cst_1 main_call4.call0.v0 id,
    StableHlo.TRef.unary main_call4.call0.v0 main_call4.call0.v1 (broadcastInDim S50000x128 ![] bcast_S_S50000x128),
    StableHlo.TRef.ternary main_call4.v3 main_call4.call0.v1 (.of main_v106) main_call4.call0.v2 select,
    StableHlo.TRef.unary main_call4.call0.v2 main_call4.v5 Host.expm1,
    StableHlo.TRef.nullary main_call4.cst_2 (constant S_ .f32 0x3F800000#32),
    StableHlo.TRef.unary main_call4.cst_2 main_call4.v6 (broadcastInDim S50000x128 ![] bcast_S_S50000x128),
    StableHlo.TRef.binary main_call4.v6 main_call4.v5 main_call4.v7 mulf,
    StableHlo.TRef.ternary main_call4.v1 (.of main_v106) main_call4.v7 main_call4.call1.v0 select ]
theorem opsE2_sub : (opsE2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.ternary_bufs_sub ..⟩
theorem opsE2_fresh : ∀ op ∈ (opsE2 : List (HloOp τ sig (Elt F))), op.fresh = ∅ := by
  intro _ h; (repeat (cases h with | head => rfl | tail _ h => ?_)); exact nomatch h

abbrev opsG : List (HloOp τ sig (Elt F)) :=
  [ StableHlo.binary main_v107 main_arg7 main_v108 ((fun l r => Host.dotGeneral dot_S50000x128_S128x32_S50000x32_1_0_0_1_n_n none l r) : (⟨S50000x128, .f32⟩ : BufTy).Contents (Elt F) → (⟨S128x32, .f32⟩ : BufTy).Contents (Elt F) → (⟨S50000x32, .f32⟩ : BufTy).Contents (Elt F)),
    StableHlo.unary main_arg8 main_v109 (broadcastInDim S1x32 ![1] bcast_S32_S1x32_1 : (⟨S32, .f32⟩ : BufTy).Contents (Elt F) → (⟨S1x32, .f32⟩ : BufTy).Contents (Elt F)),
    StableHlo.unary main_v109 main_v110 (broadcastInDim S50000x32 ![0, 1] bcast_S1x32_S50000x32_0_1 : (⟨S1x32, .f32⟩ : BufTy).Contents (Elt F) → (⟨S50000x32, .f32⟩ : BufTy).Contents (Elt F)),
    StableHlo.binary main_v108 main_v110 main_v111 (addf : (⟨S50000x32, .f32⟩ : BufTy).Contents (Elt F) → (⟨S50000x32, .f32⟩ : BufTy).Contents (Elt F) → (⟨S50000x32, .f32⟩ : BufTy).Contents (Elt F)) ]
theorem opsG_sub : (opsG : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩
theorem opsG_fresh : ∀ op ∈ (opsG : List (HloOp τ sig (Elt F))), op.fresh = ∅ := by
  intro _ h; (repeat (cases h with | head => rfl | tail _ h => ?_)); exact nomatch h

/-- The whole program's operations. -/
abbrev ops : List (HloOp τ sig (Elt F)) := (opsA ++ opsB1) ++ ((opsB2 ++ (opsC ++ (opsD ++ opsE1))) ++ (opsE2 ++ opsG))

/-! ## @main is that line -/

set_option maxRecDepth 65536 in
set_option maxHeartbeats 4000000 in
theorem part0_eq (d : Dev nD) : main_part0 (F := F) d = StableHlo.seq (opsA ++ opsB1) := by
  simp only [main_part0, fn_elu.body, fn_where.body, fn_where_0.body, StableHlo.seq, List.cons_append, List.nil_append, bind_assoc, pure_bind]
  rfl

set_option maxRecDepth 65536 in
set_option maxHeartbeats 4000000 in
theorem part1_eq (d : Dev nD) : main_part1 (F := F) d = StableHlo.seq (opsB2 ++ (opsC ++ (opsD ++ opsE1))) := by
  simp only [main_part1, fn_elu.body, fn_where.body, fn_where_0.body, StableHlo.seq, List.cons_append, List.nil_append, bind_assoc, pure_bind]
  rfl

set_option maxRecDepth 65536 in
set_option maxHeartbeats 4000000 in
theorem part2_eq (d : Dev nD) : main_part2 (F := F) d = StableHlo.seq (opsE2 ++ opsG) := by
  simp only [main_part2, fn_elu.body, fn_where.body, fn_where_0.body, StableHlo.seq, List.cons_append, List.nil_append, bind_assoc, pure_bind]

theorem main_eq (d : Dev nD) : main (F := F) d = StableHlo.seq ops := by
  show (main_part0 d >>= fun _ => main_part1 d >>= fun _ => main_part2 d) = _
  rw [part0_eq, part1_eq, part2_eq, StableHlo.seq_append (opsA ++ opsB1), StableHlo.seq_append (opsB2 ++ (opsC ++ (opsD ++ opsE1)))]

theorem scopedRefs_eq : (Finset.univ.filter fun b : Ref sig .tc => b.isScoped) = ∅ := by decide
theorem scopedSems_eq : (Finset.univ.filter fun sm : SemLoc sig => sm.isScoped .tc) = ∅ := by decide

theorem forall_append {α : Type} {p : α → Prop} {l₁ l₂ : List α} (h₁ : l₁.Forall p) (h₂ : l₂.Forall p) : (l₁ ++ l₂).Forall p :=
  List.forall_iff_forall_mem.mpr fun x hx => (List.mem_append.mp hx).elim (List.forall_iff_forall_mem.mp h₁ x) (List.forall_iff_forall_mem.mp h₂ x)

theorem ops_sub : (ops : List (HloOp τ sig (Elt F))).Forall fun op => op.bufs ⊆ StableHlo.tcRefs τ sig :=
  forall_append (forall_append opsA_sub opsB1_sub)
    (forall_append (forall_append opsB2_sub (forall_append opsC_sub (forall_append opsD_sub opsE1_sub))) (forall_append opsE2_sub opsG_sub))

theorem mem_append_elim {α : Type} {p : α → Prop} {l₁ l₂ : List α} (h₁ : ∀ x ∈ l₁, p x) (h₂ : ∀ x ∈ l₂, p x) : ∀ x ∈ l₁ ++ l₂, p x :=
  fun x hx => (List.mem_append.mp hx).elim (h₁ x) (h₂ x)

theorem ops_fresh : ∀ op ∈ (ops : List (HloOp τ sig (Elt F))), op.fresh = ∅ :=
  mem_append_elim (mem_append_elim opsA_fresh opsB1_fresh)
    (mem_append_elim (mem_append_elim opsB2_fresh (mem_append_elim opsC_fresh (mem_append_elim opsD_fresh opsE1_fresh))) (mem_append_elim opsE2_fresh opsG_fresh))

/-- Every weakly fair execution of @main terminates, and every final state has each buffer at the fold of the
    operations' results over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after ops (StableHlo.launchContents m c) (Proc.devRef .tc b) :=
  StableHlo.run_seq scopedRefs_eq scopedSems_eq defs main (fun _ => ops) main_eq (fun _ => ops_sub) m ρ (fun _ => ops_fresh)

end Cert.ReferenceIdeal.Hand

end
-- ==== Proof.RefArgs.lean ====
/-
  The idealized reference leaves its argument arrays as launched: no operation of the program writes one.
-/
import proofs.«105906_j24541443129509_1_alg».proof.Proof.RefRun

set_option maxRecDepth 16384

noncomputable section

namespace Cert.ReferenceIdeal.Hand

open Idealize.ShloMosaic Idealize.ShloMosaic.TcCoe Idealize.SL.Sem
open Cert.ReferenceIdeal Cert.ReferenceIdeal.Gen

variable {F : FTy → Type} [FloatOps F]

set_option maxHeartbeats 8000000 in
theorem kept_arg0 (V : Valuation τ sig (Elt F)) :
    StableHlo.after ops V (Proc.devRef .tc main_arg0) = V (Proc.devRef .tc main_arg0) := by
  unfold ops
  simp only [List.cons_append, List.nil_append]
  after_results_simp

set_option maxHeartbeats 8000000 in
theorem kept_arg1 (V : Valuation τ sig (Elt F)) :
    StableHlo.after ops V (Proc.devRef .tc main_arg1) = V (Proc.devRef .tc main_arg1) := by
  unfold ops
  simp only [List.cons_append, List.nil_append]
  after_results_simp

set_option maxHeartbeats 8000000 in
theorem kept_arg2 (V : Valuation τ sig (Elt F)) :
    StableHlo.after ops V (Proc.devRef .tc main_arg2) = V (Proc.devRef .tc main_arg2) := by
  unfold ops
  simp only [List.cons_append, List.nil_append]
  after_results_simp

set_option maxHeartbeats 8000000 in
theorem kept_arg3 (V : Valuation τ sig (Elt F)) :
    StableHlo.after ops V (Proc.devRef .tc main_arg3) = V (Proc.devRef .tc main_arg3) := by
  unfold ops
  simp only [List.cons_append, List.nil_append]
  after_results_simp

set_option maxHeartbeats 8000000 in
theorem kept_arg4 (V : Valuation τ sig (Elt F)) :
    StableHlo.after ops V (Proc.devRef .tc main_arg4) = V (Proc.devRef .tc main_arg4) := by
  unfold ops
  simp only [List.cons_append, List.nil_append]
  after_results_simp

set_option maxHeartbeats 8000000 in
theorem kept_arg5 (V : Valuation τ sig (Elt F)) :
    StableHlo.after ops V (Proc.devRef .tc main_arg5) = V (Proc.devRef .tc main_arg5) := by
  unfold ops
  simp only [List.cons_append, List.nil_append]
  after_results_simp

set_option maxHeartbeats 8000000 in
theorem kept_arg6 (V : Valuation τ sig (Elt F)) :
    StableHlo.after ops V (Proc.devRef .tc main_arg6) = V (Proc.devRef .tc main_arg6) := by
  unfold ops
  simp only [List.cons_append, List.nil_append]
  after_results_simp

set_option maxHeartbeats 8000000 in
theorem kept_arg7 (V : Valuation τ sig (Elt F)) :
    StableHlo.after ops V (Proc.devRef .tc main_arg7) = V (Proc.devRef .tc main_arg7) := by
  unfold ops
  simp only [List.cons_append, List.nil_append]
  after_results_simp

set_option maxHeartbeats 8000000 in
theorem kept_arg8 (V : Valuation τ sig (Elt F)) :
    StableHlo.after ops V (Proc.devRef .tc main_arg8) = V (Proc.devRef .tc main_arg8) := by
  unfold ops
  simp only [List.cons_append, List.nil_append]
  after_results_simp

end Cert.ReferenceIdeal.Hand

end
-- ==== Proof.RefValue.lean ====
/-
  What the idealized reference computes: the network of the nine arguments.

  The program's operations are read one layer at a time. After the first graph layer's operations the layer's result,
  the edges' sources and destinations and the inverse in-degrees each hold their function of the arguments; every later
  layer's operations turn the previous layer's result into the next one's and leave the buffers the later layers read
  as they were. Within a layer the operations before the call of the exponential linear unit leave the layer's sum of
  plain products and broadcast bias row — the layer function's own spelling —, and the call's operations apply the
  host's spelling of the unit, which is the unit entry by entry.
-/
import proofs.«105906_j24541443129509_1_alg».proof.Proof.RefRun
import proofs.«105906_j24541443129509_1_alg».proof.Proof.NetSpec

set_option maxRecDepth 16384

noncomputable section

namespace Cert.ReferenceIdeal.Hand

open Idealize.ShloMosaic Idealize.ShloMosaic.TcCoe Idealize.SL.Sem
open Cert.ReferenceIdeal Cert.ReferenceIdeal.Gen Cert.NetSpec Cert.EluLayers Cert.BlockRows Cert.RowLayers Cert.DenseBlock

/-! ## Each layer's operations cut at the call of the unit -/

section Lists
variable {F : FTy → Type} [FloatOps F]

abbrev opsA1 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_cst (constant S_ .f32 0x3F800000#32),
    StableHlo.unary main_cst main_v4 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v5 (broadcastInDim S50000 ![] bcast_S_S50000 : (⟨S_, .f32⟩ : BufTy).Contents (Elt F) → (⟨S50000, .f32⟩ : BufTy).Contents (Elt F)),
    StableHlo.unary main_v3 main_v6 (broadcastInDim S800000x1 ![0] bcast_S800000_S800000x1_0 : (⟨S800000, .i32⟩ : BufTy).Contents (Elt F) → (⟨S800000x1, .i32⟩ : BufTy).Contents (Elt F)),
    StableHlo.ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x3F800000#32),
    StableHlo.unary main_cst_1 main_v8 (broadcastInDim S50000 ![] bcast_S_S50000 : (⟨S_, .f32⟩ : BufTy).Contents (Elt F) → (⟨S50000, .f32⟩ : BufTy).Contents (Elt F)),
    StableHlo.binary main_v7 main_v8 main_v9 (maximumf : (⟨S50000, .f32⟩ : BufTy).Contents (Elt F) → (⟨S50000, .f32⟩ : BufTy).Contents (Elt F) → (⟨S50000, .f32⟩ : BufTy).Contents (Elt F)),
    StableHlo.nullary main_cst_2 (constant S_ .f32 0x3F800000#32),
    StableHlo.unary main_cst_2 main_v10 (broadcastInDim S50000 ![] bcast_S_S50000 : (⟨S_, .f32⟩ : BufTy).Contents (Elt F) → (⟨S50000, .f32⟩ : BufTy).Contents (Elt F)),
    StableHlo.binary main_v10 main_v9 main_v11 (Host.divf : (⟨S50000, .f32⟩ : BufTy).Contents (Elt F) → (⟨S50000, .f32⟩ : BufTy).Contents (Elt F) → (⟨S50000, .f32⟩ : BufTy).Contents (Elt F)),
    StableHlo.nullary main_c (constantI S_ 32 0#32),
    StableHlo.unary main_c main_v12 (broadcastInDim S800000 ![] bcast_S_S800000 : (⟨S_, .i32⟩ : BufTy).Contents (Elt F) → (⟨S800000, .i32⟩ : BufTy).Contents (Elt F)),
    StableHlo.binary main_v1 main_v12 main_v13 (cmpi .slt : (⟨S800000, .i32⟩ : BufTy).Contents (Elt F) → (⟨S800000, .i32⟩ : BufTy).Contents (Elt F) → (⟨S800000, .i1⟩ : BufTy).Contents (Elt F)),
    StableHlo.nullary main_c_3 (constantI S_ 32 50000#32),
    StableHlo.unary main_c_3 main_v14 (broadcastInDim S800000 ![] bcast_S_S800000 : (⟨S_, .i32⟩ : BufTy).Contents (Elt F) → (⟨S800000, .i32⟩ : BufTy).Contents (Elt F)),
    StableHlo.binary main_v1 main_v14 main_v15 (addi : (⟨S800000, .i32⟩ : BufTy).Contents (Elt F) → (⟨S800000, .i32⟩ : BufTy).Contents (Elt F) → (⟨S800000, .i32⟩ : BufTy).Contents (Elt F)),
    StableHlo.ternary main_v13 main_v15 main_v1 main_v16 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v16 main_v17 (broadcastInDim S800000x1 ![0] bcast_S800000_S800000x1_0 : (⟨S800000, .i32⟩ : BufTy).Contents (Elt F) → (⟨S800000x1, .i32⟩ : BufTy).Contents (Elt F)),
    StableHlo.binary main_arg0 main_v17 main_v18 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_4 (constant S_ .f32 0x00000000#32),
    StableHlo.unary main_cst_4 main_v19 (broadcastInDim S50000x128 ![] bcast_S_S50000x128 : (⟨S_, .f32⟩ : BufTy).Contents (Elt F) → (⟨S50000x128, .f32⟩ : BufTy).Contents (Elt F)),
    StableHlo.unary main_v3 main_v20 (broadcastInDim S800000x1 ![0] bcast_S800000_S800000x1_0 : (⟨S800000, .i32⟩ : BufTy).Contents (Elt F) → (⟨S800000x1, .i32⟩ : BufTy).Contents (Elt F)),
    StableHlo.ternary main_v19 main_v20 main_v18 main_v21 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v11 main_v22 (broadcastInDim S50000x1 ![0] bcast_S50000_S50000x1_0 : (⟨S50000, .f32⟩ : BufTy).Contents (Elt F) → (⟨S50000x1, .f32⟩ : BufTy).Contents (Elt F)),
    StableHlo.unary main_v22 main_v23 (broadcastInDim S50000x128 ![0, 1] bcast_S50000x1_S50000x128_0_1 : (⟨S50000x1, .f32⟩ : BufTy).Contents (Elt F) → (⟨S50000x128, .f32⟩ : BufTy).Contents (Elt F)),
    StableHlo.binary main_v21 main_v23 main_v24 (mulf : (⟨S50000x128, .f32⟩ : BufTy).Contents (Elt F) → (⟨S50000x128, .f32⟩ : BufTy).Contents (Elt F) → (⟨S50000x128, .f32⟩ : BufTy).Contents (Elt F)),
    StableHlo.unary main_arg2 main_v25 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v25 main_v26 rfl shapeCasts_S1x128x128_S128x128,
    StableHlo.binary main_v24 main_v26 main_v27 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v28 ((extractStridedSlice S1x128 ![0, 0] · slices_S3x128_S1x128_0_0) : (⟨S3x128, .f32⟩ : BufTy).Contents (Elt F) → (⟨S1x128, .f32⟩ : BufTy).Contents (Elt F)),
    StableHlo.reshape main_v28 main_v29 rfl shapeCasts_S1x128_S128,
    StableHlo.unary main_v29 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S50000x128 ![0, 1] bcast_S1x128_S50000x128_0_1 : (⟨S1x128, .f32⟩ : BufTy).Contents (Elt F) → (⟨S50000x128, .f32⟩ : BufTy).Contents (Elt F)),
    StableHlo.binary main_v27 main_v31 main_v32 (addf : (⟨S50000x128, .f32⟩ : BufTy).Contents (Elt F) → (⟨S50000x128, .f32⟩ : BufTy).Contents (Elt F) → (⟨S50000x128, .f32⟩ : BufTy).Contents (Elt F)),
    StableHlo.unary main_arg4 main_v33 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v33 main_v34 rfl shapeCasts_S1x128x128_S128x128,
    StableHlo.binary main_arg0 main_v34 main_v35 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v32 main_v35 main_v36 (addf : (⟨S50000x128, .f32⟩ : BufTy).Contents (Elt F) → (⟨S50000x128, .f32⟩ : BufTy).Contents (Elt F) → (⟨S50000x128, .f32⟩ : BufTy).Contents (Elt F)) ]

abbrev opsAe : List (HloOp τ sig (Elt F)) :=
  [ StableHlo.TRef.nullary main_call0.cst (constant S_ .f32 0x00000000#32),
    StableHlo.TRef.unary main_call0.cst main_call0.v0 (broadcastInDim S50000x128 ![] bcast_S_S50000x128),
    StableHlo.TRef.binary (.of main_v36) main_call0.v0 main_call0.v1 (cmpf .ogt),
    StableHlo.TRef.nullary main_call0.cst_0 (constant S_ .f32 0x00000000#32),
    StableHlo.TRef.unary main_call0.cst_0 main_call0.v2 (broadcastInDim S50000x128 ![] bcast_S_S50000x128),
    StableHlo.TRef.binary (.of main_v36) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S50000x128 ![] bcast_S_S50000x128),
    StableHlo.TRef.ternary main_call0.v3 main_call0.call0.v1 (.of main_v36) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S50000x128 ![] bcast_S_S50000x128),
    StableHlo.TRef.binary main_call0.v6 main_call0.v5 main_call0.v7 mulf,
    StableHlo.TRef.ternary main_call0.v1 (.of main_v36) main_call0.v7 main_call0.call1.v0 select ]

abbrev opsBa : List (HloOp τ sig (Elt F)) :=
  [ StableHlo.nullary main_c_5 (constantI S_ 32 0#32),
    StableHlo.unary main_c_5 main_v38 (broadcastInDim S800000 ![] bcast_S_S800000 : (⟨S_, .i32⟩ : BufTy).Contents (Elt F) → (⟨S800000, .i32⟩ : BufTy).Contents (Elt F)),
    StableHlo.binary main_v1 main_v38 main_v39 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v40 (broadcastInDim S800000 ![] bcast_S_S800000 : (⟨S_, .i32⟩ : BufTy).Contents (Elt F) → (⟨S800000, .i32⟩ : BufTy).Contents (Elt F)),
    StableHlo.binary main_v1 main_v40 main_v41 (addi : (⟨S800000, .i32⟩ : BufTy).Contents (Elt F) → (⟨S800000, .i32⟩ : BufTy).Contents (Elt F) → (⟨S800000, .i32⟩ : BufTy).Contents (Elt F)),
    StableHlo.ternary main_v39 main_v41 main_v1 main_v42 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v42 main_v43 (broadcastInDim S800000x1 ![0] bcast_S800000_S800000x1_0 : (⟨S800000, .i32⟩ : BufTy).Contents (Elt F) → (⟨S800000x1, .i32⟩ : BufTy).Contents (Elt F)),
    StableHlo.binary main_v37 main_v43 main_v44 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_7 (constant S_ .f32 0x00000000#32),
    StableHlo.unary main_cst_7 main_v45 (broadcastInDim S50000x128 ![] bcast_S_S50000x128 : (⟨S_, .f32⟩ : BufTy).Contents (Elt F) → (⟨S50000x128, .f32⟩ : BufTy).Contents (Elt F)),
    StableHlo.unary main_v3 main_v46 (broadcastInDim S800000x1 ![0] bcast_S800000_S800000x1_0 : (⟨S800000, .i32⟩ : BufTy).Contents (Elt F) → (⟨S800000x1, .i32⟩ : BufTy).Contents (Elt F)),
    StableHlo.ternary main_v45 main_v46 main_v44 main_v47 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v11 main_v48 (broadcastInDim S50000x1 ![0] bcast_S50000_S50000x1_0 : (⟨S50000, .f32⟩ : BufTy).Contents (Elt F) → (⟨S50000x1, .f32⟩ : BufTy).Contents (Elt F)),
    StableHlo.unary main_v48 main_v49 (broadcastInDim S50000x128 ![0, 1] bcast_S50000x1_S50000x128_0_1 : (⟨S50000x1, .f32⟩ : BufTy).Contents (Elt F) → (⟨S50000x128, .f32⟩ : BufTy).Contents (Elt F)),
    StableHlo.binary main_v47 main_v49 main_v50 (mulf : (⟨S50000x128, .f32⟩ : BufTy).Contents (Elt F) → (⟨S50000x128, .f32⟩ : BufTy).Contents (Elt F) → (⟨S50000x128, .f32⟩ : BufTy).Contents (Elt F)),
    StableHlo.unary main_arg2 main_v51 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v51 main_v52 rfl shapeCasts_S1x128x128_S128x128,
    StableHlo.binary main_v50 main_v52 main_v53 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v54 ((extractStridedSlice S1x128 ![1, 0] · slices_S3x128_S1x128_1_0) : (⟨S3x128, .f32⟩ : BufTy).Contents (Elt F) → (⟨S1x128, .f32⟩ : BufTy).Contents (Elt F)),
    StableHlo.reshape main_v54 main_v55 rfl shapeCasts_S1x128_S128,
    StableHlo.unary main_v55 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S50000x128 ![0, 1] bcast_S1x128_S50000x128_0_1 : (⟨S1x128, .f32⟩ : BufTy).Contents (Elt F) → (⟨S50000x128, .f32⟩ : BufTy).Contents (Elt F)),
    StableHlo.binary main_v53 main_v57 main_v58 (addf : (⟨S50000x128, .f32⟩ : BufTy).Contents (Elt F) → (⟨S50000x128, .f32⟩ : BufTy).Contents (Elt F) → (⟨S50000x128, .f32⟩ : BufTy).Contents (Elt F)),
    StableHlo.unary main_arg4 main_v59 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v59 main_v60 rfl shapeCasts_S1x128x128_S128x128,
    StableHlo.binary main_v37 main_v60 main_v61 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v58 main_v61 main_v62 (addf : (⟨S50000x128, .f32⟩ : BufTy).Contents (Elt F) → (⟨S50000x128, .f32⟩ : BufTy).Contents (Elt F) → (⟨S50000x128, .f32⟩ : BufTy).Contents (Elt F)) ]

abbrev opsBe : List (HloOp τ sig (Elt F)) :=
  [ StableHlo.TRef.nullary main_call1.cst (constant S_ .f32 0x00000000#32),
    StableHlo.TRef.unary main_call1.cst main_call1.v0 (broadcastInDim S50000x128 ![] bcast_S_S50000x128),
    StableHlo.TRef.binary (.of main_v62) main_call1.v0 main_call1.v1 (cmpf .ogt),
    StableHlo.TRef.nullary main_call1.cst_0 (constant S_ .f32 0x00000000#32),
    StableHlo.TRef.unary main_call1.cst_0 main_call1.v2 (broadcastInDim S50000x128 ![] bcast_S_S50000x128),
    StableHlo.TRef.binary (.of main_v62) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S50000x128 ![] bcast_S_S50000x128),
    StableHlo.TRef.ternary main_call1.v3 main_call1.call0.v1 (.of main_v62) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S50000x128 ![] bcast_S_S50000x128),
    StableHlo.TRef.binary main_call1.v6 main_call1.v5 main_call1.v7 mulf,
    StableHlo.TRef.ternary main_call1.v1 (.of main_v62) main_call1.v7 main_call1.call1.v0 select ]

abbrev opsCa : List (HloOp τ sig (Elt F)) :=
  [ StableHlo.nullary main_c_8 (constantI S_ 32 0#32),
    StableHlo.unary main_c_8 main_v64 (broadcastInDim S800000 ![] bcast_S_S800000 : (⟨S_, .i32⟩ : BufTy).Contents (Elt F) → (⟨S800000, .i32⟩ : BufTy).Contents (Elt F)),
    StableHlo.binary main_v1 main_v64 main_v65 (cmpi .slt : (⟨S800000, .i32⟩ : BufTy).Contents (Elt F) → (⟨S800000, .i32⟩ : BufTy).Contents (Elt F) → (⟨S800000, .i1⟩ : BufTy).Contents (Elt F)),
    StableHlo.nullary main_c_9 (constantI S_ 32 50000#32),
    StableHlo.unary main_c_9 main_v66 (broadcastInDim S800000 ![] bcast_S_S800000 : (⟨S_, .i32⟩ : BufTy).Contents (Elt F) → (⟨S800000, .i32⟩ : BufTy).Contents (Elt F)),
    StableHlo.binary main_v1 main_v66 main_v67 (addi : (⟨S800000, .i32⟩ : BufTy).Contents (Elt F) → (⟨S800000, .i32⟩ : BufTy).Contents (Elt F) → (⟨S800000, .i32⟩ : BufTy).Contents (Elt F)),
    StableHlo.ternary main_v65 main_v67 main_v1 main_v68 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v68 main_v69 (broadcastInDim S800000x1 ![0] bcast_S800000_S800000x1_0 : (⟨S800000, .i32⟩ : BufTy).Contents (Elt F) → (⟨S800000x1, .i32⟩ : BufTy).Contents (Elt F)),
    StableHlo.binary main_v63 main_v69 main_v70 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_10 (constant S_ .f32 0x00000000#32),
    StableHlo.unary main_cst_10 main_v71 (broadcastInDim S50000x128 ![] bcast_S_S50000x128 : (⟨S_, .f32⟩ : BufTy).Contents (Elt F) → (⟨S50000x128, .f32⟩ : BufTy).Contents (Elt F)),
    StableHlo.unary main_v3 main_v72 (broadcastInDim S800000x1 ![0] bcast_S800000_S800000x1_0 : (⟨S800000, .i32⟩ : BufTy).Contents (Elt F) → (⟨S800000x1, .i32⟩ : BufTy).Contents (Elt F)),
    StableHlo.ternary main_v71 main_v72 main_v70 main_v73 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v11 main_v74 (broadcastInDim S50000x1 ![0] bcast_S50000_S50000x1_0 : (⟨S50000, .f32⟩ : BufTy).Contents (Elt F) → (⟨S50000x1, .f32⟩ : BufTy).Contents (Elt F)),
    StableHlo.unary main_v74 main_v75 (broadcastInDim S50000x128 ![0, 1] bcast_S50000x1_S50000x128_0_1 : (⟨S50000x1, .f32⟩ : BufTy).Contents (Elt F) → (⟨S50000x128, .f32⟩ : BufTy).Contents (Elt F)),
    StableHlo.binary main_v73 main_v75 main_v76 (mulf : (⟨S50000x128, .f32⟩ : BufTy).Contents (Elt F) → (⟨S50000x128, .f32⟩ : BufTy).Contents (Elt F) → (⟨S50000x128, .f32⟩ : BufTy).Contents (Elt F)),
    StableHlo.unary main_arg2 main_v77 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v77 main_v78 rfl shapeCasts_S1x128x128_S128x128,
    StableHlo.binary main_v76 main_v78 main_v79 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v80 ((extractStridedSlice S1x128 ![2, 0] · slices_S3x128_S1x128_2_0) : (⟨S3x128, .f32⟩ : BufTy).Contents (Elt F) → (⟨S1x128, .f32⟩ : BufTy).Contents (Elt F)),
    StableHlo.reshape main_v80 main_v81 rfl shapeCasts_S1x128_S128,
    StableHlo.unary main_v81 main_v82 (broadcastInDim S1x128 ![1] bcast_S128_S1x128_1 : (⟨S128, .f32⟩ : BufTy).Contents (Elt F) → (⟨S1x128, .f32⟩ : BufTy).Contents (Elt F)),
    StableHlo.unary main_v82 main_v83 (broadcastInDim S50000x128 ![0, 1] bcast_S1x128_S50000x128_0_1 : (⟨S1x128, .f32⟩ : BufTy).Contents (Elt F) → (⟨S50000x128, .f32⟩ : BufTy).Contents (Elt F)),
    StableHlo.binary main_v79 main_v83 main_v84 (addf : (⟨S50000x128, .f32⟩ : BufTy).Contents (Elt F) → (⟨S50000x128, .f32⟩ : BufTy).Contents (Elt F) → (⟨S50000x128, .f32⟩ : BufTy).Contents (Elt F)),
    StableHlo.unary main_arg4 main_v85 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v85 main_v86 rfl shapeCasts_S1x128x128_S128x128,
    StableHlo.binary main_v63 main_v86 main_v87 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v84 main_v87 main_v88 (addf : (⟨S50000x128, .f32⟩ : BufTy).Contents (Elt F) → (⟨S50000x128, .f32⟩ : BufTy).Contents (Elt F) → (⟨S50000x128, .f32⟩ : BufTy).Contents (Elt F)) ]

abbrev opsCe : List (HloOp τ sig (Elt F)) :=
  [ StableHlo.TRef.nullary main_call2.cst (constant S_ .f32 0x00000000#32),
    StableHlo.TRef.unary main_call2.cst main_call2.v0 (broadcastInDim S50000x128 ![] bcast_S_S50000x128),
    StableHlo.TRef.binary (.of main_v88) main_call2.v0 main_call2.v1 (cmpf .ogt),
    StableHlo.TRef.nullary main_call2.cst_0 (constant S_ .f32 0x00000000#32),
    StableHlo.TRef.unary main_call2.cst_0 main_call2.v2 (broadcastInDim S50000x128 ![] bcast_S_S50000x128),
    StableHlo.TRef.binary (.of main_v88) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S50000x128 ![] bcast_S_S50000x128),
    StableHlo.TRef.ternary main_call2.v3 main_call2.call0.v1 (.of main_v88) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S50000x128 ![] bcast_S_S50000x128),
    StableHlo.TRef.binary main_call2.v6 main_call2.v5 main_call2.v7 mulf,
    StableHlo.TRef.ternary main_call2.v1 (.of main_v88) main_call2.v7 main_call2.call1.v0 select ]

abbrev opsDa : List (HloOp τ sig (Elt F)) :=
  [ StableHlo.unary main_arg5 main_v90 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v90 main_v91 rfl shapeCasts_S1x128x128_S128x128,
    StableHlo.binary main_v89 main_v91 main_v92 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v93 ((extractStridedSlice S1x128 ![0, 0] · slices_S2x128_S1x128_0_0) : (⟨S2x128, .f32⟩ : BufTy).Contents (Elt F) → (⟨S1x128, .f32⟩ : BufTy).Contents (Elt F)),
    StableHlo.reshape main_v93 main_v94 rfl shapeCasts_S1x128_S128,
    StableHlo.unary main_v94 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S50000x128 ![0, 1] bcast_S1x128_S50000x128_0_1 : (⟨S1x128, .f32⟩ : BufTy).Contents (Elt F) → (⟨S50000x128, .f32⟩ : BufTy).Contents (Elt F)),
    StableHlo.binary main_v92 main_v96 main_v97 (addf : (⟨S50000x128, .f32⟩ : BufTy).Contents (Elt F) → (⟨S50000x128, .f32⟩ : BufTy).Contents (Elt F) → (⟨S50000x128, .f32⟩ : BufTy).Contents (Elt F)) ]

abbrev opsDe : List (HloOp τ sig (Elt F)) :=
  [ StableHlo.TRef.nullary main_call3.cst (constant S_ .f32 0x00000000#32),
    StableHlo.TRef.unary main_call3.cst main_call3.v0 (broadcastInDim S50000x128 ![] bcast_S_S50000x128),
    StableHlo.TRef.binary (.of main_v97) main_call3.v0 main_call3.v1 (cmpf .ogt),
    StableHlo.TRef.nullary main_call3.cst_0 (constant S_ .f32 0x00000000#32),
    StableHlo.TRef.unary main_call3.cst_0 main_call3.v2 (broadcastInDim S50000x128 ![] bcast_S_S50000x128),
    StableHlo.TRef.binary (.of main_v97) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S50000x128 ![] bcast_S_S50000x128),
    StableHlo.TRef.ternary main_call3.v3 main_call3.call0.v1 (.of main_v97) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S50000x128 ![] bcast_S_S50000x128),
    StableHlo.TRef.binary main_call3.v6 main_call3.v5 main_call3.v7 mulf,
    StableHlo.TRef.ternary main_call3.v1 (.of main_v97) main_call3.v7 main_call3.call1.v0 select ]

end Lists

/-! ## The calls of the unit -/

set_option maxHeartbeats 4000000 in
theorem elu0 (U : Valuation τ sig (Elt Ideal)) :
    StableHlo.after opsAe U (Proc.devRef .tc main_v37) = elu (U (Proc.devRef .tc main_v36)) := by
  after_results_simp
  exact Eq.trans (b := eluHost splatX (U (Proc.devRef .tc main_v36))) rfl (elu_host splatX _)

set_option maxHeartbeats 4000000 in
theorem elu1 (U : Valuation τ sig (Elt Ideal)) :
    StableHlo.after opsBe U (Proc.devRef .tc main_v63) = elu (U (Proc.devRef .tc main_v62)) := by
  after_results_simp
  exact Eq.trans (b := eluHost splatX (U (Proc.devRef .tc main_v62))) rfl (elu_host splatX _)

set_option maxHeartbeats 4000000 in
theorem elu2 (U : Valuation τ sig (Elt Ideal)) :
    StableHlo.after opsCe U (Proc.devRef .tc main_v89) = elu (U (Proc.devRef .tc main_v88)) := by
  after_results_simp
  exact Eq.trans (b := eluHost splatX (U (Proc.devRef .tc main_v88))) rfl (elu_host splatX _)

set_option maxHeartbeats 4000000 in
theorem elu3 (U : Valuation τ sig (Elt Ideal)) :
    StableHlo.after opsDe U (Proc.devRef .tc main_v98) = elu (U (Proc.devRef .tc main_v97)) := by
  after_results_simp
  exact Eq.trans (b := eluHost splatX (U (Proc.devRef .tc main_v97))) rfl (elu_host splatX _)

set_option maxHeartbeats 4000000 in
theorem elu4 (U : Valuation τ sig (Elt Ideal)) :
    StableHlo.after opsE2 U (Proc.devRef .tc main_v107) = elu (U (Proc.devRef .tc main_v106)) := by
  after_results_simp
  exact Eq.trans (b := eluHost splatX (U (Proc.devRef .tc main_v106))) rfl (elu_host splatX _)

/-! ## The first graph layer's stretch -/

set_option maxHeartbeats 4000000 in
theorem a_v1 (V : Valuation τ sig (Elt Ideal)) :
    StableHlo.after opsA V (Proc.devRef .tc main_v1) = src (V (Proc.devRef .tc main_arg1)) := by
  after_results_simp
  rfl

set_option maxHeartbeats 4000000 in
theorem a_v3 (V : Valuation τ sig (Elt Ideal)) :
    StableHlo.after opsA V (Proc.devRef .tc main_v3) = dst (V (Proc.devRef .tc main_arg1)) := by
  after_results_simp
  rfl

set_option maxHeartbeats 4000000 in
theorem a_v11 (V : Valuation τ sig (Elt Ideal)) :
    StableHlo.after opsA V (Proc.devRef .tc main_v11) = invDeg (dst (V (Proc.devRef .tc main_arg1))) := by
  after_results_simp
  rfl

set_option maxHeartbeats 8000000 in
theorem a_pre (V : Valuation τ sig (Elt Ideal)) :
    StableHlo.after opsA1 V (Proc.devRef .tc main_v36) = sagePre bias128 (aggregate (V (Proc.devRef .tc main_arg1)) (V (Proc.devRef .tc main_arg0))) (V (Proc.devRef .tc main_arg0)) (tblOf 0 convTbl0 (V (Proc.devRef .tc main_arg2))) (rowMat (rowVecOf 0 convRow0 (V (Proc.devRef .tc main_arg3)))) (tblOf 0 convTbl0 (V (Proc.devRef .tc main_arg4))) := by
  after_results_simp
  rfl

theorem a_v37 (V : Valuation τ sig (Elt Ideal)) :
    StableHlo.after (opsA) V (Proc.devRef .tc main_v37) = conv 0 convTbl0 convRow0 (V (Proc.devRef .tc main_arg1)) (V (Proc.devRef .tc main_arg2)) (V (Proc.devRef .tc main_arg3)) (V (Proc.devRef .tc main_arg4)) (V (Proc.devRef .tc main_arg0)) := by
  rw [show (opsA : List (HloOp τ sig (Elt Ideal))) = opsA1 ++ opsAe from rfl, StableHlo.after_append, elu0, a_pre]
  rfl

theorem a_arg2 (V : Valuation τ sig (Elt Ideal)) :
    StableHlo.after (opsA) V (Proc.devRef .tc main_arg2) = V (Proc.devRef .tc main_arg2) := by
  after_results_simp

theorem a_arg3 (V : Valuation τ sig (Elt Ideal)) :
    StableHlo.after (opsA) V (Proc.devRef .tc main_arg3) = V (Proc.devRef .tc main_arg3) := by
  after_results_simp

theorem a_arg4 (V : Valuation τ sig (Elt Ideal)) :
    StableHlo.after (opsA) V (Proc.devRef .tc main_arg4) = V (Proc.devRef .tc main_arg4) := by
  after_results_simp

theorem a_arg5 (V : Valuation τ sig (Elt Ideal)) :
    StableHlo.after (opsA) V (Proc.devRef .tc main_arg5) = V (Proc.devRef .tc main_arg5) := by
  after_results_simp

theorem a_arg6 (V : Valuation τ sig (Elt Ideal)) :
    StableHlo.after (opsA) V (Proc.devRef .tc main_arg6) = V (Proc.devRef .tc main_arg6) := by
  after_results_simp

theorem a_arg7 (V : Valuation τ sig (Elt Ideal)) :
    StableHlo.after (opsA) V (Proc.devRef .tc main_arg7) = V (Proc.devRef .tc main_arg7) := by
  after_results_simp

theorem a_arg8 (V : Valuation τ sig (Elt Ideal)) :
    StableHlo.after (opsA) V (Proc.devRef .tc main_arg8) = V (Proc.devRef .tc main_arg8) := by
  after_results_simp

/-! ## The second graph layer's stretch -/

set_option maxHeartbeats 8000000 in
theorem b_pre (V : Valuation τ sig (Elt Ideal)) :
    StableHlo.after opsBa V (Proc.devRef .tc main_v62) = sagePre bias128 (aggOf (V (Proc.devRef .tc main_v1)) (V (Proc.devRef .tc main_v3)) (broadcastInDim SNc ![0] degCol (V (Proc.devRef .tc main_v11))) (V (Proc.devRef .tc main_v37))) (V (Proc.devRef .tc main_v37)) (tblOf 1 convTbl1 (V (Proc.devRef .tc main_arg2))) (rowMat (rowVecOf 1 convRow1 (V (Proc.devRef .tc main_arg3)))) (tblOf 1 convTbl1 (V (Proc.devRef .tc main_arg4))) := by
  after_results_simp
  rfl

theorem b_v63 (V : Valuation τ sig (Elt Ideal)) :
    StableHlo.after (opsB1 ++ opsB2) V (Proc.devRef .tc main_v63) = sage bias128 (aggOf (V (Proc.devRef .tc main_v1)) (V (Proc.devRef .tc main_v3)) (broadcastInDim SNc ![0] degCol (V (Proc.devRef .tc main_v11))) (V (Proc.devRef .tc main_v37)))
          (V (Proc.devRef .tc main_v37)) (tblOf 1 convTbl1 (V (Proc.devRef .tc main_arg2))) (rowMat (rowVecOf 1 convRow1 (V (Proc.devRef .tc main_arg3)))) (tblOf 1 convTbl1 (V (Proc.devRef .tc main_arg4))) := by
  rw [show (opsB1 ++ opsB2 : List (HloOp τ sig (Elt Ideal))) = opsBa ++ opsBe from rfl, StableHlo.after_append, elu1, b_pre]
  rfl

theorem b_v1 (V : Valuation τ sig (Elt Ideal)) :
    StableHlo.after (opsB1 ++ opsB2) V (Proc.devRef .tc main_v1) = V (Proc.devRef .tc main_v1) := by
  simp only [List.cons_append, List.nil_append]
  after_results_simp

theorem b_v3 (V : Valuation τ sig (Elt Ideal)) :
    StableHlo.after (opsB1 ++ opsB2) V (Proc.devRef .tc main_v3) = V (Proc.devRef .tc main_v3) := by
  simp only [List.cons_append, List.nil_append]
  after_results_simp

theorem b_v11 (V : Valuation τ sig (Elt Ideal)) :
    StableHlo.after (opsB1 ++ opsB2) V (Proc.devRef .tc main_v11) = V (Proc.devRef .tc main_v11) := by
  simp only [List.cons_append, List.nil_append]
  after_results_simp

theorem b_arg2 (V : Valuation τ sig (Elt Ideal)) :
    StableHlo.after (opsB1 ++ opsB2) V (Proc.devRef .tc main_arg2) = V (Proc.devRef .tc main_arg2) := by
  simp only [List.cons_append, List.nil_append]
  after_results_simp

theorem b_arg3 (V : Valuation τ sig (Elt Ideal)) :
    StableHlo.after (opsB1 ++ opsB2) V (Proc.devRef .tc main_arg3) = V (Proc.devRef .tc main_arg3) := by
  simp only [List.cons_append, List.nil_append]
  after_results_simp

theorem b_arg4 (V : Valuation τ sig (Elt Ideal)) :
    StableHlo.after (opsB1 ++ opsB2) V (Proc.devRef .tc main_arg4) = V (Proc.devRef .tc main_arg4) := by
  simp only [List.cons_append, List.nil_append]
  after_results_simp

theorem b_arg5 (V : Valuation τ sig (Elt Ideal)) :
    StableHlo.after (opsB1 ++ opsB2) V (Proc.devRef .tc main_arg5) = V (Proc.devRef .tc main_arg5) := by
  simp only [List.cons_append, List.nil_append]
  after_results_simp

theorem b_arg6 (V : Valuation τ sig (Elt Ideal)) :
    StableHlo.after (opsB1 ++ opsB2) V (Proc.devRef .tc main_arg6) = V (Proc.devRef .tc main_arg6) := by
  simp only [List.cons_append, List.nil_append]
  after_results_simp

theorem b_arg7 (V : Valuation τ sig (Elt Ideal)) :
    StableHlo.after (opsB1 ++ opsB2) V (Proc.devRef .tc main_arg7) = V (Proc.devRef .tc main_arg7) := by
  simp only [List.cons_append, List.nil_append]
  after_results_simp

theorem b_arg8 (V : Valuation τ sig (Elt Ideal)) :
    StableHlo.after (opsB1 ++ opsB2) V (Proc.devRef .tc main_arg8) = V (Proc.devRef .tc main_arg8) := by
  simp only [List.cons_append, List.nil_append]
  after_results_simp

/-! ## The third graph layer's stretch -/

set_option maxHeartbeats 8000000 in
theorem c_pre (V : Valuation τ sig (Elt Ideal)) :
    StableHlo.after opsCa V (Proc.devRef .tc main_v88) = sagePre bias128 (aggOf (V (Proc.devRef .tc main_v1)) (V (Proc.devRef .tc main_v3)) (broadcastInDim SNc ![0] degCol (V (Proc.devRef .tc main_v11))) (V (Proc.devRef .tc main_v63))) (V (Proc.devRef .tc main_v63)) (tblOf 2 convTbl2 (V (Proc.devRef .tc main_arg2))) (rowMat (rowVecOf 2 convRow2 (V (Proc.devRef .tc main_arg3)))) (tblOf 2 convTbl2 (V (Proc.devRef .tc main_arg4))) := by
  after_results_simp
  rfl

theorem c_v89 (V : Valuation τ sig (Elt Ideal)) :
    StableHlo.after (opsC) V (Proc.devRef .tc main_v89) = sage bias128 (aggOf (V (Proc.devRef .tc main_v1)) (V (Proc.devRef .tc main_v3)) (broadcastInDim SNc ![0] degCol (V (Proc.devRef .tc main_v11))) (V (Proc.devRef .tc main_v63)))
          (V (Proc.devRef .tc main_v63)) (tblOf 2 convTbl2 (V (Proc.devRef .tc main_arg2))) (rowMat (rowVecOf 2 convRow2 (V (Proc.devRef .tc main_arg3)))) (tblOf 2 convTbl2 (V (Proc.devRef .tc main_arg4))) := by
  rw [show (opsC : List (HloOp τ sig (Elt Ideal))) = opsCa ++ opsCe from rfl, StableHlo.after_append, elu2, c_pre]
  rfl

theorem c_arg5 (V : Valuation τ sig (Elt Ideal)) :
    StableHlo.after (opsC) V (Proc.devRef .tc main_arg5) = V (Proc.devRef .tc main_arg5) := by
  after_results_simp

theorem c_arg6 (V : Valuation τ sig (Elt Ideal)) :
    StableHlo.after (opsC) V (Proc.devRef .tc main_arg6) = V (Proc.devRef .tc main_arg6) := by
  after_results_simp

theorem c_arg7 (V : Valuation τ sig (Elt Ideal)) :
    StableHlo.after (opsC) V (Proc.devRef .tc main_arg7) = V (Proc.devRef .tc main_arg7) := by
  after_results_simp

theorem c_arg8 (V : Valuation τ sig (Elt Ideal)) :
    StableHlo.after (opsC) V (Proc.devRef .tc main_arg8) = V (Proc.devRef .tc main_arg8) := by
  after_results_simp

/-! ## The two dense layers' stretches and the head's -/

set_option maxHeartbeats 8000000 in
theorem d_pre (V : Valuation τ sig (Elt Ideal)) :
    StableHlo.after opsDa V (Proc.devRef .tc main_v97) = affine bias128 (V (Proc.devRef .tc main_v89)) (tblOf 0 linTbl0 (V (Proc.devRef .tc main_arg5))) (rowMat (rowVecOf 0 linRow0 (V (Proc.devRef .tc main_arg6)))) := by
  after_results_simp
  rfl

theorem d_v98 (V : Valuation τ sig (Elt Ideal)) :
    StableHlo.after (opsD) V (Proc.devRef .tc main_v98) = dense 0 linTbl0 linRow0 (V (Proc.devRef .tc main_arg5)) (V (Proc.devRef .tc main_arg6)) (V (Proc.devRef .tc main_v89)) := by
  rw [show (opsD : List (HloOp τ sig (Elt Ideal))) = opsDa ++ opsDe from rfl, StableHlo.after_append, elu3, d_pre]
  rfl

theorem d_arg5 (V : Valuation τ sig (Elt Ideal)) :
    StableHlo.after (opsD) V (Proc.devRef .tc main_arg5) = V (Proc.devRef .tc main_arg5) := by
  after_results_simp

theorem d_arg6 (V : Valuation τ sig (Elt Ideal)) :
    StableHlo.after (opsD) V (Proc.devRef .tc main_arg6) = V (Proc.devRef .tc main_arg6) := by
  after_results_simp

theorem d_arg7 (V : Valuation τ sig (Elt Ideal)) :
    StableHlo.after (opsD) V (Proc.devRef .tc main_arg7) = V (Proc.devRef .tc main_arg7) := by
  after_results_simp

theorem d_arg8 (V : Valuation τ sig (Elt Ideal)) :
    StableHlo.after (opsD) V (Proc.devRef .tc main_arg8) = V (Proc.devRef .tc main_arg8) := by
  after_results_simp

set_option maxHeartbeats 8000000 in
theorem e_pre (V : Valuation τ sig (Elt Ideal)) :
    StableHlo.after opsE1 V (Proc.devRef .tc main_v106) = affine bias128 (V (Proc.devRef .tc main_v98)) (tblOf 1 linTbl1 (V (Proc.devRef .tc main_arg5))) (rowMat (rowVecOf 1 linRow1 (V (Proc.devRef .tc main_arg6)))) := by
  after_results_simp
  rfl

theorem e_v107 (V : Valuation τ sig (Elt Ideal)) :
    StableHlo.after (opsE1 ++ opsE2) V (Proc.devRef .tc main_v107) = dense 1 linTbl1 linRow1 (V (Proc.devRef .tc main_arg5)) (V (Proc.devRef .tc main_arg6)) (V (Proc.devRef .tc main_v98)) := by
  rw [StableHlo.after_append, elu4, e_pre]
  rfl

theorem e_arg7 (V : Valuation τ sig (Elt Ideal)) :
    StableHlo.after (opsE1 ++ opsE2) V (Proc.devRef .tc main_arg7) = V (Proc.devRef .tc main_arg7) := by
  simp only [List.cons_append, List.nil_append]
  after_results_simp

theorem e_arg8 (V : Valuation τ sig (Elt Ideal)) :
    StableHlo.after (opsE1 ++ opsE2) V (Proc.devRef .tc main_arg8) = V (Proc.devRef .tc main_arg8) := by
  simp only [List.cons_append, List.nil_append]
  after_results_simp

set_option maxHeartbeats 8000000 in
theorem g_v111 (V : Valuation τ sig (Elt Ideal)) :
    StableHlo.after opsG V (Proc.devRef .tc main_v111) = head (V (Proc.devRef .tc main_arg7)) (V (Proc.devRef .tc main_arg8)) (V (Proc.devRef .tc main_v107)) := by
  after_results_simp
  rfl

/-! ## The whole program -/

/-- The result buffer after the whole program holds the network of the arguments. -/
theorem value (V : Valuation τ sig (Elt Ideal)) :
    StableHlo.after ops V (Proc.devRef .tc main_v111)
      = net (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  show StableHlo.after ((opsA ++ opsB1) ++ ((opsB2 ++ (opsC ++ (opsD ++ opsE1))) ++ (opsE2 ++ opsG))) V _ = _
  rw [StableHlo.after_append, StableHlo.after_append, StableHlo.after_append, StableHlo.after_append, StableHlo.after_append,
    StableHlo.after_append, StableHlo.after_append]
  rw [← StableHlo.after_append opsE1 opsE2, ← StableHlo.after_append opsB1 opsB2]
  rw [g_v111, e_v107, e_arg7, e_arg8, d_v98, d_arg5, d_arg6, d_arg7, d_arg8, c_v89, c_arg5, c_arg6, c_arg7, c_arg8,
    b_v63, b_v1, b_v3, b_v11, b_arg2, b_arg3, b_arg4, b_arg5, b_arg6, b_arg7, b_arg8,
    a_v37, a_v1, a_v3, a_v11, a_arg2, a_arg3, a_arg4, a_arg5, a_arg6, a_arg7, a_arg8]
  rfl

end Cert.ReferenceIdeal.Hand

end
-- ==== Proof.lean ====
/-
  The certificate of a three-layer graph network with a dense head, computed by six pipelined regions among host
  gathers and scatters, against the same network written in plain array operations.

  Both programs aggregate neighbours' features over the edge list on the host, in the same operations. The kernel
  computes each layer's matrix products, bias and exponential linear unit block by block over 5000 rows; every one of
  these acts on each row by itself, so the blocks written back are the rows of the layer computed on the whole arrays.
  On the extended reals a change of float format is the identity, the matrix unit's product into zeros is the host's
  plain product, exponential-minus-one is exp − 1 and a product with one changes nothing, so the two spellings of the
  unit agree; a bias row laid out by a reshape is the row laid out by a broadcast; and the head computed on a table
  padded from 32 to 128 columns and cut back to 32 never reads the padding. No step needs finiteness, so the
  precondition is not opened. The ideal pass rewrote nothing, so the kernel's idealization is its own text.
-/
import proofs.«105906_j24541443129509_1_alg».proof.Defs
import proofs.«105906_j24541443129509_1_alg».proof.Proof.Gen.Kernel
import proofs.«105906_j24541443129509_1_alg».proof.Proof.Gen.Kernel.Frame
import proofs.«105906_j24541443129509_1_alg».proof.Proof.Gen.KernelIdeal
import proofs.«105906_j24541443129509_1_alg».proof.Proof.Gen.KernelIdeal.Frame
import proofs.«105906_j24541443129509_1_alg».proof.Proof.Gen.ReferenceIdeal
import proofs.«105906_j24541443129509_1_alg».proof.Proof.Gen.Pre_finite_inputs
import proofs.«105906_j24541443129509_1_alg».proof.Proof.KernelRun
import proofs.«105906_j24541443129509_1_alg».proof.Proof.KernelValue
import proofs.«105906_j24541443129509_1_alg».proof.Proof.RefRun
import proofs.«105906_j24541443129509_1_alg».proof.Proof.RefArgs
import proofs.«105906_j24541443129509_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs and writes none of its arguments. -/
theorem frame_ri : Cert.frame_ReferenceIdeal := fun m ρ _ =>
  (θ_run Cert.ReferenceIdeal.defs _ _).mono (fun r h c =>
    ⟨(h c Cert.ReferenceIdeal.main_arg0).trans (Cert.ReferenceIdeal.Hand.kept_arg0 _),
     (h c Cert.ReferenceIdeal.main_arg1).trans (Cert.ReferenceIdeal.Hand.kept_arg1 _),
     (h c Cert.ReferenceIdeal.main_arg2).trans (Cert.ReferenceIdeal.Hand.kept_arg2 _),
     (h c Cert.ReferenceIdeal.main_arg3).trans (Cert.ReferenceIdeal.Hand.kept_arg3 _),
     (h c Cert.ReferenceIdeal.main_arg4).trans (Cert.ReferenceIdeal.Hand.kept_arg4 _),
     (h c Cert.ReferenceIdeal.main_arg5).trans (Cert.ReferenceIdeal.Hand.kept_arg5 _),
     (h c Cert.ReferenceIdeal.main_arg6).trans (Cert.ReferenceIdeal.Hand.kept_arg6 _),
     (h c Cert.ReferenceIdeal.main_arg7).trans (Cert.ReferenceIdeal.Hand.kept_arg7 _),
     (h c Cert.ReferenceIdeal.main_arg8).trans (Cert.ReferenceIdeal.Hand.kept_arg8 _)⟩)
    (Cert.ReferenceIdeal.Hand.run (F := Ideal) m ρ)

open Cert.NetSpec in
/-- The network of equal arguments. -/
theorem net_congr {x x' : FVec Ideal SX .f32} {ei ei' : IVec SE 32} {Wl Wl' : FVec Ideal SW3 .f32} {bl bl' : FVec Ideal SB3 .f32}
    {Wr Wr' : FVec Ideal SW3 .f32} {lW lW' : FVec Ideal SW2 .f32} {lb lb' : FVec Ideal SB2 .f32} {Wo Wo' : FVec Ideal SWo .f32}
    {bo bo' : FVec Ideal SBo .f32} (h0 : x = x') (h1 : ei = ei') (h2 : Wl = Wl') (h3 : bl = bl') (h4 : Wr = Wr') (h5 : lW = lW')
    (h6 : lb = lb') (h7 : Wo = Wo') (h8 : bo = bo') :
    net x ei Wl bl Wr lW lb Wo bo = net x' ei' Wl' bl' Wr' lW' lb' Wo' bo' := by
  subst h0 h1 h2 h3 h4 h5 h6 h7 h8; rfl

/-- Both programs end with the network of the arguments in their result arrays. -/
theorem algebraic : Cert.algebraic_KernelIdeal_ReferenceIdeal := by
  intro m ρ m' ρ' _ hagree
  refine ⟨fun c => Cert.NetSpec.net (Cert.KernelIdeal.Net.a0 m c) (Cert.KernelIdeal.Net.a1 m c) (Cert.KernelIdeal.Net.a2 m c)
    (Cert.KernelIdeal.Net.a3 m c) (Cert.KernelIdeal.Net.a4 m c) (Cert.KernelIdeal.Net.a5 m c) (Cert.KernelIdeal.Net.a6 m c)
    (Cert.KernelIdeal.Net.a7 m c) (Cert.KernelIdeal.Net.a8 m c), ?_, ?_⟩
  · exact (θ_run Cert.KernelIdeal.defs _ _).mono
      (fun r h c => ⟨(h c).1.trans (Cert.KernelIdeal.Net.value m ρ c), (h c).2⟩) (Cert.KernelIdeal.Out.run_out m ρ)
  · refine (θ_run Cert.ReferenceIdeal.defs _ _).mono (fun r h c => ⟨?_,
      (h c Cert.ReferenceIdeal.main_arg0).trans (Cert.ReferenceIdeal.Hand.kept_arg0 _),
      (h c Cert.ReferenceIdeal.main_arg1).trans (Cert.ReferenceIdeal.Hand.kept_arg1 _),
      (h c Cert.ReferenceIdeal.main_arg2).trans (Cert.ReferenceIdeal.Hand.kept_arg2 _),
      (h c Cert.ReferenceIdeal.main_arg3).trans (Cert.ReferenceIdeal.Hand.kept_arg3 _),
      (h c Cert.ReferenceIdeal.main_arg4).trans (Cert.ReferenceIdeal.Hand.kept_arg4 _),
      (h c Cert.ReferenceIdeal.main_arg5).trans (Cert.ReferenceIdeal.Hand.kept_arg5 _),
      (h c Cert.ReferenceIdeal.main_arg6).trans (Cert.ReferenceIdeal.Hand.kept_arg6 _),
      (h c Cert.ReferenceIdeal.main_arg7).trans (Cert.ReferenceIdeal.Hand.kept_arg7 _),
      (h c Cert.ReferenceIdeal.main_arg8).trans (Cert.ReferenceIdeal.Hand.kept_arg8 _)⟩)
      (Cert.ReferenceIdeal.Hand.run (F := Ideal) m' ρ')
    refine (h c Cert.ReferenceIdeal.main_v111).trans ((Cert.ReferenceIdeal.Hand.value _).trans ?_)
    obtain ⟨e0, e1, e2, e3, e4, e5, e6, e7, e8⟩ := hagree c
    exact net_congr e0 e1 e2 e3 e4 e5 e6 e7 e8

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
